-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v160)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v95)) (v3 : (c : Dev Cert.KernelIdeal.nD) → Buf (Elt Ideal) ((c.tc : Thread Cert.KernelIdeal.nD Cert.KernelIdeal.τ).loc Cert.KernelIdeal.main_v227)) (v4 : (c : Dev Cert.KernelIdeal.nD) → Buf (Elt Ideal) ((c.tc : Thread Cert.KernelIdeal.nD Cert.KernelIdeal.τ).loc Cert.KernelIdeal.main_v66)) (v5 : (c : Dev Cert.KernelIdeal.nD) → Buf (Elt Ideal) ((c.tc : Thread Cert.KernelIdeal.nD Cert.KernelIdeal.τ).loc Cert.KernelIdeal.main_v171)) (v6 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v95) = v2 c
          ∧ r.2.mem ((c.tc : Thread Cert.KernelIdeal.nD Cert.KernelIdeal.τ).loc Cert.KernelIdeal.main_v227) = v3 c
          ∧ r.2.mem ((c.tc : Thread Cert.KernelIdeal.nD Cert.KernelIdeal.τ).loc Cert.KernelIdeal.main_v66) = v4 c
          ∧ r.2.mem ((c.tc : Thread Cert.KernelIdeal.nD Cert.KernelIdeal.τ).loc Cert.KernelIdeal.main_v171) = v5 c
          ∧ r.2.mem ((c.tc : Thread Cert.KernelIdeal.nD Cert.KernelIdeal.τ).loc Cert.KernelIdeal.main_v162) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v223) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_v167) = v5 c
          ∧ r.2.mem ((c.tc : Thread Cert.ReferenceIdeal.nD Cert.ReferenceIdeal.τ).loc Cert.ReferenceIdeal.main_v158) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x3 : Shape := ⟨2, ![150000, 3]⟩
abbrev S150000x24 : Shape := ⟨2, ![150000, 24]⟩
abbrev S300000x3 : Shape := ⟨2, ![300000, 3]⟩
abbrev S300000x24 : Shape := ⟨2, ![300000, 24]⟩
abbrev S100000x3 : Shape := ⟨2, ![100000, 3]⟩
abbrev S100000 : Shape := ⟨1, ![100000]⟩
abbrev S200000x3 : Shape := ⟨2, ![200000, 3]⟩
abbrev S200000x1 : Shape := ⟨2, ![200000, 1]⟩
abbrev S3 : Shape := ⟨1, ![3]⟩
abbrev S150000 : Shape := ⟨1, ![150000]⟩
abbrev S_ : Shape := ⟨0, ![]⟩

class Facts : Prop where
  bcast_S_S150000x24 : S_.BroadcastsInDim S150000x24 (![] : Fin 0 → Fin S150000x24.rank)
  reducesTo_S150000x24_S_d0_1 : S150000x24.ReducesTo [0, 1] S_
  h_S_ : 0 < S_.numel
  bcast_S_S300000x24 : S_.BroadcastsInDim S300000x24 (![] : Fin 0 → Fin S300000x24.rank)
  reducesTo_S300000x24_S_d0_1 : S300000x24.ReducesTo [0, 1] S_
  bcast_S_S100000 : S_.BroadcastsInDim S100000 (![] : Fin 0 → Fin S100000.rank)
  reducesTo_S100000_S_d0 : S100000.ReducesTo [0] S_
  bcast_S_S200000x1 : S_.BroadcastsInDim S200000x1 (![] : Fin 0 → Fin S200000x1.rank)
  reducesTo_S200000x1_S_d0_1 : S200000x1.ReducesTo [0, 1] S_

variable [Facts]

def fn_part1 {F : FTy → Type} [FloatOps F] (main_v13 : IVec S_ 1) (main_v16 : IVec S200000x1 1) : IVec S_ 1 :=
  let main_c_5 : IVec S_ 1 := constantI S_ 1 1#1
  let main_v17 : IVec S_ 1 := (fun x v => Host.reduce IntOp.andi x v reducesTo_S200000x1_S_d0_1 h_S_) main_v16 main_c_5
  let main_v18 : IVec S_ 1 := andi main_v13 main_v17
  main_v18

def fn {F : FTy → Type} [FloatOps F] (main_arg0 : IVec S150000x3 32) (main_arg1 : FVec F S150000x24 .f32) (main_arg2 : IVec S300000x3 32) (main_arg3 : FVec F S300000x24 .f32) (main_arg4 : IVec S100000x3 32) (main_arg5 : FVec F S100000 .f32) (main_arg6 : IVec S200000x3 32) (main_arg7 : FVec F S200000x1 .f32) (main_arg8 : IVec S3 32) (main_arg9 : IVec S150000 1) (main_arg10 : IVec S150000 1) : IVec S_ 1 :=
  let main_v0 : FVec F S150000x24 .f32 := Host.absf main_arg1
  let main_cst : FVec F S_ .f32 := constant S_ .f32 0x7F800000#32
  let main_v1 : FVec F S150000x24 .f32 := broadcastInDim S150000x24 ![] bcast_S_S150000x24 main_cst
  let main_v2 : IVec S150000x24 1 := cmpf .olt main_v0 main_v1
  let main_c : IVec S_ 1 := constantI S_ 1 1#1
  let main_v3 : IVec S_ 1 := (fun x v => Host.reduce IntOp.andi x v reducesTo_S150000x24_S_d0_1 h_S_) main_v2 main_c
  let main_v4 : FVec F S300000x24 .f32 := Host.absf main_arg3
  let main_cst_0 : FVec F S_ .f32 := constant S_ .f32 0x7F800000#32
  let main_v5 : FVec F S300000x24 .f32 := broadcastInDim S300000x24 ![] bcast_S_S300000x24 main_cst_0
  let main_v6 : IVec S300000x24 1 := cmpf .olt main_v4 main_v5
  let main_c_1 : IVec S_ 1 := constantI S_ 1 1#1
  let main_v7 : IVec S_ 1 := (fun x v => Host.reduce IntOp.andi x v reducesTo_S300000x24_S_d0_1 h_S_) main_v6 main_c_1
  let main_v8 : IVec S_ 1 := andi main_v3 main_v7
  let main_v9 : FVec F S100000 .f32 := Host.absf main_arg5
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S200000x1 .f32 := Host.absf main_arg7
  let main_cst_4 : FVec F S_ .f32 := constant S_ .f32 0x7F800000#32
  let main_v15 : FVec F S200000x1 .f32 := broadcastInDim S200000x1 ![] bcast_S_S200000x1 main_cst_4
  let main_v16 : IVec S200000x1 1 := cmpf .olt main_v14 main_v15
  fn_part1 (F := F) main_v13 main_v16
-- ==== Kernel.lean ====
abbrev S150000x3 : Shape := ⟨2, ![150000, 3]⟩
abbrev S150000x24 : Shape := ⟨2, ![150000, 24]⟩
abbrev S300000x3 : Shape := ⟨2, ![300000, 3]⟩
abbrev S300000x24 : Shape := ⟨2, ![300000, 24]⟩
abbrev S100000x3 : Shape := ⟨2, ![100000, 3]⟩
abbrev S100000 : Shape := ⟨1, ![100000]⟩
abbrev S200000x3 : Shape := ⟨2, ![200000, 3]⟩
abbrev S200000x1 : Shape := ⟨2, ![200000, 1]⟩
abbrev S3 : Shape := ⟨1, ![3]⟩
abbrev S150000 : Shape := ⟨1, ![150000]⟩
abbrev S1x3 : Shape := ⟨2, ![1, 3]⟩
abbrev S_ : Shape := ⟨0, ![]⟩
abbrev S300000 : Shape := ⟨1, ![300000]⟩
abbrev S150000x1 : Shape := ⟨2, ![150000, 1]⟩
abbrev S96x96x96 : Shape := ⟨3, ![96, 96, 96]⟩
abbrev S300000x1 : Shape := ⟨2, ![300000, 1]⟩
abbrev S96x96x96x24 : Shape := ⟨4, ![96, 96, 96, 24]⟩
abbrev S9216x96x24 : Shape := ⟨3, ![9216, 96, 24]⟩
abbrev S9216x96 : Shape := ⟨2, ![9216, 96]⟩
abbrev S256x96x24 : Shape := ⟨3, ![256, 96, 24]⟩
abbrev S256x96 : Shape := ⟨2, ![256, 96]⟩
abbrev S200000 : Shape := ⟨1, ![200000]⟩
abbrev S96x96x96x1 : Shape := ⟨4, ![96, 96, 96, 1]⟩
abbrev S100000x1 : Shape := ⟨2, ![100000, 1]⟩

abbrev nBuf : Space → Nat
  | .hbm => 318
  | .vmem => 6
  | .smem => 0
  | _ => 0

abbrev hbmTy0_0 (i : Nat) : BufTy := match i % 128 with
  | 0 => ⟨S150000x3, .i32⟩
  | 1 => ⟨S150000x24, .f32⟩
  | 2 => ⟨S300000x3, .i32⟩
  | 3 => ⟨S300000x24, .f32⟩
  | 4 => ⟨S100000x3, .i32⟩
  | 5 => ⟨S100000, .f32⟩
  | 6 => ⟨S200000x3, .i32⟩
  | 7 => ⟨S200000x1, .f32⟩
  | 8 => ⟨S3, .i32⟩
  | 9 => ⟨S150000, .i1⟩
  | 10 => ⟨S150000, .i1⟩
  | 11 => ⟨S1x3, .i32⟩
  | 12 => ⟨S300000x3, .i32⟩
  | 13 => ⟨S300000x3, .i32⟩
  | 14 => ⟨S_, .i32⟩
  | 15 => ⟨S300000x3, .i32⟩
  | 16 => ⟨S300000x3, .i1⟩
  | 17 => ⟨S_, .i32⟩
  | 18 => ⟨S300000x3, .i32⟩
  | 19 => ⟨S300000x3, .i1⟩
  | 20 => ⟨S300000x3, .i1⟩
  | 21 => ⟨S_, .i1⟩
  | 22 => ⟨S300000, .i1⟩
  | 23 => ⟨S150000x1, .i1⟩
  | 24 => ⟨S_, .i32⟩
  | 25 => ⟨S_, .i32⟩
  | 26 => ⟨S150000x3, .i1⟩
  | 27 => ⟨S150000x3, .i32⟩
  | 28 => ⟨S150000x3, .i32⟩
  | 29 => ⟨S_, .i1⟩
  | 30 => ⟨S96x96x96, .i1⟩
  | 31 => ⟨S150000x1, .i32⟩
  | 32 => ⟨S150000, .i32⟩
  | 33 => ⟨S150000x1, .i32⟩
  | 34 => ⟨S150000, .i32⟩
  | 35 => ⟨S150000x1, .i32⟩
  | 36 => ⟨S150000, .i32⟩
  | 37 => ⟨S_, .i32⟩
  | 38 => ⟨S150000, .i32⟩
  | 39 => ⟨S150000, .i1⟩
  | 40 => ⟨S_, .i32⟩
  | 41 => ⟨S150000, .i32⟩
  | 42 => ⟨S150000, .i32⟩
  | 43 => ⟨S150000, .i32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x1, .i32⟩
  | 60 => ⟨S150000x1, .i32⟩
  | 61 => ⟨S150000x3, .i32⟩
  | 62 => ⟨S_, .i1⟩
  | 63 => ⟨S150000, .i1⟩
  | 64 => ⟨S96x96x96, .i1⟩
  | 65 => ⟨S_, .i32⟩
  | 66 => ⟨S_, .i32⟩
  | 67 => ⟨S_, .i32⟩
  | 68 => ⟨S300000x3, .i32⟩
  | 69 => ⟨S300000x3, .i32⟩
  | 70 => ⟨S_, .i32⟩
  | 71 => ⟨S300000x3, .i32⟩
  | 72 => ⟨S300000x3, .i32⟩
  | 73 => ⟨S300000x1, .i32⟩
  | 74 => ⟨S300000, .i32⟩
  | 75 => ⟨S300000x1, .i32⟩
  | 76 => ⟨S300000, .i32⟩
  | 77 => ⟨S300000x1, .i32⟩
  | 78 => ⟨S300000, .i32⟩
  | 79 => ⟨S_, .i32⟩
  | 80 => ⟨S300000, .i32⟩
  | 81 => ⟨S300000, .i1⟩
  | 82 => ⟨S_, .i32⟩
  | 83 => ⟨S300000, .i32⟩
  | 84 => ⟨S300000, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x1, .i32⟩
  | 102 => ⟨S300000x1, .i32⟩
  | 103 => ⟨S300000x3, .i32⟩
  | 104 => ⟨S300000, .i1⟩
  | 105 => ⟨S300000, .i1⟩
  | 106 => ⟨S300000x1, .i1⟩
  | 107 => ⟨S_, .i32⟩
  | 108 => ⟨S_, .i32⟩
  | 109 => ⟨S300000x3, .i1⟩
  | 110 => ⟨S300000x3, .i32⟩
  | 111 => ⟨S300000x3, .i32⟩
  | 112 => ⟨S_, .f32⟩
  | 113 => ⟨S96x96x96x24, .f32⟩
  | 114 => ⟨S300000x1, .i32⟩
  | 115 => ⟨S300000, .i32⟩
  | 116 => ⟨S300000x1, .i32⟩
  | 117 => ⟨S300000, .i32⟩
  | 118 => ⟨S300000x1, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S_, .i32⟩
  | _ => ⟨S150000x3, .i32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x1, .i32⟩
  | 15 => ⟨S300000x1, .i32⟩
  | 16 => ⟨S300000x3, .i32⟩
  | 17 => ⟨S96x96x96x24, .f32⟩
  | 18 => ⟨S_, .f32⟩
  | 19 => ⟨S96x96x96x24, .f32⟩
  | 20 => ⟨S150000x1, .i32⟩
  | 21 => ⟨S150000, .i32⟩
  | 22 => ⟨S150000x1, .i32⟩
  | 23 => ⟨S150000, .i32⟩
  | 24 => ⟨S150000x1, .i32⟩
  | 25 => ⟨S150000, .i32⟩
  | 26 => ⟨S_, .i32⟩
  | 27 => ⟨S150000, .i32⟩
  | 28 => ⟨S150000, .i1⟩
  | 29 => ⟨S_, .i32⟩
  | 30 => ⟨S150000, .i32⟩
  | 31 => ⟨S150000, .i32⟩
  | 32 => ⟨S150000, .i32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S_, .i32⟩
  | 41 => ⟨S150000, .i32⟩
  | 42 => ⟨S150000, .i1⟩
  | 43 => ⟨S_, .i32⟩
  | 44 => ⟨S150000, .i32⟩
  | 45 => ⟨S150000, .i32⟩
  | 46 => ⟨S150000, .i32⟩
  | 47 => ⟨S150000x1, .i32⟩
  | 48 => ⟨S150000x1, .i32⟩
  | 49 => ⟨S150000x1, .i32⟩
  | 50 => ⟨S150000x3, .i32⟩
  | 51 => ⟨S96x96x96x24, .f32⟩
  | 52 => ⟨S150000x1, .i1⟩
  | 53 => ⟨S_, .i32⟩
  | 54 => ⟨S_, .i32⟩
  | 55 => ⟨S150000x3, .i1⟩
  | 56 => ⟨S150000x3, .i32⟩
  | 57 => ⟨S150000x3, .i32⟩
  | 58 => ⟨S_, .i1⟩
  | 59 => ⟨S96x96x96, .i1⟩
  | 60 => ⟨S150000x1, .i32⟩
  | 61 => ⟨S150000, .i32⟩
  | 62 => ⟨S150000x1, .i32⟩
  | 63 => ⟨S150000, .i32⟩
  | 64 => ⟨S150000x1, .i32⟩
  | 65 => ⟨S150000, .i32⟩
  | 66 => ⟨S_, .i32⟩
  | 67 => ⟨S150000, .i32⟩
  | 68 => ⟨S150000, .i1⟩
  | 69 => ⟨S_, .i32⟩
  | 70 => ⟨S150000, .i32⟩
  | 71 => ⟨S150000, .i32⟩
  | 72 => ⟨S150000, .i32⟩
  | 73 => ⟨S_, .i32⟩
  | 74 => ⟨S150000, .i32⟩
  | 75 => ⟨S150000, .i1⟩
  | 76 => ⟨S_, .i32⟩
  | 77 => ⟨S150000, .i32⟩
  | 78 => ⟨S150000, .i32⟩
  | 79 => ⟨S150000, .i32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x1, .i32⟩
  | 89 => ⟨S150000x1, .i32⟩
  | 90 => ⟨S150000x3, .i32⟩
  | 91 => ⟨S_, .i1⟩
  | 92 => ⟨S150000, .i1⟩
  | 93 => ⟨S96x96x96, .i1⟩
  | 94 => ⟨S9216x96x24, .f32⟩
  | 95 => ⟨S96x96x96, .i32⟩
  | 96 => ⟨S9216x96, .i32⟩
  | 97 => ⟨S9216x96, .i32⟩
  | 98 => ⟨S96x96x96, .i32⟩
  | 99 => ⟨S_, .i32⟩
  | 100 => ⟨S96x96x96, .i32⟩
  | 101 => ⟨S96x96x96, .i1⟩
  | 102 => ⟨S96x96x96, .i1⟩
  | 103 => ⟨S300000, .i1⟩
  | 104 => ⟨S300000, .i1⟩
  | 105 => ⟨S1x3, .i32⟩
  | 106 => ⟨S200000x3, .i32⟩
  | 107 => ⟨S200000x3, .i32⟩
  | 108 => ⟨S_, .i32⟩
  | 109 => ⟨S200000x3, .i32⟩
  | 110 => ⟨S200000x3, .i1⟩
  | 111 => ⟨S_, .i32⟩
  | 112 => ⟨S200000x3, .i32⟩
  | 113 => ⟨S200000x3, .i1⟩
  | 114 => ⟨S200000x3, .i1⟩
  | 115 => ⟨S_, .i1⟩
  | 116 => ⟨S200000, .i1⟩
  | 117 => ⟨S200000x1, .i1⟩
  | 118 => ⟨S_, .i32⟩
  | 119 => ⟨S_, .i32⟩
  | 120 => ⟨S200000x3, .i1⟩
  | 121 => ⟨S200000x3, .i32⟩
  | 122 => ⟨S200000x3, .i32⟩
  | 123 => ⟨S_, .f32⟩
  | 124 => ⟨S96x96x96x1, .f32⟩
  | 125 => ⟨S200000x1, .i32⟩
  | 126 => ⟨S200000, .i32⟩
  | 127 => ⟨S200000x1, .i32⟩
  | _ => ⟨S150000x3, .i32⟩

abbrev hbmTy0_2 (i : Nat) : BufTy := match i % 128 with
  | 0 => ⟨S200000, .i32⟩
  | 1 => ⟨S200000x1, .i32⟩
  | 2 => ⟨S200000, .i32⟩
  | 3 => ⟨S_, .i32⟩
  | 4 => ⟨S200000, .i32⟩
  | 5 => ⟨S200000, .i1⟩
  | 6 => ⟨S_, .i32⟩
  | 7 => ⟨S200000, .i32⟩
  | 8 => ⟨S200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S_, .i32⟩
  | 18 => ⟨S200000, .i32⟩
  | 19 => ⟨S200000, .i1⟩
  | 20 => ⟨S_, .i32⟩
  | 21 => ⟨S200000, .i32⟩
  | 22 => ⟨S200000, .i32⟩
  | 23 => ⟨S200000, .i32⟩
  | 24 => ⟨S200000x1, .i32⟩
  | 25 => ⟨S200000x1, .i32⟩
  | 26 => ⟨S200000x1, .i32⟩
  | 27 => ⟨S200000x3, .i32⟩
  | 28 => ⟨S96x96x96x1, .f32⟩
  | 29 => ⟨S100000x1, .i32⟩
  | 30 => ⟨S100000, .i32⟩
  | 31 => ⟨S100000x1, .i32⟩
  | 32 => ⟨S100000, .i32⟩
  | 33 => ⟨S100000x1, .i32⟩
  | 34 => ⟨S100000, .i32⟩
  | 35 => ⟨S100000x1, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x1, .i32⟩
  | 59 => ⟨S100000x1, .i32⟩
  | 60 => ⟨S100000x3, .i32⟩
  | 61 => ⟨S96x96x96x1, .f32⟩
  | _ => ⟨S150000x3, .i32⟩

abbrev hbmTy (i : Nat) : BufTy := match i / 128 with
  | 0 => hbmTy0_0 i
  | 1 => hbmTy0_1 i
  | 2 => hbmTy0_2 i
  | _ => ⟨S150000x3, .i32⟩

abbrev bufTy : (tb : Table) → Fin (tcTables nBuf tb) → BufTy
  | .hbm, ⟨i, _⟩ => hbmTy i
  | .local _ .vmem, ⟨0, _⟩ => ⟨S256x96x24, .f32⟩
  | .local _ .vmem, ⟨1, _⟩ => ⟨S256x96x24, .f32⟩
  | .local _ .vmem, ⟨2, _⟩ => ⟨S256x96, .i32⟩
  | .local _ .vmem, ⟨3, _⟩ => ⟨S256x96, .i32⟩
  | .local _ .vmem, ⟨4, _⟩ => ⟨S256x96, .i32⟩
  | .local _ .vmem, ⟨5, _⟩ => ⟨S256x96, .i32⟩
  | _, _ => ⟨S150000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_c_12 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_13 : Ref sig .tc := ⟨.hbm, 79, rfl⟩
abbrev main_v46 : Ref sig .tc := ⟨.hbm, 80, rfl⟩
abbrev main_v47 : Ref sig .tc := ⟨.hbm, 81, rfl⟩
abbrev main_c_14 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_v51 : Ref sig .tc := ⟨.hbm, 87, rfl⟩
abbrev main_v52 : Ref sig .tc := ⟨.hbm, 88, rfl⟩
abbrev main_c_16 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_17 : Ref sig .tc := ⟨.hbm, 93, rfl⟩
abbrev main_v56 : Ref sig .tc := ⟨.hbm, 94, rfl⟩
abbrev main_v57 : Ref sig .tc := ⟨.hbm, 95, rfl⟩
abbrev main_c_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_19 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v68 : Ref sig .tc := ⟨.hbm, 111, rfl⟩
abbrev main_cst : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_20 : Ref sig .tc := ⟨.hbm, 120, rfl⟩
abbrev main_v76 : Ref sig .tc := ⟨.hbm, 121, rfl⟩
abbrev main_v77 : Ref sig .tc := ⟨.hbm, 122, rfl⟩
abbrev main_c_21 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_22 : Ref sig .tc := ⟨.hbm, 127, rfl⟩
abbrev main_v81 : Ref sig .tc := ⟨.hbm, 128, rfl⟩
abbrev main_v82 : Ref sig .tc := ⟨.hbm, 129, rfl⟩
abbrev main_c_23 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_24 : Ref sig .tc := ⟨.hbm, 134, rfl⟩
abbrev main_v86 : Ref sig .tc := ⟨.hbm, 135, rfl⟩
abbrev main_v87 : Ref sig .tc := ⟨.hbm, 136, rfl⟩
abbrev main_c_25 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_26 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_27 : Ref sig .tc := ⟨.hbm, 154, rfl⟩
abbrev main_v103 : Ref sig .tc := ⟨.hbm, 155, rfl⟩
abbrev main_v104 : Ref sig .tc := ⟨.hbm, 156, rfl⟩
abbrev main_c_28 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_29 : Ref sig .tc := ⟨.hbm, 161, rfl⟩
abbrev main_v108 : Ref sig .tc := ⟨.hbm, 162, rfl⟩
abbrev main_v109 : Ref sig .tc := ⟨.hbm, 163, rfl⟩
abbrev main_c_30 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_c_31 : Ref sig .tc := ⟨.hbm, 168, rfl⟩
abbrev main_v113 : Ref sig .tc := ⟨.hbm, 169, rfl⟩
abbrev main_v114 : Ref sig .tc := ⟨.hbm, 170, rfl⟩
abbrev main_c_32 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_33 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v124 : Ref sig .tc := ⟨.hbm, 185, rfl⟩
abbrev main_c_34 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_35 : Ref sig .tc := ⟨.hbm, 194, rfl⟩
abbrev main_v132 : Ref sig .tc := ⟨.hbm, 195, rfl⟩
abbrev main_v133 : Ref sig .tc := ⟨.hbm, 196, rfl⟩
abbrev main_c_36 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_c_37 : Ref sig .tc := ⟨.hbm, 201, rfl⟩
abbrev main_v137 : Ref sig .tc := ⟨.hbm, 202, rfl⟩
abbrev main_v138 : Ref sig .tc := ⟨.hbm, 203, rfl⟩
abbrev main_c_38 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_c_39 : Ref sig .tc := ⟨.hbm, 208, rfl⟩
abbrev main_v142 : Ref sig .tc := ⟨.hbm, 209, rfl⟩
abbrev main_v143 : Ref sig .tc := ⟨.hbm, 210, rfl⟩
abbrev main_c_40 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_c_41 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_c_42 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_c_43 : Ref sig .tc := ⟨.hbm, 236, rfl⟩
abbrev main_v166 : Ref sig .tc := ⟨.hbm, 237, rfl⟩
abbrev main_v167 : Ref sig .tc := ⟨.hbm, 238, rfl⟩
abbrev main_c_44 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_c_45 : Ref sig .tc := ⟨.hbm, 243, rfl⟩
abbrev main_v171 : Ref sig .tc := ⟨.hbm, 244, rfl⟩
abbrev main_v172 : Ref sig .tc := ⟨.hbm, 245, rfl⟩
abbrev main_c_46 : Ref sig .tc := ⟨.hbm, 246, rfl⟩
abbrev main_call4_v0 : Ref sig .tc := ⟨.hbm, 247, rfl⟩
abbrev main_call4_v1 : Ref sig .tc := ⟨.hbm, 248, rfl⟩
abbrev main_call4_v2 : Ref sig .tc := ⟨.hbm, 249, rfl⟩
abbrev main_v173 : Ref sig .tc := ⟨.hbm, 250, rfl⟩
abbrev main_cst_47 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_c_48 : Ref sig .tc := ⟨.hbm, 259, rfl⟩
abbrev main_v181 : Ref sig .tc := ⟨.hbm, 260, rfl⟩
abbrev main_v182 : Ref sig .tc := ⟨.hbm, 261, rfl⟩
abbrev main_c_49 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_c_50 : Ref sig .tc := ⟨.hbm, 266, rfl⟩
abbrev main_v186 : Ref sig .tc := ⟨.hbm, 267, rfl⟩
abbrev main_v187 : Ref sig .tc := ⟨.hbm, 268, rfl⟩
abbrev main_c_51 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_c_52 : Ref sig .tc := ⟨.hbm, 273, rfl⟩
abbrev main_v191 : Ref sig .tc := ⟨.hbm, 274, rfl⟩
abbrev main_v192 : Ref sig .tc := ⟨.hbm, 275, rfl⟩
abbrev main_c_53 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_c_54 : Ref sig .tc := ⟨.hbm, 292, rfl⟩
abbrev main_v208 : Ref sig .tc := ⟨.hbm, 293, rfl⟩
abbrev main_v209 : Ref sig .tc := ⟨.hbm, 294, rfl⟩
abbrev main_c_55 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_c_56 : Ref sig .tc := ⟨.hbm, 299, rfl⟩
abbrev main_v213 : Ref sig .tc := ⟨.hbm, 300, rfl⟩
abbrev main_v214 : Ref sig .tc := ⟨.hbm, 301, rfl⟩
abbrev main_c_57 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_c_58 : Ref sig .tc := ⟨.hbm, 306, rfl⟩
abbrev main_v218 : Ref sig .tc := ⟨.hbm, 307, rfl⟩
abbrev main_v219 : Ref sig .tc := ⟨.hbm, 308, rfl⟩
abbrev main_c_59 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![36], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x96x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x96 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x96 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  reducesTo_S300000x3_S300000_d1 : S300000x3.ReducesTo [1] S300000
  h_S_ : 0 < S_.numel
  bcast_S150000_S150000x1_0 : S150000.BroadcastsInDim S150000x1 (![0] : Fin 1 → Fin S150000x1.rank)
  bcast_S150000x1_S150000x3_0_1 : S150000x1.BroadcastsInDim S150000x3 (![0, 1] : Fin 2 → Fin S150000x3.rank)
  bcast_S_S150000x3 : S_.BroadcastsInDim S150000x3 (![] : Fin 0 → Fin S150000x3.rank)
  bcast_S_S96x96x96 : S_.BroadcastsInDim S96x96x96 (![] : Fin 0 → Fin S96x96x96.rank)
  slices_S150000x3_S150000x1_0_0 : S150000x3.Slices ![0, 0] S150000x1
  shapeCasts_S150000x1_S150000 : S150000x1.ShapeCasts S150000
  slices_S150000x3_S150000x1_0_1 : S150000x3.Slices ![0, 1] S150000x1
  slices_S150000x3_S150000x1_0_2 : S150000x3.Slices ![0, 2] S150000x1
  bcast_S_S150000 : S_.BroadcastsInDim S150000 (![] : Fin 0 → Fin S150000.rank)
  concatenates_S150000x1_S150000x1_S150000x1_S150000x3_d1 : Shape.Concatenates [S150000x1, S150000x1, S150000x1] S150000x3 1
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bcast_S_S300000 : S_.BroadcastsInDim S300000 (![] : Fin 0 → Fin S300000.rank)
  bcast_S300000_S300000x1_0 : S300000.BroadcastsInDim S300000x1 (![0] : Fin 1 → Fin S300000x1.rank)
  concatenates_S300000x1_S300000x1_S300000x1_S300000x3_d1 : Shape.Concatenates [S300000x1, S300000x1, S300000x1] S300000x3 1
  bcast_S300000x1_S300000x3_0_1 : S300000x1.BroadcastsInDim S300000x3 (![0, 1] : Fin 2 → Fin S300000x3.rank)
  bcast_S_S96x96x96x24 : S_.BroadcastsInDim S96x96x96x24 (![] : Fin 0 → Fin S96x96x96x24.rank)
  shapeCasts_S96x96x96x24_S9216x96x24 : S96x96x96x24.ShapeCasts S9216x96x24
  natLt_1_32 : 1 < 32
  shapeCasts_S96x96x96_S9216x96 : S96x96x96.ShapeCasts S9216x96
  inb_S256x96x24_S256x96x24_0_0_0 : ∀ a, (![0, 0, 0] : Fin 3 → Nat) a + S256x96x24.size a ≤ S256x96x24.size a
  h_S256x96x24 : 0 < S256x96x24.numel
  shapeCasts_S256x96x24_S256x96x24 : S256x96x24.ShapeCasts S256x96x24
  reduces_S256x96x24_S256x96 : S256x96x24.Reduces [2] S256x96
  inb_S256x96_S256x96_0_0 : ∀ a, (![0, 0] : Fin 2 → Nat) a + S256x96.size a ≤ S256x96.size a
  h_S256x96 : 0 < S256x96.numel
  shapeCasts_S256x96_S256x96 : S256x96.ShapeCasts S256x96
  shapeCasts_S9216x96_S96x96x96 : S9216x96.ShapeCasts S96x96x96
  bcast_S1x3_S200000x3_0_1 : S1x3.BroadcastsInDim S200000x3 (![0, 1] : Fin 2 → Fin S200000x3.rank)
  bcast_S_S200000x3 : S_.BroadcastsInDim S200000x3 (![] : Fin 0 → Fin S200000x3.rank)
  reducesTo_S200000x3_S200000_d1 : S200000x3.ReducesTo [1] S200000
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  bcast_S_S96x96x96x1 : S_.BroadcastsInDim S96x96x96x1 (![] : Fin 0 → Fin S96x96x96x1.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  concatenates_S200000x1_S200000x1_S200000x1_S200000x3_d1 : Shape.Concatenates [S200000x1, S200000x1, S200000x1] S200000x3 1
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S100000_S100000x1_0 : S100000.BroadcastsInDim S100000x1 (![0] : Fin 1 → Fin S100000x1.rank)
  bcast_S_S100000 : S_.BroadcastsInDim S100000 (![] : Fin 0 → Fin S100000.rank)
  concatenates_S100000x1_S100000x1_S100000x1_S100000x3_d1 : Shape.Concatenates [S100000x1, S100000x1, S100000x1] S100000x3 1
  scatter_S96x96x96_S150000x3_S150000_n_012_012_1_wf : ScatterDims.WF S96x96x96 S150000x3 S150000 [] [0, 1, 2] [0, 1, 2] 1
  gather_S96x96x96_S300000x3_S300000_n_012_n_n_012_1_111_wf : GatherDims.WF S96x96x96 S300000x3 S300000 [] [0, 1, 2] [] [0, 1, 2] [] 1 ![1, 1, 1]
  scatter_S96x96x96x24_S300000x3_S300000x24_1_012_012_1_wf : ScatterDims.WF S96x96x96x24 S300000x3 S300000x24 [1] [0, 1, 2] [0, 1, 2] 1
  scatter_S96x96x96x24_S150000x3_S150000x24_1_012_012_1_wf : ScatterDims.WF S96x96x96x24 S150000x3 S150000x24 [1] [0, 1, 2] [0, 1, 2] 1
  scatter_S96x96x96x1_S200000x3_S200000x1_1_012_012_1_wf : ScatterDims.WF S96x96x96x1 S200000x3 S200000x1 [1] [0, 1, 2] [0, 1, 2] 1
  scatter_S96x96x96x1_S100000x3_S100000x1_1_012_012_1_wf : ScatterDims.WF S96x96x96x1 S100000x3 S100000x1 [1] [0, 1, 2] [0, 1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x96x24.size a ≤ S9216x96x24.size a
  hwx0_0 : ∀ i : grid0.Coords, EltTy.bits .f32 = 32 ∨ (Rect.block (s := S9216x96x24) S256x96x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x96.size a ≤ S9216x96.size a
  hwx0_1 : ∀ i : grid0.Coords, EltTy.bits .i32 = 32 ∨ (Rect.block (s := S9216x96) S256x96.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x96.size a ≤ S9216x96.size a
  hwx0_2 : ∀ i : grid0.Coords, EltTy.bits .i32 = 32 ∨ (Rect.block (s := S9216x96) S256x96.size (cc0_transform_2 i) (hinb0_2 i)).WholeWords (EltTy.packing .i32)

variable [Facts₀]

def scatter_S96x96x96_S150000x3_S150000_n_012_012_1 : ScatterDims S96x96x96 S150000x3 S150000 where
  updateWindowDims := []
  insertedWindowDims := [0, 1, 2]
  scatterDimsToOperandDims := [0, 1, 2]
  indexVectorDim := 1
  wf := scatter_S96x96x96_S150000x3_S150000_n_012_012_1_wf
def gather_S96x96x96_S300000x3_S300000_n_012_n_n_012_1_111 : GatherDims S96x96x96 S300000x3 S300000 where
  offsetDims := []
  collapsedSliceDims := [0, 1, 2]
  operandBatchingDims := []
  startIndicesBatchingDims := []
  startIndexMap := [0, 1, 2]
  indexVectorDim := 1
  sliceSizes := ![1, 1, 1]
  wf := gather_S96x96x96_S300000x3_S300000_n_012_n_n_012_1_111_wf
def scatter_S96x96x96x24_S300000x3_S300000x24_1_012_012_1 : ScatterDims S96x96x96x24 S300000x3 S300000x24 where
  updateWindowDims := [1]
  insertedWindowDims := [0, 1, 2]
  scatterDimsToOperandDims := [0, 1, 2]
  indexVectorDim := 1
  wf := scatter_S96x96x96x24_S300000x3_S300000x24_1_012_012_1_wf
def scatter_S96x96x96x24_S150000x3_S150000x24_1_012_012_1 : ScatterDims S96x96x96x24 S150000x3 S150000x24 where
  updateWindowDims := [1]
  insertedWindowDims := [0, 1, 2]
  scatterDimsToOperandDims := [0, 1, 2]
  indexVectorDim := 1
  wf := scatter_S96x96x96x24_S150000x3_S150000x24_1_012_012_1_wf
def scatter_S96x96x96x1_S200000x3_S200000x1_1_012_012_1 : ScatterDims S96x96x96x1 S200000x3 S200000x1 where
  updateWindowDims := [1]
  insertedWindowDims := [0, 1, 2]
  scatterDimsToOperandDims := [0, 1, 2]
  indexVectorDim := 1
  wf := scatter_S96x96x96x1_S200000x3_S200000x1_1_012_012_1_wf
def scatter_S96x96x96x1_S100000x3_S100000x1_1_012_012_1 : ScatterDims S96x96x96x1 S100000x3 S100000x1 where
  updateWindowDims := [1]
  insertedWindowDims := [0, 1, 2]
  scatterDimsToOperandDims := [0, 1, 2]
  indexVectorDim := 1
  wf := scatter_S96x96x96x1_S100000x3_S100000x1_1_012_012_1_wf

abbrev win0_0 : Pipeline.Window sig grid0 :=
  Pipeline.Window.ofSpec (Memref.whole main_v153) S256x96x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v155) S256x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v156) S256x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S150000x3 : Shape := ⟨2, ![150000, 3]⟩
abbrev S150000x24 : Shape := ⟨2, ![150000, 24]⟩
abbrev S300000x3 : Shape := ⟨2, ![300000, 3]⟩
abbrev S300000x24 : Shape := ⟨2, ![300000, 24]⟩
abbrev S100000x3 : Shape := ⟨2, ![100000, 3]⟩
abbrev S100000 : Shape := ⟨1, ![100000]⟩
abbrev S200000x3 : Shape := ⟨2, ![200000, 3]⟩
abbrev S200000x1 : Shape := ⟨2, ![200000, 1]⟩
abbrev S3 : Shape := ⟨1, ![3]⟩
abbrev S150000 : Shape := ⟨1, ![150000]⟩
abbrev S1x3 : Shape := ⟨2, ![1, 3]⟩
abbrev S_ : Shape := ⟨0, ![]⟩
abbrev S300000 : Shape := ⟨1, ![300000]⟩
abbrev S150000x1 : Shape := ⟨2, ![150000, 1]⟩
abbrev S96x96x96 : Shape := ⟨3, ![96, 96, 96]⟩
abbrev S300000x1 : Shape := ⟨2, ![300000, 1]⟩
abbrev S96x96x96x24 : Shape := ⟨4, ![96, 96, 96, 24]⟩
abbrev S200000 : Shape := ⟨1, ![200000]⟩
abbrev S96x96x96x1 : Shape := ⟨4, ![96, 96, 96, 1]⟩
abbrev S100000x1 : Shape := ⟨2, ![100000, 1]⟩

abbrev nBuf : Space → Nat
  | .hbm => 315
  | .vmem => 0
  | .smem => 0
  | _ => 0

abbrev hbmTy0_0 (i : Nat) : BufTy := match i % 128 with
  | 0 => ⟨S150000x3, .i32⟩
  | 1 => ⟨S150000x24, .f32⟩
  | 2 => ⟨S300000x3, .i32⟩
  | 3 => ⟨S300000x24, .f32⟩
  | 4 => ⟨S100000x3, .i32⟩
  | 5 => ⟨S100000, .f32⟩
  | 6 => ⟨S200000x3, .i32⟩
  | 7 => ⟨S200000x1, .f32⟩
  | 8 => ⟨S3, .i32⟩
  | 9 => ⟨S150000, .i1⟩
  | 10 => ⟨S150000, .i1⟩
  | 11 => ⟨S1x3, .i32⟩
  | 12 => ⟨S300000x3, .i32⟩
  | 13 => ⟨S300000x3, .i32⟩
  | 14 => ⟨S_, .i32⟩
  | 15 => ⟨S300000x3, .i32⟩
  | 16 => ⟨S300000x3, .i1⟩
  | 17 => ⟨S_, .i32⟩
  | 18 => ⟨S300000x3, .i32⟩
  | 19 => ⟨S300000x3, .i1⟩
  | 20 => ⟨S300000x3, .i1⟩
  | 21 => ⟨S_, .i1⟩
  | 22 => ⟨S300000, .i1⟩
  | 23 => ⟨S150000x1, .i1⟩
  | 24 => ⟨S_, .i32⟩
  | 25 => ⟨S_, .i32⟩
  | 26 => ⟨S150000x3, .i1⟩
  | 27 => ⟨S150000x3, .i32⟩
  | 28 => ⟨S150000x3, .i32⟩
  | 29 => ⟨S_, .i1⟩
  | 30 => ⟨S96x96x96, .i1⟩
  | 31 => ⟨S150000x1, .i32⟩
  | 32 => ⟨S150000, .i32⟩
  | 33 => ⟨S150000x1, .i32⟩
  | 34 => ⟨S150000, .i32⟩
  | 35 => ⟨S150000x1, .i32⟩
  | 36 => ⟨S150000, .i32⟩
  | 37 => ⟨S_, .i32⟩
  | 38 => ⟨S150000, .i32⟩
  | 39 => ⟨S150000, .i1⟩
  | 40 => ⟨S_, .i32⟩
  | 41 => ⟨S150000, .i32⟩
  | 42 => ⟨S150000, .i32⟩
  | 43 => ⟨S150000, .i32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000x1, .i32⟩
  | 60 => ⟨S150000x1, .i32⟩
  | 61 => ⟨S150000x3, .i32⟩
  | 62 => ⟨S_, .i1⟩
  | 63 => ⟨S150000, .i1⟩
  | 64 => ⟨S96x96x96, .i1⟩
  | 65 => ⟨S_, .i32⟩
  | 66 => ⟨S_, .i32⟩
  | 67 => ⟨S_, .i32⟩
  | 68 => ⟨S300000x3, .i32⟩
  | 69 => ⟨S300000x3, .i32⟩
  | 70 => ⟨S_, .i32⟩
  | 71 => ⟨S300000x3, .i32⟩
  | 72 => ⟨S300000x3, .i32⟩
  | 73 => ⟨S300000x1, .i32⟩
  | 74 => ⟨S300000, .i32⟩
  | 75 => ⟨S300000x1, .i32⟩
  | 76 => ⟨S300000, .i32⟩
  | 77 => ⟨S300000x1, .i32⟩
  | 78 => ⟨S300000, .i32⟩
  | 79 => ⟨S_, .i32⟩
  | 80 => ⟨S300000, .i32⟩
  | 81 => ⟨S300000, .i1⟩
  | 82 => ⟨S_, .i32⟩
  | 83 => ⟨S300000, .i32⟩
  | 84 => ⟨S300000, .i32⟩
  | 85 => ⟨S300000, .i32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S_, .i32⟩
  | 94 => ⟨S300000, .i32⟩
  | 95 => ⟨S300000, .i1⟩
  | 96 => ⟨S_, .i32⟩
  | 97 => ⟨S300000, .i32⟩
  | 98 => ⟨S300000, .i32⟩
  | 99 => ⟨S300000, .i32⟩
  | 100 => ⟨S300000x1, .i32⟩
  | 101 => ⟨S300000x1, .i32⟩
  | 102 => ⟨S300000x1, .i32⟩
  | 103 => ⟨S300000x3, .i32⟩
  | 104 => ⟨S300000, .i1⟩
  | 105 => ⟨S300000, .i1⟩
  | 106 => ⟨S300000x1, .i1⟩
  | 107 => ⟨S_, .i32⟩
  | 108 => ⟨S_, .i32⟩
  | 109 => ⟨S300000x3, .i1⟩
  | 110 => ⟨S300000x3, .i32⟩
  | 111 => ⟨S300000x3, .i32⟩
  | 112 => ⟨S_, .f32⟩
  | 113 => ⟨S96x96x96x24, .f32⟩
  | 114 => ⟨S300000x1, .i32⟩
  | 115 => ⟨S300000, .i32⟩
  | 116 => ⟨S300000x1, .i32⟩
  | 117 => ⟨S300000, .i32⟩
  | 118 => ⟨S300000x1, .i32⟩
  | 119 => ⟨S300000, .i32⟩
  | 120 => ⟨S_, .i32⟩
  | 121 => ⟨S300000, .i32⟩
  | 122 => ⟨S300000, .i1⟩
  | 123 => ⟨S_, .i32⟩
  | 124 => ⟨S300000, .i32⟩
  | 125 => ⟨S300000, .i32⟩
  | 126 => ⟨S300000, .i32⟩
  | 127 => ⟨S_, .i32⟩
  | _ => ⟨S150000x3, .i32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x1, .i32⟩
  | 15 => ⟨S300000x1, .i32⟩
  | 16 => ⟨S300000x3, .i32⟩
  | 17 => ⟨S96x96x96x24, .f32⟩
  | 18 => ⟨S_, .f32⟩
  | 19 => ⟨S96x96x96x24, .f32⟩
  | 20 => ⟨S150000x1, .i32⟩
  | 21 => ⟨S150000, .i32⟩
  | 22 => ⟨S150000x1, .i32⟩
  | 23 => ⟨S150000, .i32⟩
  | 24 => ⟨S150000x1, .i32⟩
  | 25 => ⟨S150000, .i32⟩
  | 26 => ⟨S_, .i32⟩
  | 27 => ⟨S150000, .i32⟩
  | 28 => ⟨S150000, .i1⟩
  | 29 => ⟨S_, .i32⟩
  | 30 => ⟨S150000, .i32⟩
  | 31 => ⟨S150000, .i32⟩
  | 32 => ⟨S150000, .i32⟩
  | 33 => ⟨S_, .i32⟩
  | 34 => ⟨S150000, .i32⟩
  | 35 => ⟨S150000, .i1⟩
  | 36 => ⟨S_, .i32⟩
  | 37 => ⟨S150000, .i32⟩
  | 38 => ⟨S150000, .i32⟩
  | 39 => ⟨S150000, .i32⟩
  | 40 => ⟨S_, .i32⟩
  | 41 => ⟨S150000, .i32⟩
  | 42 => ⟨S150000, .i1⟩
  | 43 => ⟨S_, .i32⟩
  | 44 => ⟨S150000, .i32⟩
  | 45 => ⟨S150000, .i32⟩
  | 46 => ⟨S150000, .i32⟩
  | 47 => ⟨S150000x1, .i32⟩
  | 48 => ⟨S150000x1, .i32⟩
  | 49 => ⟨S150000x1, .i32⟩
  | 50 => ⟨S150000x3, .i32⟩
  | 51 => ⟨S96x96x96x24, .f32⟩
  | 52 => ⟨S150000x1, .i1⟩
  | 53 => ⟨S_, .i32⟩
  | 54 => ⟨S_, .i32⟩
  | 55 => ⟨S150000x3, .i1⟩
  | 56 => ⟨S150000x3, .i32⟩
  | 57 => ⟨S150000x3, .i32⟩
  | 58 => ⟨S_, .i1⟩
  | 59 => ⟨S96x96x96, .i1⟩
  | 60 => ⟨S150000x1, .i32⟩
  | 61 => ⟨S150000, .i32⟩
  | 62 => ⟨S150000x1, .i32⟩
  | 63 => ⟨S150000, .i32⟩
  | 64 => ⟨S150000x1, .i32⟩
  | 65 => ⟨S150000, .i32⟩
  | 66 => ⟨S_, .i32⟩
  | 67 => ⟨S150000, .i32⟩
  | 68 => ⟨S150000, .i1⟩
  | 69 => ⟨S_, .i32⟩
  | 70 => ⟨S150000, .i32⟩
  | 71 => ⟨S150000, .i32⟩
  | 72 => ⟨S150000, .i32⟩
  | 73 => ⟨S_, .i32⟩
  | 74 => ⟨S150000, .i32⟩
  | 75 => ⟨S150000, .i1⟩
  | 76 => ⟨S_, .i32⟩
  | 77 => ⟨S150000, .i32⟩
  | 78 => ⟨S150000, .i32⟩
  | 79 => ⟨S150000, .i32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x1, .i32⟩
  | 89 => ⟨S150000x1, .i32⟩
  | 90 => ⟨S150000x3, .i32⟩
  | 91 => ⟨S_, .i1⟩
  | 92 => ⟨S150000, .i1⟩
  | 93 => ⟨S96x96x96, .i1⟩
  | 94 => ⟨S_, .f32⟩
  | 95 => ⟨S96x96x96x24, .f32⟩
  | 96 => ⟨S96x96x96x24, .i1⟩
  | 97 => ⟨S_, .i1⟩
  | 98 => ⟨S96x96x96, .i1⟩
  | 99 => ⟨S96x96x96, .i1⟩
  | 100 => ⟨S300000, .i1⟩
  | 101 => ⟨S300000, .i1⟩
  | 102 => ⟨S1x3, .i32⟩
  | 103 => ⟨S200000x3, .i32⟩
  | 104 => ⟨S200000x3, .i32⟩
  | 105 => ⟨S_, .i32⟩
  | 106 => ⟨S200000x3, .i32⟩
  | 107 => ⟨S200000x3, .i1⟩
  | 108 => ⟨S_, .i32⟩
  | 109 => ⟨S200000x3, .i32⟩
  | 110 => ⟨S200000x3, .i1⟩
  | 111 => ⟨S200000x3, .i1⟩
  | 112 => ⟨S_, .i1⟩
  | 113 => ⟨S200000, .i1⟩
  | 114 => ⟨S200000x1, .i1⟩
  | 115 => ⟨S_, .i32⟩
  | 116 => ⟨S_, .i32⟩
  | 117 => ⟨S200000x3, .i1⟩
  | 118 => ⟨S200000x3, .i32⟩
  | 119 => ⟨S200000x3, .i32⟩
  | 120 => ⟨S_, .f32⟩
  | 121 => ⟨S96x96x96x1, .f32⟩
  | 122 => ⟨S200000x1, .i32⟩
  | 123 => ⟨S200000, .i32⟩
  | 124 => ⟨S200000x1, .i32⟩
  | 125 => ⟨S200000, .i32⟩
  | 126 => ⟨S200000x1, .i32⟩
  | 127 => ⟨S200000, .i32⟩
  | _ => ⟨S150000x3, .i32⟩

abbrev hbmTy0_2 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S_, .i32⟩
  | 8 => ⟨S200000, .i32⟩
  | 9 => ⟨S200000, .i1⟩
  | 10 => ⟨S_, .i32⟩
  | 11 => ⟨S200000, .i32⟩
  | 12 => ⟨S200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x1, .i32⟩
  | 23 => ⟨S200000x1, .i32⟩
  | 24 => ⟨S200000x3, .i32⟩
  | 25 => ⟨S96x96x96x1, .f32⟩
  | 26 => ⟨S100000x1, .i32⟩
  | 27 => ⟨S100000, .i32⟩
  | 28 => ⟨S100000x1, .i32⟩
  | 29 => ⟨S100000, .i32⟩
  | 30 => ⟨S100000x1, .i32⟩
  | 31 => ⟨S100000, .i32⟩
  | 32 => ⟨S100000x1, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x1, .i32⟩
  | 56 => ⟨S100000x1, .i32⟩
  | 57 => ⟨S100000x3, .i32⟩
  | 58 => ⟨S96x96x96x1, .f32⟩
  | _ => ⟨S150000x3, .i32⟩

abbrev hbmTy (i : Nat) : BufTy := match i / 128 with
  | 0 => hbmTy0_0 i
  | 1 => hbmTy0_1 i
  | 2 => hbmTy0_2 i
  | _ => ⟨S150000x3, .i32⟩

abbrev bufTy : (tb : Table) → Fin (tcTables nBuf tb) → BufTy
  | .hbm, ⟨i, _⟩ => hbmTy i
  | _, _ => ⟨S150000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_10 : Ref sig .tc := ⟨.hbm, 62, rfl⟩
abbrev main_v37 : Ref sig .tc := ⟨.hbm, 63, rfl⟩
abbrev main_v38 : Ref sig .tc := ⟨.hbm, 64, rfl⟩
abbrev main_c_11 : Ref sig .tc := ⟨.hbm, 65, rfl⟩
abbrev main_c_12 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_13 : Ref sig .tc := ⟨.hbm, 79, rfl⟩
abbrev main_v46 : Ref sig .tc := ⟨.hbm, 80, rfl⟩
abbrev main_v47 : Ref sig .tc := ⟨.hbm, 81, rfl⟩
abbrev main_c_14 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_15 : Ref sig .tc := ⟨.hbm, 86, rfl⟩
abbrev main_v51 : Ref sig .tc := ⟨.hbm, 87, rfl⟩
abbrev main_v52 : Ref sig .tc := ⟨.hbm, 88, rfl⟩
abbrev main_c_16 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_17 : Ref sig .tc := ⟨.hbm, 93, rfl⟩
abbrev main_v56 : Ref sig .tc := ⟨.hbm, 94, rfl⟩
abbrev main_v57 : Ref sig .tc := ⟨.hbm, 95, rfl⟩
abbrev main_c_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_19 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v68 : Ref sig .tc := ⟨.hbm, 111, rfl⟩
abbrev main_cst : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_20 : Ref sig .tc := ⟨.hbm, 120, rfl⟩
abbrev main_v76 : Ref sig .tc := ⟨.hbm, 121, rfl⟩
abbrev main_v77 : Ref sig .tc := ⟨.hbm, 122, rfl⟩
abbrev main_c_21 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_22 : Ref sig .tc := ⟨.hbm, 127, rfl⟩
abbrev main_v81 : Ref sig .tc := ⟨.hbm, 128, rfl⟩
abbrev main_v82 : Ref sig .tc := ⟨.hbm, 129, rfl⟩
abbrev main_c_23 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_c_24 : Ref sig .tc := ⟨.hbm, 134, rfl⟩
abbrev main_v86 : Ref sig .tc := ⟨.hbm, 135, rfl⟩
abbrev main_v87 : Ref sig .tc := ⟨.hbm, 136, rfl⟩
abbrev main_c_25 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_26 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_c_27 : Ref sig .tc := ⟨.hbm, 154, rfl⟩
abbrev main_v103 : Ref sig .tc := ⟨.hbm, 155, rfl⟩
abbrev main_v104 : Ref sig .tc := ⟨.hbm, 156, rfl⟩
abbrev main_c_28 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_c_29 : Ref sig .tc := ⟨.hbm, 161, rfl⟩
abbrev main_v108 : Ref sig .tc := ⟨.hbm, 162, rfl⟩
abbrev main_v109 : Ref sig .tc := ⟨.hbm, 163, rfl⟩
abbrev main_c_30 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_c_31 : Ref sig .tc := ⟨.hbm, 168, rfl⟩
abbrev main_v113 : Ref sig .tc := ⟨.hbm, 169, rfl⟩
abbrev main_v114 : Ref sig .tc := ⟨.hbm, 170, rfl⟩
abbrev main_c_32 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_33 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v124 : Ref sig .tc := ⟨.hbm, 185, rfl⟩
abbrev main_c_34 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_35 : Ref sig .tc := ⟨.hbm, 194, rfl⟩
abbrev main_v132 : Ref sig .tc := ⟨.hbm, 195, rfl⟩
abbrev main_v133 : Ref sig .tc := ⟨.hbm, 196, rfl⟩
abbrev main_c_36 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_c_37 : Ref sig .tc := ⟨.hbm, 201, rfl⟩
abbrev main_v137 : Ref sig .tc := ⟨.hbm, 202, rfl⟩
abbrev main_v138 : Ref sig .tc := ⟨.hbm, 203, rfl⟩
abbrev main_c_38 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_c_39 : Ref sig .tc := ⟨.hbm, 208, rfl⟩
abbrev main_v142 : Ref sig .tc := ⟨.hbm, 209, rfl⟩
abbrev main_v143 : Ref sig .tc := ⟨.hbm, 210, rfl⟩
abbrev main_c_40 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_c_41 : Ref sig .tc := ⟨.hbm, 219, rfl⟩
abbrev main_v151 : Ref sig .tc := ⟨.hbm, 220, rfl⟩
abbrev main_v152 : Ref sig .tc := ⟨.hbm, 221, rfl⟩
abbrev main_cst_42 : Ref sig .tc := ⟨.hbm, 222, rfl⟩
abbrev main_v153 : Ref sig .tc := ⟨.hbm, 223, rfl⟩
abbrev main_v154 : Ref sig .tc := ⟨.hbm, 224, rfl⟩
abbrev main_c_43 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_c_44 : Ref sig .tc := ⟨.hbm, 233, rfl⟩
abbrev main_v162 : Ref sig .tc := ⟨.hbm, 234, rfl⟩
abbrev main_v163 : Ref sig .tc := ⟨.hbm, 235, rfl⟩
abbrev main_c_45 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_c_46 : Ref sig .tc := ⟨.hbm, 240, rfl⟩
abbrev main_v167 : Ref sig .tc := ⟨.hbm, 241, rfl⟩
abbrev main_v168 : Ref sig .tc := ⟨.hbm, 242, rfl⟩
abbrev main_c_47 : Ref sig .tc := ⟨.hbm, 243, rfl⟩
abbrev main_call4_v0 : Ref sig .tc := ⟨.hbm, 244, rfl⟩
abbrev main_call4_v1 : Ref sig .tc := ⟨.hbm, 245, rfl⟩
abbrev main_call4_v2 : Ref sig .tc := ⟨.hbm, 246, rfl⟩
abbrev main_v169 : Ref sig .tc := ⟨.hbm, 247, rfl⟩
abbrev main_cst_48 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_c_49 : Ref sig .tc := ⟨.hbm, 256, rfl⟩
abbrev main_v177 : Ref sig .tc := ⟨.hbm, 257, rfl⟩
abbrev main_v178 : Ref sig .tc := ⟨.hbm, 258, rfl⟩
abbrev main_c_50 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_c_51 : Ref sig .tc := ⟨.hbm, 263, rfl⟩
abbrev main_v182 : Ref sig .tc := ⟨.hbm, 264, rfl⟩
abbrev main_v183 : Ref sig .tc := ⟨.hbm, 265, rfl⟩
abbrev main_c_52 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_c_53 : Ref sig .tc := ⟨.hbm, 270, rfl⟩
abbrev main_v187 : Ref sig .tc := ⟨.hbm, 271, rfl⟩
abbrev main_v188 : Ref sig .tc := ⟨.hbm, 272, rfl⟩
abbrev main_c_54 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_c_55 : Ref sig .tc := ⟨.hbm, 289, rfl⟩
abbrev main_v204 : Ref sig .tc := ⟨.hbm, 290, rfl⟩
abbrev main_v205 : Ref sig .tc := ⟨.hbm, 291, rfl⟩
abbrev main_c_56 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_c_57 : Ref sig .tc := ⟨.hbm, 296, rfl⟩
abbrev main_v209 : Ref sig .tc := ⟨.hbm, 297, rfl⟩
abbrev main_v210 : Ref sig .tc := ⟨.hbm, 298, rfl⟩
abbrev main_c_58 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_c_59 : Ref sig .tc := ⟨.hbm, 303, rfl⟩
abbrev main_v214 : Ref sig .tc := ⟨.hbm, 304, rfl⟩
abbrev main_v215 : Ref sig .tc := ⟨.hbm, 305, rfl⟩
abbrev main_c_60 : Ref sig .tc := ⟨.hbm, 306, rfl⟩
abbrev main_v216 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  reducesTo_S300000x3_S300000_d1 : S300000x3.ReducesTo [1] S300000
  h_S_ : 0 < S_.numel
  bcast_S150000_S150000x1_0 : S150000.BroadcastsInDim S150000x1 (![0] : Fin 1 → Fin S150000x1.rank)
  bcast_S150000x1_S150000x3_0_1 : S150000x1.BroadcastsInDim S150000x3 (![0, 1] : Fin 2 → Fin S150000x3.rank)
  bcast_S_S150000x3 : S_.BroadcastsInDim S150000x3 (![] : Fin 0 → Fin S150000x3.rank)
  bcast_S_S96x96x96 : S_.BroadcastsInDim S96x96x96 (![] : Fin 0 → Fin S96x96x96.rank)
  slices_S150000x3_S150000x1_0_0 : S150000x3.Slices ![0, 0] S150000x1
  shapeCasts_S150000x1_S150000 : S150000x1.ShapeCasts S150000
  slices_S150000x3_S150000x1_0_1 : S150000x3.Slices ![0, 1] S150000x1
  slices_S150000x3_S150000x1_0_2 : S150000x3.Slices ![0, 2] S150000x1
  bcast_S_S150000 : S_.BroadcastsInDim S150000 (![] : Fin 0 → Fin S150000.rank)
  concatenates_S150000x1_S150000x1_S150000x1_S150000x3_d1 : Shape.Concatenates [S150000x1, S150000x1, S150000x1] S150000x3 1
  slices_S300000x3_S300000x1_0_0 : S300000x3.Slices ![0, 0] S300000x1
  shapeCasts_S300000x1_S300000 : S300000x1.ShapeCasts S300000
  slices_S300000x3_S300000x1_0_1 : S300000x3.Slices ![0, 1] S300000x1
  slices_S300000x3_S300000x1_0_2 : S300000x3.Slices ![0, 2] S300000x1
  bcast_S_S300000 : S_.BroadcastsInDim S300000 (![] : Fin 0 → Fin S300000.rank)
  bcast_S300000_S300000x1_0 : S300000.BroadcastsInDim S300000x1 (![0] : Fin 1 → Fin S300000x1.rank)
  concatenates_S300000x1_S300000x1_S300000x1_S300000x3_d1 : Shape.Concatenates [S300000x1, S300000x1, S300000x1] S300000x3 1
  bcast_S300000x1_S300000x3_0_1 : S300000x1.BroadcastsInDim S300000x3 (![0, 1] : Fin 2 → Fin S300000x3.rank)
  bcast_S_S96x96x96x24 : S_.BroadcastsInDim S96x96x96x24 (![] : Fin 0 → Fin S96x96x96x24.rank)
  reducesTo_S96x96x96x24_S96x96x96_d3 : S96x96x96x24.ReducesTo [3] S96x96x96
  bcast_S1x3_S200000x3_0_1 : S1x3.BroadcastsInDim S200000x3 (![0, 1] : Fin 2 → Fin S200000x3.rank)
  bcast_S_S200000x3 : S_.BroadcastsInDim S200000x3 (![] : Fin 0 → Fin S200000x3.rank)
  reducesTo_S200000x3_S200000_d1 : S200000x3.ReducesTo [1] S200000
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  bcast_S_S96x96x96x1 : S_.BroadcastsInDim S96x96x96x1 (![] : Fin 0 → Fin S96x96x96x1.rank)
  slices_S200000x3_S200000x1_0_0 : S200000x3.Slices ![0, 0] S200000x1
  shapeCasts_S200000x1_S200000 : S200000x1.ShapeCasts S200000
  slices_S200000x3_S200000x1_0_1 : S200000x3.Slices ![0, 1] S200000x1
  slices_S200000x3_S200000x1_0_2 : S200000x3.Slices ![0, 2] S200000x1
  bcast_S_S200000 : S_.BroadcastsInDim S200000 (![] : Fin 0 → Fin S200000.rank)
  concatenates_S200000x1_S200000x1_S200000x1_S200000x3_d1 : Shape.Concatenates [S200000x1, S200000x1, S200000x1] S200000x3 1
  slices_S100000x3_S100000x1_0_0 : S100000x3.Slices ![0, 0] S100000x1
  shapeCasts_S100000x1_S100000 : S100000x1.ShapeCasts S100000
  slices_S100000x3_S100000x1_0_1 : S100000x3.Slices ![0, 1] S100000x1
  slices_S100000x3_S100000x1_0_2 : S100000x3.Slices ![0, 2] S100000x1
  bcast_S100000_S100000x1_0 : S100000.BroadcastsInDim S100000x1 (![0] : Fin 1 → Fin S100000x1.rank)
  bcast_S_S100000 : S_.BroadcastsInDim S100000 (![] : Fin 0 → Fin S100000.rank)
  concatenates_S100000x1_S100000x1_S100000x1_S100000x3_d1 : Shape.Concatenates [S100000x1, S100000x1, S100000x1] S100000x3 1
  scatter_S96x96x96_S150000x3_S150000_n_012_012_1_wf : ScatterDims.WF S96x96x96 S150000x3 S150000 [] [0, 1, 2] [0, 1, 2] 1
  gather_S96x96x96_S300000x3_S300000_n_012_n_n_012_1_111_wf : GatherDims.WF S96x96x96 S300000x3 S300000 [] [0, 1, 2] [] [0, 1, 2] [] 1 ![1, 1, 1]
  scatter_S96x96x96x24_S300000x3_S300000x24_1_012_012_1_wf : ScatterDims.WF S96x96x96x24 S300000x3 S300000x24 [1] [0, 1, 2] [0, 1, 2] 1
  scatter_S96x96x96x24_S150000x3_S150000x24_1_012_012_1_wf : ScatterDims.WF S96x96x96x24 S150000x3 S150000x24 [1] [0, 1, 2] [0, 1, 2] 1
  scatter_S96x96x96x1_S200000x3_S200000x1_1_012_012_1_wf : ScatterDims.WF S96x96x96x1 S200000x3 S200000x1 [1] [0, 1, 2] [0, 1, 2] 1
  scatter_S96x96x96x1_S100000x3_S100000x1_1_012_012_1_wf : ScatterDims.WF S96x96x96x1 S100000x3 S100000x1 [1] [0, 1, 2] [0, 1, 2] 1

variable [Facts₀]

def scatter_S96x96x96_S150000x3_S150000_n_012_012_1 : ScatterDims S96x96x96 S150000x3 S150000 where
  updateWindowDims := []
  insertedWindowDims := [0, 1, 2]
  scatterDimsToOperandDims := [0, 1, 2]
  indexVectorDim := 1
  wf := scatter_S96x96x96_S150000x3_S150000_n_012_012_1_wf
def gather_S96x96x96_S300000x3_S300000_n_012_n_n_012_1_111 : GatherDims S96x96x96 S300000x3 S300000 where
  offsetDims := []
  collapsedSliceDims := [0, 1, 2]
  operandBatchingDims := []
  startIndicesBatchingDims := []
  startIndexMap := [0, 1, 2]
  indexVectorDim := 1
  sliceSizes := ![1, 1, 1]
  wf := gather_S96x96x96_S300000x3_S300000_n_012_n_n_012_1_111_wf
def scatter_S96x96x96x24_S300000x3_S300000x24_1_012_012_1 : ScatterDims S96x96x96x24 S300000x3 S300000x24 where
  updateWindowDims := [1]
  insertedWindowDims := [0, 1, 2]
  scatterDimsToOperandDims := [0, 1, 2]
  indexVectorDim := 1
  wf := scatter_S96x96x96x24_S300000x3_S300000x24_1_012_012_1_wf
def scatter_S96x96x96x24_S150000x3_S150000x24_1_012_012_1 : ScatterDims S96x96x96x24 S150000x3 S150000x24 where
  updateWindowDims := [1]
  insertedWindowDims := [0, 1, 2]
  scatterDimsToOperandDims := [0, 1, 2]
  indexVectorDim := 1
  wf := scatter_S96x96x96x24_S150000x3_S150000x24_1_012_012_1_wf
def scatter_S96x96x96x1_S200000x3_S200000x1_1_012_012_1 : ScatterDims S96x96x96x1 S200000x3 S200000x1 where
  updateWindowDims := [1]
  insertedWindowDims := [0, 1, 2]
  scatterDimsToOperandDims := [0, 1, 2]
  indexVectorDim := 1
  wf := scatter_S96x96x96x1_S200000x3_S200000x1_1_012_012_1_wf
def scatter_S96x96x96x1_S100000x3_S100000x1_1_012_012_1 : ScatterDims S96x96x96x1 S100000x3 S100000x1 where
  updateWindowDims := [1]
  insertedWindowDims := [0, 1, 2]
  scatterDimsToOperandDims := [0, 1, 2]
  indexVectorDim := 1
  wf := scatter_S96x96x96x1_S100000x3_S100000x1_1_012_012_1_wf

class Facts : Prop extends Facts₀ where

variable [Facts]
-- ==== Proof.LibWritten.lean ====
import Idealize.ShloMosaic.Lib.StableHlo.Run

/-! # A line of host operations beside the list of references it writes

Each host operation writes exactly one buffer, its result. When the k-th operation of a line writes exactly the k-th
reference of a list, every operation writes inside the list, and a reference outside the list is written by no
operation of the line: after the line it holds what it held before. -/

namespace Cert.Lib.Written

open Idealize.ShloMosaic Idealize.SL.Sem Idealize.ShloMosaic.StableHlo

variable {τ : Topo} {sig : RefSig} {Val : EltTy → Type}

/-- The k-th operation writes exactly the k-th reference. -/
abbrev Pairs (ops : List (HloOp τ sig Val)) (W : List (Ref sig .tc)) : Prop :=
  List.Forall₂ (fun op y => op.writes = {Proc.devRef (τ := τ) .tc y}) ops W

/-- Then every operation writes inside the list. -/
theorem Pairs.sub {ops : List (HloOp τ sig Val)} {W : List (Ref sig .tc)} (h : Pairs ops W) :
    ops.Forall fun op => op.writes ⊆ (W.map (Proc.devRef (τ := τ) .tc)).toFinset := by
  refine List.forall_iff_forall_mem.mpr ?_
  induction h with
  | nil => intro op hop; exact nomatch hop
  | @cons op₀ y ops' W' hab _ ih =>
    intro op hop
    rcases List.mem_cons.mp hop with rfl | hop
    · rw [hab]
      exact Finset.singleton_subset_iff.mpr (List.mem_toFinset.mpr (List.mem_map_of_mem List.mem_cons_self))
    · intro b hb
      have hb' := List.mem_toFinset.mp (ih op hop hb)
      exact List.mem_toFinset.mpr (by rw [List.map_cons]; exact List.mem_cons_of_mem _ hb')

/-- A reference outside the list holds after the line what it held before. -/
theorem Pairs.keep {ops : List (HloOp τ sig Val)} {W : List (Ref sig .tc)} (h : Pairs ops W) {r : Ref sig .tc} (hr : r ∉ W)
    (V : Valuation τ sig Val) : after ops V (Proc.devRef .tc r) = V (Proc.devRef .tc r) :=
  after_of_writes_sub ops V h.sub hr

end Cert.Lib.Written
-- ==== Proof.KernelFrameHost.lean ====
/- The host side of the frame of `Kernel`: @main is nine stretches of host lines, one region, three more stretches.
   Every host line writes one buffer, its own result, and none of these results is an argument array or (after the
   region) an array the region stages. So an argument array reaches the region as launched, and is still as launched
   when @main returns. -/
import proofs.«131294_j75445395522211_2_alg».proof.Proof.Gen.Kernel.Launch
import proofs.«131294_j75445395522211_2_alg».proof.Proof.LibWritten
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.Written

variable {F : FTy → Type} [FloatOps F]

local notation "𝕄" => MT nD τ sig Unit (Elt F) ℕ (UR sig nD τ) ℕ

/-! ## What each stretch of host lines writes -/

/-- The result buffers of `hostOps0`'s lines, in the lines' order. -/
abbrev W0 : List (Ref sig .tc) :=
  [
    main_v0, main_v1, main_v2, main_c, main_v3, main_v4, main_c_0, main_v5, main_v6, main_v7,
    main_c_1, main_v8, main_v9, main_c_2 ]
/-- Line by line, `hostOps0` writes exactly these. -/
theorem hostOps0_pairs : Pairs (hostOps0 : List (HloOp τ sig (Elt F))) W0 :=
  .cons rfl (.cons rfl (.cons rfl (.cons rfl (.cons rfl (.cons rfl (.cons rfl (.cons rfl (.cons rfl (.cons rfl (.cons rfl (.cons rfl (.cons rfl (.cons rfl (.nil))))))))))))))

/-- The result buffers of `hostOps0_1`'s lines, in the lines' order. -/
abbrev W0_1 : List (Ref sig .tc) :=
  [
    main_call0_v0, main_call0_v1, main_call0_v2, main_v10 ]
/-- Line by line, `hostOps0_1` writes exactly these. -/
theorem hostOps0_1_pairs : Pairs (hostOps0_1 : List (HloOp τ sig (Elt F))) W0_1 :=
  .cons rfl (.cons rfl (.cons rfl (.cons rfl (.nil))))

/-- The result buffers of `hostOps0_2`'s lines, in the lines' order. -/
abbrev W0_2 : List (Ref sig .tc) :=
  [
    main_c_3, main_v11, main_v12, main_v13, main_v14, main_v15, main_v16, main_v17, main_c_4, main_v18,
    main_v19, main_c_5, main_v20, main_v21, main_v22, main_c_6, main_v23, main_v24, main_c_7, main_v25,
    main_v26, main_v27, main_c_8, main_v28, main_v29, main_c_9, main_v30, main_v31, main_v32, main_v33,
    main_v34, main_v35, main_v36, main_c_10, main_v37, main_v38, main_c_11, main_c_12 ]
/-- Line by line, `hostOps0_2` writes exactly these. -/
theorem hostOps0_2_pairs : Pairs (hostOps0_2 : List (HloOp τ sig (Elt F))) W0_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))

/-- The result buffers of `hostOps0_3`'s lines, in the lines' order. -/
abbrev W0_3 : List (Ref sig .tc) :=
  [
    main_call1_v0, main_call1_v1, main_call1_v2, main_call1_v3, main_call1_v4, main_v39 ]
/-- Line by line, `hostOps0_3` writes exactly these. -/
theorem hostOps0_3_pairs : Pairs (hostOps0_3 : List (HloOp τ sig (Elt F))) W0_3 :=
  .cons rfl (.cons rfl (.cons rfl (.cons rfl (.cons rfl (.cons rfl (.nil))))))

/-- The result buffers of `hostOps0_4`'s lines, in the lines' order. -/
abbrev W0_4 : List (Ref sig .tc) :=
  [
    main_v40, main_v41, main_v42, main_v43, main_v44, main_v45, main_c_13, main_v46, main_v47, main_c_14,
    main_v48, main_v49, main_v50, main_c_15, main_v51, main_v52, main_c_16, main_v53, main_v54, main_v55,
    main_c_17, main_v56, main_v57, main_c_18, main_v58, main_v59, main_v60, main_v61, main_v62, main_v63,
    main_v64, main_v65, main_v66, main_v67, main_c_19 ]
/-- Line by line, `hostOps0_4` writes exactly these. -/
theorem hostOps0_4_pairs : Pairs (hostOps0_4 : List (HloOp τ sig (Elt F))) W0_4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))

/-- The result buffers of `hostOps0_5`'s lines, in the lines' order. -/
abbrev W0_5 : List (Ref sig .tc) :=
  [
    main_call2_v0, main_call2_v1, main_call2_v2, main_v68 ]
/-- Line by line, `hostOps0_5` writes exactly these. -/
theorem hostOps0_5_pairs : Pairs (hostOps0_5 : List (HloOp τ sig (Elt F))) W0_5 :=
  .cons rfl (.cons rfl (.cons rfl (.cons rfl (.nil))))

/-- The result buffers of `hostOps0_6`'s lines, in the lines' order. -/
abbrev W0_6 : List (Ref sig .tc) :=
  [
    main_cst, main_v69, main_v70, main_v71, main_v72, main_v73, main_v74, main_v75, main_c_20, main_v76,
    main_v77, main_c_21, main_v78, main_v79, main_v80, main_c_22, main_v81, main_v82, main_c_23, main_v83,
    main_v84, main_v85, main_c_24, main_v86, main_v87, main_c_25, main_v88, main_v89, main_v90, main_v91,
    main_v92, main_v93, main_v94, main_v95, main_cst_26, main_v96, main_v97, main_v98, main_v99, main_v100,
    main_v101, main_v102, main_c_27, main_v103, main_v104, main_c_28, main_v105, main_v106, main_v107, main_c_29,
    main_v108, main_v109, main_c_30, main_v110, main_v111, main_v112, main_c_31, main_v113, main_v114, main_c_32,
    main_v115, main_v116, main_v117, main_v118, main_v119, main_v120, main_v121, main_v122, main_v123, main_c_33 ]
/-- Line by line, `hostOps0_6` writes exactly these. -/
theorem hostOps0_6_pairs : Pairs (hostOps0_6 : List (HloOp τ sig (Elt F))) W0_6 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))

/-- The result buffers of `hostOps0_7`'s lines, in the lines' order. -/
abbrev W0_7 : List (Ref sig .tc) :=
  [
    main_call3_v0, main_call3_v1, main_call3_v2, main_v124 ]
/-- Line by line, `hostOps0_7` writes exactly these. -/
theorem hostOps0_7_pairs : Pairs (hostOps0_7 : List (HloOp τ sig (Elt F))) W0_7 :=
  .cons rfl (.cons rfl (.cons rfl (.cons rfl (.nil))))

/-- The result buffers of `hostOps0_8`'s lines, in the lines' order. -/
abbrev W0_8 : List (Ref sig .tc) :=
  [
    main_c_34, main_v125, main_v126, main_v127, main_v128, main_v129, main_v130, main_v131, main_c_35, main_v132,
    main_v133, main_c_36, main_v134, main_v135, main_v136, main_c_37, main_v137, main_v138, main_c_38, main_v139,
    main_v140, main_v141, main_c_39, main_v142, main_v143, main_c_40, main_v144, main_v145, main_v146, main_v147,
    main_v148, main_v149, main_v150, main_c_41, main_v151, main_v152, main_v153, main_v154, main_v155 ]
/-- Line by line, `hostOps0_8` writes exactly these. -/
theorem hostOps0_8_pairs : Pairs (hostOps0_8 : List (HloOp τ sig (Elt F))) W0_8 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))

/-- The result buffers of `hostOps1`'s lines, in the lines' order. -/
abbrev W1 : List (Ref sig .tc) :=
  [
    main_v157, main_c_42, main_v158, main_v159, main_v160, main_v161, main_v162, main_v163, main_v164, main_v165,
    main_c_43, main_v166, main_v167, main_c_44, main_v168, main_v169, main_v170, main_c_45, main_v171, main_v172,
    main_c_46 ]
/-- Line by line, `hostOps1` writes exactly these. -/
theorem hostOps1_pairs : Pairs (hostOps1 : List (HloOp τ sig (Elt F))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

/-- The result buffers of `hostOps1_1`'s lines, in the lines' order. -/
abbrev W1_1 : List (Ref sig .tc) :=
  [
    main_call4_v0, main_call4_v1, main_call4_v2, main_v173 ]
/-- Line by line, `hostOps1_1` writes exactly these. -/
theorem hostOps1_1_pairs : Pairs (hostOps1_1 : List (HloOp τ sig (Elt F))) W1_1 :=
  .cons rfl (.cons rfl (.cons rfl (.cons rfl (.nil))))

/-- The result buffers of `hostOps1_2`'s lines, in the lines' order. -/
abbrev W1_2 : List (Ref sig .tc) :=
  [
    main_cst_47, main_v174, main_v175, main_v176, main_v177, main_v178, main_v179, main_v180, main_c_48, main_v181,
    main_v182, main_c_49, main_v183, main_v184, main_v185, main_c_50, main_v186, main_v187, main_c_51, main_v188,
    main_v189, main_v190, main_c_52, main_v191, main_v192, main_c_53, main_v193, main_v194, main_v195, main_v196,
    main_v197, main_v198, main_v199, main_v200, main_v201, main_v202, main_v203, main_v204, main_v205, main_v206,
    main_v207, main_c_54, main_v208, main_v209, main_c_55, main_v210, main_v211, main_v212, main_c_56, main_v213,
    main_v214, main_c_57, main_v215, main_v216, main_v217, main_c_58, main_v218, main_v219, main_c_59, main_v220,
    main_v221, main_v222, main_v223, main_v224, main_v225, main_v226, main_v227 ]
/-- Line by line, `hostOps1_2` writes exactly these. -/
theorem hostOps1_2_pairs : Pairs (hostOps1_2 : List (HloOp τ sig (Elt F))) W1_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))

/-- Every buffer written before the region. -/
abbrev Wpre : List (Ref sig .tc) := List.flatten [W0, W0_1, W0_2, W0_3, W0_4, W0_5, W0_6, W0_7, W0_8]
/-- Every buffer written after the region. -/
abbrev Wsfx : List (Ref sig .tc) := List.flatten [W1, W1_1, W1_2]

/-- A line of a stretch that writes exactly the list `W` does not write a reference outside `W`. -/
theorem not_writes {ops : List (HloOp τ sig (Elt F))} {W : List (Ref sig .tc)} (h : Pairs ops W) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp h.sub) op hop hb))
  exact hr (Proc.devRef_injective _ he ▸ hy)

/-- What no line of any stretch writes, no line of the stretches laid end to end writes. -/
theorem not_writes_flatten {opss : List (List (HloOp τ sig (Elt F)))} {b : DevRef τ sig}
    (h : ∀ ops ∈ opss, ∀ op ∈ ops, b ∉ op.writes) : ∀ op ∈ opss.flatten, b ∉ op.writes := fun op hop => by
  obtain ⟨ops, hops, hop'⟩ := List.mem_flatten.mp hop
  exact h ops hops op hop'

/-- A reference outside `Wpre` is written by no line before the region. -/
theorem pre_not_writes {r : Ref sig .tc} (hr : r ∉ Wpre) :
    ∀ ops ∈ ([hostOps0, hostOps0_1, hostOps0_2, hostOps0_3, hostOps0_4, hostOps0_5, hostOps0_6, hostOps0_7, hostOps0_8] : List (List (HloOp τ sig (Elt F)))), ∀ op ∈ ops, Proc.devRef (τ := τ) .tc r ∉ op.writes := by
  intro ops hops
  simp only [List.mem_cons, List.mem_nil_iff, or_false] at hops
  rcases hops with rfl | rfl | rfl | rfl | rfl | rfl | rfl | rfl | rfl
  · exact not_writes hostOps0_pairs fun h => hr (List.mem_flatten_of_mem (.head _) h)
  · exact not_writes hostOps0_1_pairs fun h => hr (List.mem_flatten_of_mem (.tail _ (.head _)) h)
  · exact not_writes hostOps0_2_pairs fun h => hr (List.mem_flatten_of_mem (.tail _ (.tail _ (.head _))) h)
  · exact not_writes hostOps0_3_pairs fun h => hr (List.mem_flatten_of_mem (.tail _ (.tail _ (.tail _ (.head _)))) h)
  · exact not_writes hostOps0_4_pairs fun h => hr (List.mem_flatten_of_mem (.tail _ (.tail _ (.tail _ (.tail _ (.head _))))) h)
  · exact not_writes hostOps0_5_pairs fun h => hr (List.mem_flatten_of_mem (.tail _ (.tail _ (.tail _ (.tail _ (.tail _ (.head _)))))) h)
  · exact not_writes hostOps0_6_pairs fun h => hr (List.mem_flatten_of_mem (.tail _ (.tail _ (.tail _ (.tail _ (.tail _ (.tail _ (.head _))))))) h)
  · exact not_writes hostOps0_7_pairs fun h => hr (List.mem_flatten_of_mem (.tail _ (.tail _ (.tail _ (.tail _ (.tail _ (.tail _ (.tail _ (.head _)))))))) h)
  · exact not_writes hostOps0_8_pairs fun h => hr (List.mem_flatten_of_mem (.tail _ (.tail _ (.tail _ (.tail _ (.tail _ (.tail _ (.tail _ (.tail _ (.head _))))))))) h)

/-- A reference outside `Wsfx` is written by no line after the region. -/
theorem sfx_not_writes {r : Ref sig .tc} (hr : r ∉ Wsfx) :
    ∀ ops ∈ ([hostOps1, hostOps1_1, hostOps1_2] : List (List (HloOp τ sig (Elt F)))), ∀ op ∈ ops, Proc.devRef (τ := τ) .tc r ∉ op.writes := by
  intro ops hops
  simp only [List.mem_cons, List.mem_nil_iff, or_false] at hops
  rcases hops with rfl | rfl | rfl
  · exact not_writes hostOps1_pairs fun h => hr (List.mem_flatten_of_mem (.head _) h)
  · exact not_writes hostOps1_1_pairs fun h => hr (List.mem_flatten_of_mem (.tail _ (.head _)) h)
  · exact not_writes hostOps1_2_pairs fun h => hr (List.mem_flatten_of_mem (.tail _ (.tail _ (.head _))) h)

/-! ## The lines allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

variable (m : (ℓ : Loc nD τ sig) → Buf (Elt F) ℓ) (ρ : Dev nD → PrngReg)

/-! ## @main around the region -/

/-- Core `c`'s buffer contents when the region is entered: the launch memory after the nine stretches of host lines
    before the region, folded line by line. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

/-- Each line before the region touches TensorCore references only. -/
theorem pre_sub : ([hostOps0, hostOps0_1, hostOps0_2, hostOps0_3, hostOps0_4, hostOps0_5, hostOps0_6, hostOps0_7, hostOps0_8] : List (List (HloOp τ sig (Elt F)))).Forall fun ops => ops.Forall fun op => op.bufs ⊆ StableHlo.tcRefs τ sig :=
  List.forall_iff_forall_mem.mpr (by
    intro ops hops
    simp only [List.mem_cons, List.mem_nil_iff, or_false] at hops
    rcases hops with rfl | rfl | rfl | rfl | rfl | rfl | rfl | rfl | rfl
    exacts [hostOps0_sub, hostOps0_1_sub, hostOps0_2_sub, hostOps0_3_sub, hostOps0_4_sub, hostOps0_5_sub, hostOps0_6_sub, hostOps0_7_sub, hostOps0_8_sub])
/-- And allocates nothing. -/
theorem pre_fresh : ([hostOps0, hostOps0_1, hostOps0_2, hostOps0_3, hostOps0_4, hostOps0_5, hostOps0_6, hostOps0_7, hostOps0_8] : List (List (HloOp τ sig (Elt F)))).Forall fun ops => ops.Forall fun op => op.fresh = ∅ :=
  List.forall_iff_forall_mem.mpr (by
    intro ops hops
    simp only [List.mem_cons, List.mem_nil_iff, or_false] at hops
    rcases hops with rfl | rfl | rfl | rfl | rfl | rfl | rfl | rfl | rfl
    exacts [hostOps0_fresh, hostOps0_1_fresh, hostOps0_2_fresh, hostOps0_3_fresh, hostOps0_4_fresh, hostOps0_5_fresh, hostOps0_6_fresh, hostOps0_7_fresh, hostOps0_8_fresh])

/-- @main is the host lines before the region, the region, the host lines after it; so, holding the unscoped buffers at
    the launch contents, it reduces to the region followed by the later lines, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4, hostOps0_5, hostOps0_6, hostOps0_7, hostOps0_8] [hostOps1, hostOps1_1, hostOps1_2] pre_sub pre_fresh main_chain

/-- The lines after the region touch unscoped TensorCore references only, and with nothing prefetched every such
    reference is an array of the pipeline or a buffer that bypasses the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- No array the region stages is the result of a line after the region. -/
theorem arr_not_sfx : ∀ w, Pipeline.arrRef spec0 w ∉ Wsfx := by decide
/-- So the lines after the region write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => sfx_not_writes (arr_not_sfx w) ops hops op hop

/-! ## The buffers no host line writes -/

/-- A buffer no line before the region writes reaches the region as launched. -/
theorem V_of_not_written (c : Dev nD) {r : Ref sig .tc} (hr : r ∉ Wpre) : V m c r = m ((c : Thread nD τ).loc r) :=
  StableHlo.after_of_forall_not_mem (b := Proc.devRef .tc r) _ _ (not_writes_flatten (pre_not_writes hr))

/-- A buffer that no host line writes and the region does not stage is as launched when @main returns. -/
theorem W_of_not_written (dats : (p : Fin _) → (c : Dev nD) → Dat τ (Elt F) Unit ℕ (UR sig nD τ) ℕ (cfgs p) c) (c : Dev nD)
    {r : Ref sig .tc} (hpre : r ∉ Wpre) (hsfx : r ∉ Wsfx) (harr : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (not_writes_flatten (sfx_not_writes hsfx)),
    Pipeline.withArrays_of_ne _ c (V0 m c) _ r harr]
  exact V_of_not_written m c hpre

/-- No host line before the region writes `main_arg0`: the region finds it as launched. -/
theorem V_main_arg0 (c : Dev nD) : V m c main_arg0 = m ((c : Thread nD τ).loc main_arg0) := V_of_not_written m c (by decide)
/-- Nor does a line after it, nor the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) :=
  W_of_not_written m dats c (by decide) (by decide) (by decide)
/-- No host line before the region writes `main_arg1`: the region finds it as launched. -/
theorem V_main_arg1 (c : Dev nD) : V m c main_arg1 = m ((c : Thread nD τ).loc main_arg1) := V_of_not_written m c (by decide)
/-- Nor does a line after it, nor the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) :=
  W_of_not_written m dats c (by decide) (by decide) (by decide)
/-- No host line before the region writes `main_arg2`: the region finds it as launched. -/
theorem V_main_arg2 (c : Dev nD) : V m c main_arg2 = m ((c : Thread nD τ).loc main_arg2) := V_of_not_written m c (by decide)
/-- Nor does a line after it, nor the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) :=
  W_of_not_written m dats c (by decide) (by decide) (by decide)
/-- No host line before the region writes `main_arg3`: the region finds it as launched. -/
theorem V_main_arg3 (c : Dev nD) : V m c main_arg3 = m ((c : Thread nD τ).loc main_arg3) := V_of_not_written m c (by decide)
/-- Nor does a line after it, nor the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) :=
  W_of_not_written m dats c (by decide) (by decide) (by decide)
/-- No host line before the region writes `main_arg4`: the region finds it as launched. -/
theorem V_main_arg4 (c : Dev nD) : V m c main_arg4 = m ((c : Thread nD τ).loc main_arg4) := V_of_not_written m c (by decide)
/-- Nor does a line after it, nor the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) :=
  W_of_not_written m dats c (by decide) (by decide) (by decide)
/-- No host line before the region writes `main_arg5`: the region finds it as launched. -/
theorem V_main_arg5 (c : Dev nD) : V m c main_arg5 = m ((c : Thread nD τ).loc main_arg5) := V_of_not_written m c (by decide)
/-- Nor does a line after it, nor the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) :=
  W_of_not_written m dats c (by decide) (by decide) (by decide)
/-- No host line before the region writes `main_arg6`: the region finds it as launched. -/
theorem V_main_arg6 (c : Dev nD) : V m c main_arg6 = m ((c : Thread nD τ).loc main_arg6) := V_of_not_written m c (by decide)
/-- Nor does a line after it, nor the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) :=
  W_of_not_written m dats c (by decide) (by decide) (by decide)
/-- No host line before the region writes `main_arg7`: the region finds it as launched. -/
theorem V_main_arg7 (c : Dev nD) : V m c main_arg7 = m ((c : Thread nD τ).loc main_arg7) := V_of_not_written m c (by decide)
/-- Nor does a line after it, nor the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) :=
  W_of_not_written m dats c (by decide) (by decide) (by decide)
/-- No host line before the region writes `main_arg8`: the region finds it as launched. -/
theorem V_main_arg8 (c : Dev nD) : V m c main_arg8 = m ((c : Thread nD τ).loc main_arg8) := V_of_not_written m c (by decide)
/-- Nor does a line after it, nor the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) :=
  W_of_not_written m dats c (by decide) (by decide) (by decide)
/-- No host line before the region writes `main_arg9`: the region finds it as launched. -/
theorem V_main_arg9 (c : Dev nD) : V m c main_arg9 = m ((c : Thread nD τ).loc main_arg9) := V_of_not_written m c (by decide)
/-- Nor does a line after it, nor the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) :=
  W_of_not_written m dats c (by decide) (by decide) (by decide)
/-- No host line before the region writes `main_arg10`: the region finds it as launched. -/
theorem V_main_arg10 (c : Dev nD) : V m c main_arg10 = m ((c : Thread nD τ).loc main_arg10) := V_of_not_written m c (by decide)
/-- Nor does a line after it, nor the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) :=
  W_of_not_written m dats c (by decide) (by decide) (by decide)

/-! ## The frame claim's post from the frame run's -/

/-- For any proof data, a run of @main to the library's frame post — every buffer that bypasses the region at what the
    lines after the region leave there — is a run to the frame claim's post: each argument array bypasses the region
    (it is unscoped and no window's array), and is as launched at the end (`W_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

end Cert.Kernel.Hand

end
-- ==== Proof.KernelFrame.lean ====
/- The frame of `Kernel`: the one region's body at a grid point, the proof data of the pipeline, the run of @main and
   the frame claim.

   The region has a grid of 36 points and three windows. At a point the pipeline hands the body three whole staging
   buffers: window 0's holds the point's 256×96×24 block of the first operand, window 1's the 256×96 block of the second,
   window 2's is the result's. The body loads the two input blocks whole, loads the result buffer too (a value it
   never uses), and stores one 256×96 value — a function of the two input blocks alone — over the whole result buffer.
   So after the body the input buffers hold what they held and the result buffer holds that value, whatever it held. -/
import proofs.«131294_j75445395522211_2_alg».proof.Proof.KernelFrameHost
import proofs.«131294_j75445395522211_2_alg».proof.Proof.Gen.Kernel.Skeleton
import proofs.«131294_j75445395522211_2_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`: the part of its array, as the region finds the array (`V`), that the window's index
    map selects at `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is `V`'s
    and whose body leaves the block in place: the window is fetched whole at every point and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 256×96×24 buffer as a rectangle: what the body loads of window 0's buffer. -/
abbrev r0_0 : Rect S256x96x24 := Rect.unit (s := S256x96x24) ![0, 0, 0] S256x96x24.size inb_S256x96x24_S256x96x24_0_0_0
/-- The whole 256×96 buffer as a rectangle: what the body loads of window 1's buffer and stores over window 2's. -/
abbrev r0_1 : Rect S256x96 := Rect.unit (s := S256x96) ![0, 0] S256x96.size inb_S256x96_S256x96_0_0

/-! ## What the body leaves in the result window's buffer -/

/-- Window 2's staging buffer after the body, from the two input blocks: its one store, of the payload of the two
    blocks read whole, over the whole buffer. -/
def out0_2 (x0 : Vec F S256x96x24 .f32) (x1 : Vec F S256x96 .i32) : Vec F S256x96 .i32 :=
  View.canon [⟨r0_1, k0_pay1 (View.ld x0 r0_0) (View.ld x1 r0_1)⟩]

/-- The one store covers the buffer: its rectangle is the whole of it. -/
theorem cover0_2 (p0 : Vec F S256x96 .i32) (y : S256x96.Idx) :
    ∃ pc ∈ ([⟨r0_1, p0⟩] : List (View.Piece (Elt F) S256x96 .i32)), y ∈ pc.1.set :=
  View.cover_of_tiled [⟨r0_1, p0⟩] S256x96.size (by rfl) y

/-! ## The body's triple -/

set_option maxHeartbeats 1000000 in
/-- The kernel body on whole staging memrefs — the inputs' holding `x0` and `x1`, the result's holding anything — runs to
    the continuation with the inputs' as they were and the result's at `out0_2 x0 x1`: two loads, a third load of the
    result buffer whose value is dropped, and the store. -/
theorem sound_kernel (c : Dev nD) (E : Set ℕ) (i : grid0.Coords)
    (arg1 : Memref sig .tc .vmem S256x96x24 .f32) (harg1 : arg1.IsWhole)
    (arg2 : Memref sig .tc .vmem S256x96 .i32) (harg2 : arg2.IsWhole)
    (arg3 : Memref sig .tc .vmem S256x96 .i32) (harg3 : arg3.IsWhole)
    (x0 : Vec F S256x96x24 .f32) (x1 : Vec F S256x96 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__updated_mask_kernel i arg1 harg1 arg2 harg2 arg3 harg3) K := by
  simp only [cc0__updated_mask_kernel_eq_skeleton]; unfold cc0__updated_mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at point
    `t` each input's buffer at its block and the result's at `out0_2` of the two input blocks; the invariant is the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents, by projecting the definition: `V`, a long fold, is never
    unfolded to see it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and in
    every final state each array of the pipeline holds what the library computes from the proof data and every other
    unscoped buffer what the lines after the region leave there. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim at any `F`: @main runs, and each of its eleven argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Hand

end
-- ==== Proof.KernelIdealFrameHost.lean ====
/- The host side of the frame of `KernelIdeal`: @main is nine stretches of host lines, one region, three more stretches.
   Every host line writes one buffer, its own result, and none of these results is an argument array or (after the
   region) an array the region stages. So an argument array reaches the region as launched, and is still as launched
   when @main returns. -/
import proofs.«131294_j75445395522211_2_alg».proof.Proof.Gen.KernelIdeal.Launch
import proofs.«131294_j75445395522211_2_alg».proof.Proof.LibWritten
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Lib.Written

variable {F : FTy → Type} [FloatOps F]

local notation "𝕄" => MT nD τ sig Unit (Elt F) ℕ (UR sig nD τ) ℕ

/-! ## What each stretch of host lines writes -/

/-- The result buffers of `hostOps0`'s lines, in the lines' order. -/
abbrev W0 : List (Ref sig .tc) :=
  [
    main_v0, main_v1, main_v2, main_c, main_v3, main_v4, main_c_0, main_v5, main_v6, main_v7,
    main_c_1, main_v8, main_v9, main_c_2 ]
/-- Line by line, `hostOps0` writes exactly these. -/
theorem hostOps0_pairs : Pairs (hostOps0 : List (HloOp τ sig (Elt F))) W0 :=
  .cons rfl (.cons rfl (.cons rfl (.cons rfl (.cons rfl (.cons rfl (.cons rfl (.cons rfl (.cons rfl (.cons rfl (.cons rfl (.cons rfl (.cons rfl (.cons rfl (.nil))))))))))))))

/-- The result buffers of `hostOps0_1`'s lines, in the lines' order. -/
abbrev W0_1 : List (Ref sig .tc) :=
  [
    main_call0_v0, main_call0_v1, main_call0_v2, main_v10 ]
/-- Line by line, `hostOps0_1` writes exactly these. -/
theorem hostOps0_1_pairs : Pairs (hostOps0_1 : List (HloOp τ sig (Elt F))) W0_1 :=
  .cons rfl (.cons rfl (.cons rfl (.cons rfl (.nil))))

/-- The result buffers of `hostOps0_2`'s lines, in the lines' order. -/
abbrev W0_2 : List (Ref sig .tc) :=
  [
    main_c_3, main_v11, main_v12, main_v13, main_v14, main_v15, main_v16, main_v17, main_c_4, main_v18,
    main_v19, main_c_5, main_v20, main_v21, main_v22, main_c_6, main_v23, main_v24, main_c_7, main_v25,
    main_v26, main_v27, main_c_8, main_v28, main_v29, main_c_9, main_v30, main_v31, main_v32, main_v33,
    main_v34, main_v35, main_v36, main_c_10, main_v37, main_v38, main_c_11, main_c_12 ]
/-- Line by line, `hostOps0_2` writes exactly these. -/
theorem hostOps0_2_pairs : Pairs (hostOps0_2 : List (HloOp τ sig (Elt F))) W0_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))

/-- The result buffers of `hostOps0_3`'s lines, in the lines' order. -/
abbrev W0_3 : List (Ref sig .tc) :=
  [
    main_call1_v0, main_call1_v1, main_call1_v2, main_call1_v3, main_call1_v4, main_v39 ]
/-- Line by line, `hostOps0_3` writes exactly these. -/
theorem hostOps0_3_pairs : Pairs (hostOps0_3 : List (HloOp τ sig (Elt F))) W0_3 :=
  .cons rfl (.cons rfl (.cons rfl (.cons rfl (.cons rfl (.cons rfl (.nil))))))

/-- The result buffers of `hostOps0_4`'s lines, in the lines' order. -/
abbrev W0_4 : List (Ref sig .tc) :=
  [
    main_v40, main_v41, main_v42, main_v43, main_v44, main_v45, main_c_13, main_v46, main_v47, main_c_14,
    main_v48, main_v49, main_v50, main_c_15, main_v51, main_v52, main_c_16, main_v53, main_v54, main_v55,
    main_c_17, main_v56, main_v57, main_c_18, main_v58, main_v59, main_v60, main_v61, main_v62, main_v63,
    main_v64, main_v65, main_v66, main_v67, main_c_19 ]
/-- Line by line, `hostOps0_4` writes exactly these. -/
theorem hostOps0_4_pairs : Pairs (hostOps0_4 : List (HloOp τ sig (Elt F))) W0_4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))

/-- The result buffers of `hostOps0_5`'s lines, in the lines' order. -/
abbrev W0_5 : List (Ref sig .tc) :=
  [
    main_call2_v0, main_call2_v1, main_call2_v2, main_v68 ]
/-- Line by line, `hostOps0_5` writes exactly these. -/
theorem hostOps0_5_pairs : Pairs (hostOps0_5 : List (HloOp τ sig (Elt F))) W0_5 :=
  .cons rfl (.cons rfl (.cons rfl (.cons rfl (.nil))))

/-- The result buffers of `hostOps0_6`'s lines, in the lines' order. -/
abbrev W0_6 : List (Ref sig .tc) :=
  [
    main_cst, main_v69, main_v70, main_v71, main_v72, main_v73, main_v74, main_v75, main_c_20, main_v76,
    main_v77, main_c_21, main_v78, main_v79, main_v80, main_c_22, main_v81, main_v82, main_c_23, main_v83,
    main_v84, main_v85, main_c_24, main_v86, main_v87, main_c_25, main_v88, main_v89, main_v90, main_v91,
    main_v92, main_v93, main_v94, main_v95, main_cst_26, main_v96, main_v97, main_v98, main_v99, main_v100,
    main_v101, main_v102, main_c_27, main_v103, main_v104, main_c_28, main_v105, main_v106, main_v107, main_c_29,
    main_v108, main_v109, main_c_30, main_v110, main_v111, main_v112, main_c_31, main_v113, main_v114, main_c_32,
    main_v115, main_v116, main_v117, main_v118, main_v119, main_v120, main_v121, main_v122, main_v123, main_c_33 ]
/-- Line by line, `hostOps0_6` writes exactly these. -/
theorem hostOps0_6_pairs : Pairs (hostOps0_6 : List (HloOp τ sig (Elt F))) W0_6 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))

/-- The result buffers of `hostOps0_7`'s lines, in the lines' order. -/
abbrev W0_7 : List (Ref sig .tc) :=
  [
    main_call3_v0, main_call3_v1, main_call3_v2, main_v124 ]
/-- Line by line, `hostOps0_7` writes exactly these. -/
theorem hostOps0_7_pairs : Pairs (hostOps0_7 : List (HloOp τ sig (Elt F))) W0_7 :=
  .cons rfl (.cons rfl (.cons rfl (.cons rfl (.nil))))

/-- The result buffers of `hostOps0_8`'s lines, in the lines' order. -/
abbrev W0_8 : List (Ref sig .tc) :=
  [
    main_c_34, main_v125, main_v126, main_v127, main_v128, main_v129, main_v130, main_v131, main_c_35, main_v132,
    main_v133, main_c_36, main_v134, main_v135, main_v136, main_c_37, main_v137, main_v138, main_c_38, main_v139,
    main_v140, main_v141, main_c_39, main_v142, main_v143, main_c_40, main_v144, main_v145, main_v146, main_v147,
    main_v148, main_v149, main_v150, main_c_41, main_v151, main_v152, main_v153, main_v154, main_v155 ]
/-- Line by line, `hostOps0_8` writes exactly these. -/
theorem hostOps0_8_pairs : Pairs (hostOps0_8 : List (HloOp τ sig (Elt F))) W0_8 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))

/-- The result buffers of `hostOps1`'s lines, in the lines' order. -/
abbrev W1 : List (Ref sig .tc) :=
  [
    main_v157, main_c_42, main_v158, main_v159, main_v160, main_v161, main_v162, main_v163, main_v164, main_v165,
    main_c_43, main_v166, main_v167, main_c_44, main_v168, main_v169, main_v170, main_c_45, main_v171, main_v172,
    main_c_46 ]
/-- Line by line, `hostOps1` writes exactly these. -/
theorem hostOps1_pairs : Pairs (hostOps1 : List (HloOp τ sig (Elt F))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

/-- The result buffers of `hostOps1_1`'s lines, in the lines' order. -/
abbrev W1_1 : List (Ref sig .tc) :=
  [
    main_call4_v0, main_call4_v1, main_call4_v2, main_v173 ]
/-- Line by line, `hostOps1_1` writes exactly these. -/
theorem hostOps1_1_pairs : Pairs (hostOps1_1 : List (HloOp τ sig (Elt F))) W1_1 :=
  .cons rfl (.cons rfl (.cons rfl (.cons rfl (.nil))))

/-- The result buffers of `hostOps1_2`'s lines, in the lines' order. -/
abbrev W1_2 : List (Ref sig .tc) :=
  [
    main_cst_47, main_v174, main_v175, main_v176, main_v177, main_v178, main_v179, main_v180, main_c_48, main_v181,
    main_v182, main_c_49, main_v183, main_v184, main_v185, main_c_50, main_v186, main_v187, main_c_51, main_v188,
    main_v189, main_v190, main_c_52, main_v191, main_v192, main_c_53, main_v193, main_v194, main_v195, main_v196,
    main_v197, main_v198, main_v199, main_v200, main_v201, main_v202, main_v203, main_v204, main_v205, main_v206,
    main_v207, main_c_54, main_v208, main_v209, main_c_55, main_v210, main_v211, main_v212, main_c_56, main_v213,
    main_v214, main_c_57, main_v215, main_v216, main_v217, main_c_58, main_v218, main_v219, main_c_59, main_v220,
    main_v221, main_v222, main_v223, main_v224, main_v225, main_v226, main_v227 ]
/-- Line by line, `hostOps1_2` writes exactly these. -/
theorem hostOps1_2_pairs : Pairs (hostOps1_2 : List (HloOp τ sig (Elt F))) W1_2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))

/-- Every buffer written before the region. -/
abbrev Wpre : List (Ref sig .tc) := List.flatten [W0, W0_1, W0_2, W0_3, W0_4, W0_5, W0_6, W0_7, W0_8]
/-- Every buffer written after the region. -/
abbrev Wsfx : List (Ref sig .tc) := List.flatten [W1, W1_1, W1_2]

/-- A line of a stretch that writes exactly the list `W` does not write a reference outside `W`. -/
theorem not_writes {ops : List (HloOp τ sig (Elt F))} {W : List (Ref sig .tc)} (h : Pairs ops W) {r : Ref sig .tc} (hr : r ∉ W) :
    ∀ op ∈ ops, Proc.devRef (τ := τ) .tc r ∉ op.writes := fun op hop hb => by
  obtain ⟨y, hy, he⟩ := List.mem_map.mp (List.mem_toFinset.mp ((List.forall_iff_forall_mem.mp h.sub) op hop hb))
  exact hr (Proc.devRef_injective _ he ▸ hy)

/-- What no line of any stretch writes, no line of the stretches laid end to end writes. -/
theorem not_writes_flatten {opss : List (List (HloOp τ sig (Elt F)))} {b : DevRef τ sig}
    (h : ∀ ops ∈ opss, ∀ op ∈ ops, b ∉ op.writes) : ∀ op ∈ opss.flatten, b ∉ op.writes := fun op hop => by
  obtain ⟨ops, hops, hop'⟩ := List.mem_flatten.mp hop
  exact h ops hops op hop'

/-- A reference outside `Wpre` is written by no line before the region. -/
theorem pre_not_writes {r : Ref sig .tc} (hr : r ∉ Wpre) :
    ∀ ops ∈ ([hostOps0, hostOps0_1, hostOps0_2, hostOps0_3, hostOps0_4, hostOps0_5, hostOps0_6, hostOps0_7, hostOps0_8] : List (List (HloOp τ sig (Elt F)))), ∀ op ∈ ops, Proc.devRef (τ := τ) .tc r ∉ op.writes := by
  intro ops hops
  simp only [List.mem_cons, List.mem_nil_iff, or_false] at hops
  rcases hops with rfl | rfl | rfl | rfl | rfl | rfl | rfl | rfl | rfl
  · exact not_writes hostOps0_pairs fun h => hr (List.mem_flatten_of_mem (.head _) h)
  · exact not_writes hostOps0_1_pairs fun h => hr (List.mem_flatten_of_mem (.tail _ (.head _)) h)
  · exact not_writes hostOps0_2_pairs fun h => hr (List.mem_flatten_of_mem (.tail _ (.tail _ (.head _))) h)
  · exact not_writes hostOps0_3_pairs fun h => hr (List.mem_flatten_of_mem (.tail _ (.tail _ (.tail _ (.head _)))) h)
  · exact not_writes hostOps0_4_pairs fun h => hr (List.mem_flatten_of_mem (.tail _ (.tail _ (.tail _ (.tail _ (.head _))))) h)
  · exact not_writes hostOps0_5_pairs fun h => hr (List.mem_flatten_of_mem (.tail _ (.tail _ (.tail _ (.tail _ (.tail _ (.head _)))))) h)
  · exact not_writes hostOps0_6_pairs fun h => hr (List.mem_flatten_of_mem (.tail _ (.tail _ (.tail _ (.tail _ (.tail _ (.tail _ (.head _))))))) h)
  · exact not_writes hostOps0_7_pairs fun h => hr (List.mem_flatten_of_mem (.tail _ (.tail _ (.tail _ (.tail _ (.tail _ (.tail _ (.tail _ (.head _)))))))) h)
  · exact not_writes hostOps0_8_pairs fun h => hr (List.mem_flatten_of_mem (.tail _ (.tail _ (.tail _ (.tail _ (.tail _ (.tail _ (.tail _ (.tail _ (.head _))))))))) h)

/-- A reference outside `Wsfx` is written by no line after the region. -/
theorem sfx_not_writes {r : Ref sig .tc} (hr : r ∉ Wsfx) :
    ∀ ops ∈ ([hostOps1, hostOps1_1, hostOps1_2] : List (List (HloOp τ sig (Elt F)))), ∀ op ∈ ops, Proc.devRef (τ := τ) .tc r ∉ op.writes := by
  intro ops hops
  simp only [List.mem_cons, List.mem_nil_iff, or_false] at hops
  rcases hops with rfl | rfl | rfl
  · exact not_writes hostOps1_pairs fun h => hr (List.mem_flatten_of_mem (.head _) h)
  · exact not_writes hostOps1_1_pairs fun h => hr (List.mem_flatten_of_mem (.tail _ (.head _)) h)
  · exact not_writes hostOps1_2_pairs fun h => hr (List.mem_flatten_of_mem (.tail _ (.tail _ (.head _))) h)

/-! ## The lines allocate nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

variable (m : (ℓ : Loc nD τ sig) → Buf (Elt F) ℓ) (ρ : Dev nD → PrngReg)

/-! ## @main around the region -/

/-- Core `c`'s buffer contents when the region is entered: the launch memory after the nine stretches of host lines
    before the region, folded line by line. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same read at a TensorCore reference. -/
abbrev V (c : Dev nD) (b : Ref sig .tc) : Buf (Elt F) ((c : Thread nD τ).loc b) := V0 m c (Proc.devRef .tc b)

/-- Each line before the region touches TensorCore references only. -/
theorem pre_sub : ([hostOps0, hostOps0_1, hostOps0_2, hostOps0_3, hostOps0_4, hostOps0_5, hostOps0_6, hostOps0_7, hostOps0_8] : List (List (HloOp τ sig (Elt F)))).Forall fun ops => ops.Forall fun op => op.bufs ⊆ StableHlo.tcRefs τ sig :=
  List.forall_iff_forall_mem.mpr (by
    intro ops hops
    simp only [List.mem_cons, List.mem_nil_iff, or_false] at hops
    rcases hops with rfl | rfl | rfl | rfl | rfl | rfl | rfl | rfl | rfl
    exacts [hostOps0_sub, hostOps0_1_sub, hostOps0_2_sub, hostOps0_3_sub, hostOps0_4_sub, hostOps0_5_sub, hostOps0_6_sub, hostOps0_7_sub, hostOps0_8_sub])
/-- And allocates nothing. -/
theorem pre_fresh : ([hostOps0, hostOps0_1, hostOps0_2, hostOps0_3, hostOps0_4, hostOps0_5, hostOps0_6, hostOps0_7, hostOps0_8] : List (List (HloOp τ sig (Elt F)))).Forall fun ops => ops.Forall fun op => op.fresh = ∅ :=
  List.forall_iff_forall_mem.mpr (by
    intro ops hops
    simp only [List.mem_cons, List.mem_nil_iff, or_false] at hops
    rcases hops with rfl | rfl | rfl | rfl | rfl | rfl | rfl | rfl | rfl
    exacts [hostOps0_fresh, hostOps0_1_fresh, hostOps0_2_fresh, hostOps0_3_fresh, hostOps0_4_fresh, hostOps0_5_fresh, hostOps0_6_fresh, hostOps0_7_fresh, hostOps0_8_fresh])

/-- @main is the host lines before the region, the region, the host lines after it; so, holding the unscoped buffers at
    the launch contents, it reduces to the region followed by the later lines, holding them at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4, hostOps0_5, hostOps0_6, hostOps0_7, hostOps0_8] [hostOps1, hostOps1_1, hostOps1_2] pre_sub pre_fresh main_chain

/-- The lines after the region touch unscoped TensorCore references only, and with nothing prefetched every such
    reference is an array of the pipeline or a buffer that bypasses the region. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- No array the region stages is the result of a line after the region. -/
theorem arr_not_sfx : ∀ w, Pipeline.arrRef spec0 w ∉ Wsfx := by decide
/-- So the lines after the region write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => sfx_not_writes (arr_not_sfx w) ops hops op hop

/-! ## The buffers no host line writes -/

/-- A buffer no line before the region writes reaches the region as launched. -/
theorem V_of_not_written (c : Dev nD) {r : Ref sig .tc} (hr : r ∉ Wpre) : V m c r = m ((c : Thread nD τ).loc r) :=
  StableHlo.after_of_forall_not_mem (b := Proc.devRef .tc r) _ _ (not_writes_flatten (pre_not_writes hr))

/-- A buffer that no host line writes and the region does not stage is as launched when @main returns. -/
theorem W_of_not_written (dats : (p : Fin _) → (c : Dev nD) → Dat τ (Elt F) Unit ℕ (UR sig nD τ) ℕ (cfgs p) c) (c : Dev nD)
    {r : Ref sig .tc} (hpre : r ∉ Wpre) (hsfx : r ∉ Wsfx) (harr : ∀ w, Pipeline.arrRef spec0 w ≠ r) :
    Pipeline.afterTail₀ cfgs dats 0 (V0 m) [hostOps1, hostOps1_1, hostOps1_2] c r = m ((c : Thread nD τ).loc r) := by
  unfold Pipeline.afterTail₀
  rw [StableHlo.after_of_forall_not_mem (b := Proc.devRef .tc r) _ _ (not_writes_flatten (sfx_not_writes hsfx)),
    Pipeline.withArrays_of_ne _ c (V0 m c) _ r harr]
  exact V_of_not_written m c hpre

/-- No host line before the region writes `main_arg0`: the region finds it as launched. -/
theorem V_main_arg0 (c : Dev nD) : V m c main_arg0 = m ((c : Thread nD τ).loc main_arg0) := V_of_not_written m c (by decide)
/-- Nor does a line after it, nor the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) :=
  W_of_not_written m dats c (by decide) (by decide) (by decide)
/-- No host line before the region writes `main_arg1`: the region finds it as launched. -/
theorem V_main_arg1 (c : Dev nD) : V m c main_arg1 = m ((c : Thread nD τ).loc main_arg1) := V_of_not_written m c (by decide)
/-- Nor does a line after it, nor the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) :=
  W_of_not_written m dats c (by decide) (by decide) (by decide)
/-- No host line before the region writes `main_arg2`: the region finds it as launched. -/
theorem V_main_arg2 (c : Dev nD) : V m c main_arg2 = m ((c : Thread nD τ).loc main_arg2) := V_of_not_written m c (by decide)
/-- Nor does a line after it, nor the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) :=
  W_of_not_written m dats c (by decide) (by decide) (by decide)
/-- No host line before the region writes `main_arg3`: the region finds it as launched. -/
theorem V_main_arg3 (c : Dev nD) : V m c main_arg3 = m ((c : Thread nD τ).loc main_arg3) := V_of_not_written m c (by decide)
/-- Nor does a line after it, nor the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) :=
  W_of_not_written m dats c (by decide) (by decide) (by decide)
/-- No host line before the region writes `main_arg4`: the region finds it as launched. -/
theorem V_main_arg4 (c : Dev nD) : V m c main_arg4 = m ((c : Thread nD τ).loc main_arg4) := V_of_not_written m c (by decide)
/-- Nor does a line after it, nor the region: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) :=
  W_of_not_written m dats c (by decide) (by decide) (by decide)
/-- No host line before the region writes `main_arg5`: the region finds it as launched. -/
theorem V_main_arg5 (c : Dev nD) : V m c main_arg5 = m ((c : Thread nD τ).loc main_arg5) := V_of_not_written m c (by decide)
/-- Nor does a line after it, nor the region: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) :=
  W_of_not_written m dats c (by decide) (by decide) (by decide)
/-- No host line before the region writes `main_arg6`: the region finds it as launched. -/
theorem V_main_arg6 (c : Dev nD) : V m c main_arg6 = m ((c : Thread nD τ).loc main_arg6) := V_of_not_written m c (by decide)
/-- Nor does a line after it, nor the region: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) :=
  W_of_not_written m dats c (by decide) (by decide) (by decide)
/-- No host line before the region writes `main_arg7`: the region finds it as launched. -/
theorem V_main_arg7 (c : Dev nD) : V m c main_arg7 = m ((c : Thread nD τ).loc main_arg7) := V_of_not_written m c (by decide)
/-- Nor does a line after it, nor the region: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) :=
  W_of_not_written m dats c (by decide) (by decide) (by decide)
/-- No host line before the region writes `main_arg8`: the region finds it as launched. -/
theorem V_main_arg8 (c : Dev nD) : V m c main_arg8 = m ((c : Thread nD τ).loc main_arg8) := V_of_not_written m c (by decide)
/-- Nor does a line after it, nor the region: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg8 = m ((c : Thread nD τ).loc main_arg8) :=
  W_of_not_written m dats c (by decide) (by decide) (by decide)
/-- No host line before the region writes `main_arg9`: the region finds it as launched. -/
theorem V_main_arg9 (c : Dev nD) : V m c main_arg9 = m ((c : Thread nD τ).loc main_arg9) := V_of_not_written m c (by decide)
/-- Nor does a line after it, nor the region: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg9 = m ((c : Thread nD τ).loc main_arg9) :=
  W_of_not_written m dats c (by decide) (by decide) (by decide)
/-- No host line before the region writes `main_arg10`: the region finds it as launched. -/
theorem V_main_arg10 (c : Dev nD) : V m c main_arg10 = m ((c : Thread nD τ).loc main_arg10) := V_of_not_written m c (by decide)
/-- Nor does a line after it, nor the region: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg10 = m ((c : Thread nD τ).loc main_arg10) :=
  W_of_not_written m dats c (by decide) (by decide) (by decide)

/-! ## The frame claim's post from the frame run's -/

/-- For any proof data, a run of @main to the library's frame post — every buffer that bypasses the region at what the
    lines after the region leave there — is a run to the frame claim's post: each argument array bypasses the region
    (it is unscoped and no window's array), and is as launched at the end (`W_main_argK`). -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

end Cert.KernelIdeal.Hand

end
-- ==== Proof.KernelIdealFrame.lean ====
/- The frame of `KernelIdeal`: the one region's body at a grid point, the proof data of the pipeline, the run of @main and
   the frame claim.

   The region has a grid of 36 points and three windows. At a point the pipeline hands the body three whole staging
   buffers: window 0's holds the point's 256×96×24 block of the first operand, window 1's the 256×96 block of the second,
   window 2's is the result's. The body loads the two input blocks whole, loads the result buffer too (a value it
   never uses), and stores one 256×96 value — a function of the two input blocks alone — over the whole result buffer.
   So after the body the input buffers hold what they held and the result buffer holds that value, whatever it held. -/
import proofs.«131294_j75445395522211_2_alg».proof.Proof.KernelIdealFrameHost
import proofs.«131294_j75445395522211_2_alg».proof.Proof.Gen.KernelIdeal.Skeleton
import proofs.«131294_j75445395522211_2_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`: the part of its array, as the region finds the array (`V`), that the window's index
    map selects at `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is `V`'s
    and whose body leaves the block in place: the window is fetched whole at every point and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole 256×96×24 buffer as a rectangle: what the body loads of window 0's buffer. -/
abbrev r0_0 : Rect S256x96x24 := Rect.unit (s := S256x96x24) ![0, 0, 0] S256x96x24.size inb_S256x96x24_S256x96x24_0_0_0
/-- The whole 256×96 buffer as a rectangle: what the body loads of window 1's buffer and stores over window 2's. -/
abbrev r0_1 : Rect S256x96 := Rect.unit (s := S256x96) ![0, 0] S256x96.size inb_S256x96_S256x96_0_0

/-! ## What the body leaves in the result window's buffer -/

/-- Window 2's staging buffer after the body, from the two input blocks: its one store, of the payload of the two
    blocks read whole, over the whole buffer. -/
def out0_2 (x0 : Vec F S256x96x24 .f32) (x1 : Vec F S256x96 .i32) : Vec F S256x96 .i32 :=
  View.canon [⟨r0_1, k0_pay1 (View.ld x0 r0_0) (View.ld x1 r0_1)⟩]

/-- The one store covers the buffer: its rectangle is the whole of it. -/
theorem cover0_2 (p0 : Vec F S256x96 .i32) (y : S256x96.Idx) :
    ∃ pc ∈ ([⟨r0_1, p0⟩] : List (View.Piece (Elt F) S256x96 .i32)), y ∈ pc.1.set :=
  View.cover_of_tiled [⟨r0_1, p0⟩] S256x96.size (by rfl) y

/-! ## The body's triple -/

set_option maxHeartbeats 1000000 in
/-- The kernel body on whole staging memrefs — the inputs' holding `x0` and `x1`, the result's holding anything — runs to
    the continuation with the inputs' as they were and the result's at `out0_2 x0 x1`: two loads, a third load of the
    result buffer whose value is dropped, and the store. -/
theorem sound_kernel (c : Dev nD) (E : Set ℕ) (i : grid0.Coords)
    (arg1 : Memref sig .tc .vmem S256x96x24 .f32) (harg1 : arg1.IsWhole)
    (arg2 : Memref sig .tc .vmem S256x96 .i32) (harg2 : arg2.IsWhole)
    (arg3 : Memref sig .tc .vmem S256x96 .i32) (harg3 : arg3.IsWhole)
    (x0 : Vec F S256x96x24 .f32) (x1 : Vec F S256x96 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__updated_mask_kernel i arg1 harg1 arg2 harg2 arg3 harg3) K := by
  simp only [cc0__updated_mask_kernel_eq_skeleton]; unfold cc0__updated_mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at point
    `t` each input's buffer at its block and the result's at `out0_2` of the two input blocks; the invariant is the
    class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents, by projecting the definition: `V`, a long fold, is never
    unfolded to see it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`: the invariant, what the core owes, and each window's current staging
    buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the same, each buffer at what the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of @main on the TensorCores terminates, and in
    every final state each array of the pipeline holds what the library computes from the proof data and every other
    unscoped buffer what the lines after the region leave there. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame claim at any `F`: @main runs, and each of its eleven argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Hand

end
-- ==== Proof.MaskLaw.lean ====
import Idealize.ShloMosaic.Lib.ValueIdx
import Idealize.ShloMosaic.Lib.Pipeline.Value
import Idealize.ShloMosaic.PureOps.Ideal.Laws
import Idealize.ShloMosaic.PureOps.Reduce

/-! # "Some channel is non-zero, or the voxel is occupied", two ways

A voxel of the dense feature volume carries `c` channels, extended reals `f 0, …, f (c-1)`; the updated mask at the voxel
is the bit "some channel is not 0", or-ed with the voxel's occupancy bit.

The kernel computes the first bit as a MAXIMUM: it maps each channel to 1 (non-zero) or 0 (zero), takes the maximum of
these over the channels starting from −∞, and asks whether the maximum is above 0. A maximum of zeros and ones from −∞
is above 0 exactly when one of the entries is 1, that is when some channel is non-zero. It then keeps the occupancy as a
32-bit word, tests it against 0, or-s the two bits and widens the result to 32 bits.

The reference computes the first bit as an OR over the channels of the bits "channel k is not 0", starting from the bit 0:
such a fold is 1 exactly when some bit is 1.

Both are therefore the one bit `anyNZ f`, and the two masks agree voxel by voxel. -/

noncomputable section

namespace Cert.Hand.Mask

open Idealize.ShloMosaic Idealize.ShloMosaic.ValueIdx

/-- The bit "some entry of the family is not 0". -/
def anyNZ {n : Nat} (f : Fin n → EReal) : BitVec 1 := BitVec.ofBool (decide (∃ k, f k ≠ 0))

/-- The kernel's 32-bit mask word at a voxel: "some channel is non-zero" or "the occupancy word is not 0", widened. -/
def maskWord {n : Nat} (f : Fin n → EReal) (w : BitVec 32) : BitVec 32 :=
  (IntOp.ori (anyNZ f) (IntOp.cmpi .ne w 0#32)).setWidth 32

/-- The kernel's result as ONE function of its two operands: the feature volume viewed as voxels × channels and the
    occupancy words viewed as voxels, the mask word voxel by voxel. -/
def maskArr {A B C : Nat} (g : (⟨3, ![A, B, C]⟩ : Shape).Idx → EReal) (o : (⟨2, ![A, B]⟩ : Shape).Idx → BitVec 32) :
    (⟨2, ![A, B]⟩ : Shape).Idx → BitVec 32 :=
  fun j => maskWord (fun k : Fin C => g (ix3 (j 0) (j 1) k)) (o j)

/-! ## The three float words the kernel writes out -/

theorem word_one_pos : (0 : EReal) < Ideal.ofBits .f32 0x3F800000#32 := by
  simp [Ideal.ofBits, Ideal.ieee]
  exact EReal.mul_pos (by exact_mod_cast (by norm_num : (0:ℝ) < 8388608)) (by exact_mod_cast (by positivity : (0:ℝ) < (2^23)⁻¹))

theorem word_neg_inf : Ideal.ofBits .f32 0xFF800000#32 = ⊥ := by
  simp [Ideal.ofBits, Ideal.ieee]

/-! ## A maximum of zeros and ones from −∞ -/

/-- A maximum folded from a value not above 0 is above 0 exactly when some entry is. -/
theorem fold_max_pos {ι : Type} [Fintype ι] (g : ι → EReal) (b : EReal) (hb : ¬ (0 : EReal) < b) :
    (0 : EReal) < (Finset.univ : Finset ι).fold max b g ↔ ∃ k, (0 : EReal) < g k := by
  rw [Finset.lt_fold_max]
  constructor
  · rintro (h | ⟨k, -, h⟩)
    · exact absurd h hb
    · exact ⟨k, h⟩
  · rintro ⟨k, h⟩
    exact Or.inr ⟨k, Finset.mem_univ _, h⟩

/-- One channel's indicator, 1 where the channel is not 0 and 0 where it is, is above 0 exactly when the channel is not 0. -/
theorem indicator_pos (x : EReal) :
    (0 : EReal) < Scalar.select (Ideal.cmp .one x (Ideal.ofBits .f32 0x00000000#32)) (Ideal.ofBits .f32 0x3F800000#32)
      (Ideal.ofBits .f32 0x00000000#32) ↔ x ≠ 0 := by
  rw [Ideal.ofBits_zero_f32]
  unfold Scalar.select Ideal.cmp
  by_cases hx : x = 0
  · simp [hx]
  · simp [hx, word_one_pos]

/-! ## An or of bits from the bit 0 -/

/-- A left fold by `or` over one-bit words is 1 exactly when it started at 1 or met a 1. -/
theorem foldl_ori_eq_one {ι : Type} (f : ι → BitVec 1) :
    ∀ (l : List ι) (init : BitVec 1), l.foldl (fun r n => IntOp.ori r (f n)) init = 1#1 ↔ (init = 1#1 ∨ ∃ n ∈ l, f n = 1#1)
  | [], init => by simp
  | a :: l, init => by
    rw [List.foldl_cons, foldl_ori_eq_one f l]
    have hor : IntOp.ori init (f a) = 1#1 ↔ (init = 1#1 ∨ f a = 1#1) := by
      unfold IntOp.ori
      rcases BitVec.eq_zero_or_eq_one init with h | h <;> rcases BitVec.eq_zero_or_eq_one (f a) with h' | h' <;>
        rw [h, h'] <;> decide
    rw [hor]
    constructor
    · rintro ((h | h) | ⟨n, hn, h⟩)
      · exact Or.inl h
      · exact Or.inr ⟨a, List.mem_cons_self .., h⟩
      · exact Or.inr ⟨n, List.mem_cons_of_mem _ hn, h⟩
    · rintro (h | ⟨n, hn, h⟩)
      · exact Or.inl (Or.inl h)
      · rcases List.mem_cons.mp hn with rfl | hn
        · exact Or.inl (Or.inr h)
        · exact Or.inr ⟨n, hn, h⟩

/-- Two one-bit words are equal when each is 1 exactly when the other is. -/
theorem bit_ext {a b : BitVec 1} (h : a = 1#1 ↔ b = 1#1) : a = b := by
  rcases BitVec.eq_zero_or_eq_one a with ha | ha <;> rcases BitVec.eq_zero_or_eq_one b with hb | hb
  · rw [ha, hb]
  · exact absurd (h.mpr hb) (by rw [ha]; decide)
  · exact absurd (h.mp ha) (by rw [hb]; decide)
  · rw [ha, hb]

theorem ofBool_eq_one (p : Bool) : BitVec.ofBool p = 1#1 ↔ p = true := by
  cases p <;> decide

theorem anyNZ_eq_one {n : Nat} (f : Fin n → EReal) : anyNZ f = 1#1 ↔ ∃ k, f k ≠ 0 := by
  unfold anyNZ; rw [ofBool_eq_one, decide_eq_true_iff]

/-! ## A widened bit tested against 0 is the bit -/

theorem widen_ne_zero (b : BitVec 1) : IntOp.cmpi .ne (b.setWidth 32) 0#32 = b := by
  rcases BitVec.eq_zero_or_eq_one b with h | h <;> rw [h] <;> decide

end Cert.Hand.Mask

end
-- ==== Proof.MaskReads.lean ====
import proofs.«131294_j75445395522211_2_alg».proof.Proof.MaskLaw

/-! # The two spellings read at a voxel

The kernel's stored word and the reference's mask bit, each read at one voxel as the words of `MaskLaw`. -/

noncomputable section

namespace Cert.Hand.Mask

open Idealize.ShloMosaic Idealize.ShloMosaic.ValueIdx

/-- A voxel's index with channel `k` inserted on the last axis. -/
theorem lift_ix {a b c : Nat} (h : Shape.Reduces ⟨3, ![a, b, c]⟩ [2] ⟨2, ![a, b]⟩) (p : Fin a) (q : Fin b) (k : Fin c) :
    h.lift (ix2 p q) k = ix3 p q k := by
  funext d; apply Fin.ext
  match d with
  | ⟨0, _⟩ => rfl
  | ⟨1, _⟩ => rfl
  | ⟨2, _⟩ => rfl

/-- The stored word at a voxel, the pointwise operations opened: the maximum's test against 0 or-ed with the occupancy
    word's test against 0, widened. -/
theorem word_at {A B : Nat} (mx : FVec Ideal ⟨2, ![A, B]⟩ .f32) (o : IVec ⟨2, ![A, B]⟩ 32) (hlt : 1 < 32)
    (j : (⟨2, ![A, B]⟩ : Shape).Idx) :
    extui 32 (ori (cmpf .ogt mx (broadcast ⟨2, ![A, B]⟩ (Scalar.ofBits (F := Ideal) .f32 0x00000000#32)))
      (cmpi .ne o (broadcast ⟨2, ![A, B]⟩ 0#32))) hlt j
    = (IntOp.ori (Ideal.cmp .ogt (mx j) (Ideal.ofBits .f32 0x00000000#32)) (IntOp.cmpi .ne (o j) 0#32)).setWidth 32 := rfl

/-- The channels' indicators, 1 where a channel is not 0 and 0 where it is. -/
abbrev indicators {A B C : Nat} (v : FVec Ideal ⟨3, ![A, B, C]⟩ .f32) : FVec Ideal ⟨3, ![A, B, C]⟩ .f32 :=
  select (cmpf .one v (broadcast ⟨3, ![A, B, C]⟩ (Scalar.ofBits (F := Ideal) .f32 0x00000000#32)))
    (broadcast ⟨3, ![A, B, C]⟩ (Scalar.ofBits (F := Ideal) .f32 0x3F800000#32))
    (broadcast ⟨3, ![A, B, C]⟩ (Scalar.ofBits (F := Ideal) .f32 0x00000000#32))

/-- The maximum of a voxel's indicators from −∞ is above 0 exactly when some channel of the voxel is not 0. -/
theorem chanMax_pos {A B C : Nat} (v : FVec Ideal ⟨3, ![A, B, C]⟩ .f32)
    (h : Shape.Reduces ⟨3, ![A, B, C]⟩ [2] ⟨2, ![A, B]⟩) (hφ : FKind.Formats .f32)
    (hacc : (0xFF800000#32 : BitVec 32) = FKind.maximumf.neutral .f32 hφ) (p : Fin A) (q : Fin B) :
    (0 : EReal) < multiReduction .maximumf [2] ⟨2, ![A, B]⟩ (indicators v) 0xFF800000#32 h hφ hacc (ix2 p q)
      ↔ ∃ k : Fin C, v (ix3 p q k) ≠ 0 := by
  have e := Ideal.multiReduction_maximumf_single (indicators v) 0xFF800000#32 h hφ hacc (ix2 p q)
  refine (iff_of_eq (congrArg (fun t => (0 : EReal) < t) e)).trans ?_
  refine (fold_max_pos _ _ (by show ¬ (0 : EReal) < Ideal.ofBits .f32 0xFF800000#32; rw [word_neg_inf]; exact not_lt_bot)).trans ?_
  refine exists_congr fun k => ?_
  refine (indicator_pos (v (h.lift (ix2 p q) k))).trans ?_
  exact iff_of_eq (congrArg (fun i => v i ≠ 0) (lift_ix h p q k))

/-- THE KERNEL'S WORD at voxel (p, q) of a block: the channels' indicators, their maximum from −∞ over the last axis
    tested against 0, or-ed with the occupancy word's test against 0, widened to 32 bits — is the mask word of the
    voxel's channels and occupancy word. -/
theorem kernelWord_apply {A B C : Nat} (v : FVec Ideal ⟨3, ![A, B, C]⟩ .f32) (o : IVec ⟨2, ![A, B]⟩ 32)
    (h : Shape.Reduces ⟨3, ![A, B, C]⟩ [2] ⟨2, ![A, B]⟩) (hφ : FKind.Formats .f32)
    (hacc : (0xFF800000#32 : BitVec 32) = FKind.maximumf.neutral .f32 hφ) (hlt : 1 < 32) (p : Fin A) (q : Fin B) :
    extui 32 (ori (cmpf .ogt (multiReduction .maximumf [2] ⟨2, ![A, B]⟩ (indicators v) 0xFF800000#32 h hφ hacc)
        (broadcast ⟨2, ![A, B]⟩ (Scalar.ofBits (F := Ideal) .f32 0x00000000#32)))
      (cmpi .ne o (broadcast ⟨2, ![A, B]⟩ 0#32))) hlt (ix2 p q)
    = maskWord (fun k : Fin C => v (ix3 p q k)) (o (ix2 p q)) := by
  refine (word_at _ o hlt (ix2 p q)).trans ?_
  unfold maskWord
  refine congrArg (fun t => (IntOp.ori t (IntOp.cmpi .ne (o (ix2 p q)) 0#32)).setWidth 32) ?_
  apply bit_ext
  refine Iff.trans ?_ (anyNZ_eq_one _).symm
  refine Iff.trans ?_ (chanMax_pos v h hφ hacc p q)
  unfold Ideal.cmp
  rw [ofBool_eq_one, decide_eq_true_iff, Ideal.ofBits_zero_f32]

/-- THE REFERENCE'S BIT at voxel (x, y, z): the or over the channels, from the bit 0, of "channel k is not 0", or-ed with
    the occupancy bit — is "some channel is non-zero" or the occupancy bit. -/
theorem hostBit_apply {a b c d : Nat} {u : Shape} (g : (⟨4, ![a, b, c, d]⟩ : Shape).Idx → EReal) (z0 : (⟨4, ![a, b, c, d]⟩ : Shape).Idx → EReal)
    (hz : ∀ i, z0 i = 0) (init : u.Idx → BitVec 1) (hu : 0 < u.numel) (hinit : ∀ i, init i = 0#1)
    (o : IVec ⟨3, ![a, b, c]⟩ 1) (h' : Shape.ReducesTo ⟨4, ![a, b, c, d]⟩ [3] ⟨3, ![a, b, c]⟩)
    (h : Shape.Reduces ⟨4, ![a, b, c, d]⟩ [3] ⟨3, ![a, b, c]⟩)
    (hl : ∀ x y z (k : Fin d), h.lift (ix3 x y z) k = ix4 x y z k) (x : Fin a) (y : Fin b) (z : Fin c) :
    ori (Host.reduce IntOp.ori (cmpf (F := Ideal) (φ := .f32) .une g z0) init h' hu) o (ix3 x y z)
      = IntOp.ori (anyNZ fun k : Fin d => g (ix4 x y z k)) (o (ix3 x y z)) := by
  show IntOp.ori (Host.reduce IntOp.ori (cmpf (F := Ideal) (φ := .f32) .une g z0) init h' hu (ix3 x y z)) (o (ix3 x y z)) = _
  refine congrArg (fun t => IntOp.ori t (o (ix3 x y z))) ?_
  apply bit_ext
  rw [anyNZ_eq_one, Host.reduce_eq_foldl, foldl_ori_eq_one, hinit]
  constructor
  · rintro (hbad | ⟨i, hi, hone⟩)
    · exact absurd hbad (by decide)
    · rw [List.mem_filter, decide_eq_true_iff] at hi
      have hi2 : i = h.lift (ix3 x y z) (i 3) := by
        rw [← hi.2, Shape.ReducesTo.drop_eq_drop h' h]; exact (h.lift_drop i).symm
      refine ⟨i 3, ?_⟩
      have : cmpf (F := Ideal) (φ := .f32) .une g z0 i = 1#1 := hone
      rw [cmpf_apply, Ideal.cmpf_def, hz] at this
      unfold Ideal.cmp at this
      rw [ofBool_eq_one, decide_eq_true_iff] at this
      rw [hi2] at this
      exact fun hg => this ((congrArg g (hl x y z (i 3))).trans hg)
  · rintro ⟨k, hk⟩
    refine Or.inr ⟨ix4 x y z k, ?_, ?_⟩
    · rw [List.mem_filter, decide_eq_true_iff]
      refine ⟨List.mem_map.2 ⟨_, List.mem_finRange _, Equiv.symm_apply_apply _ _⟩, ?_⟩
      rw [Shape.ReducesTo.drop_eq_drop h' h]
      exact (congrArg h.drop (hl x y z k)).symm.trans (h.drop_lift (ix3 x y z) k)
    · show cmpf (F := Ideal) (φ := .f32) .une g z0 (ix4 x y z k) = 1#1
      rw [cmpf_apply, Ideal.cmpf_def, hz]
      unfold Ideal.cmp
      rw [ofBool_eq_one, decide_eq_true_iff]
      exact hk

end Cert.Hand.Mask

end
-- ==== Proof.KernelPayload.lean ====
import proofs.«131294_j75445395522211_2_alg».proof.Proof.Gen.KernelIdeal.Skeleton
import proofs.«131294_j75445395522211_2_alg».proof.Proof.MaskReads

/-! # What the body stores, voxel by voxel

The body's one stored value is a pure function of its two loaded blocks, the 256×96×24 block of the feature volume and
the 256×96 block of occupancy words. At voxel (p, q) of the block it is the mask word of the voxel's 24 channels and of its
occupancy word: the two reshapes in front are of a shape to itself, and the rest is the word of `MaskReads`. -/

noncomputable section

namespace Cert.KernelIdeal.HandValue

open Idealize.ShloMosaic Idealize.ShloMosaic.ValueIdx Cert.KernelIdeal Cert.KernelIdeal.Gen

/-- The body's one stored value at a voxel of its block: the mask word of the voxel's channels and occupancy word. -/
theorem pay_apply (x0 : Vec Ideal S256x96x24 .f32) (x1 : Vec Ideal S256x96 .i32) (p : Fin 256) (q : Fin 96) :
    k0_pay1 (F := Ideal) x0 x1 (ix2 p q) = Cert.Hand.Mask.maskWord (fun k : Fin 24 => x0 (ix3 p q k)) (x1 (ix2 p q)) := by
  unfold k0_pay1
  dsimp only
  rw [shapeCast_self, shapeCast_self]
  exact Cert.Hand.Mask.kernelWord_apply (A := 256) (B := 96) (C := 24) x0 x1 _ _ _ _ p q

end Cert.KernelIdeal.HandValue

end
-- ==== Proof.LibLineSimulation.lean ====
import Idealize.ShloMosaic.Lib.StableHlo.Run

/-! # Two straight lines of operations that compute the same values

Two programs over different signatures may run the same operations on buffers that correspond: a list `ρ` of pairs
of references, one of each signature and both of one tensor type, says which. Two valuations AGREE on `ρ` when
paired buffers hold the same contents. If an operation of the first line and one of the second read paired buffers,
apply the same function, and write a fresh pair, they keep the agreement and add the pair they write; so two lines
that correspond operation by operation carry agreement on the arguments to agreement on every result. No function
is ever opened: each step compares the two functions as they stand. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- A reference of each signature, the two buffers of one tensor type. -/
structure Pair (sigA sigB : RefSig) where
  a : Ref sigA .tc
  b : Ref sigB .tc
  ty : a.ty = b.ty

namespace Pair

/-- Contents of the first buffer as contents of the second (the identity when `ty` is `rfl`). -/
abbrev cast (p : Pair sigA sigB) (u : p.a.ty.Contents Val) : p.b.ty.Contents Val :=
  _root_.cast (congrArg (fun T : BufTy => T.Contents Val) p.ty) u

instance : DecidableEq (Pair sigA sigB) := fun p q =>
  if h : p.a = q.a ∧ p.b = q.b then
    isTrue (by obtain ⟨a, b, t⟩ := p; obtain ⟨a', b', t'⟩ := q; obtain ⟨rfl, rfl⟩ := h; rfl)
  else isFalse fun e => h ⟨e ▸ rfl, e ▸ rfl⟩

end Pair

/-- The two valuations hold the same contents at each listed pair. -/
def Agree (ρ : List (Pair sigA sigB)) (WA : Valuation τA sigA Val) (WB : Valuation τB sigB Val) : Prop :=
  ∀ p ∈ ρ, p.cast (WA (Proc.devRef .tc p.a)) = WB (Proc.devRef .tc p.b)

theorem Agree.nil {WA : Valuation τA sigA Val} {WB : Valuation τB sigB Val} : Agree [] WA WB :=
  fun _ h => nomatch h

theorem Agree.cons {ρ : List (Pair sigA sigB)} {p : Pair sigA sigB} {WA : Valuation τA sigA Val} {WB : Valuation τB sigB Val}
    (h : p.cast (WA (Proc.devRef .tc p.a)) = WB (Proc.devRef .tc p.b)) (t : Agree ρ WA WB) : Agree (p :: ρ) WA WB :=
  fun q hq => by
    rcases List.mem_cons.mp hq with rfl | hq
    · exact h
    · exact t q hq

theorem Agree.mono {ρ ρ' : List (Pair sigA sigB)} {WA : Valuation τA sigA Val} {WB : Valuation τB sigB Val}
    (hs : ∀ p ∈ ρ', p ∈ ρ) (h : Agree ρ WA WB) : Agree ρ' WA WB :=
  fun p hp => h p (hs p hp)

/-- One operation of each line: from agreement on `ρ` to agreement on `ρ` and the pair `y` they write. -/
def Step (ρ : List (Pair sigA sigB)) (opA : HloOp τA sigA Val) (opB : HloOp τB sigB Val) (y : Pair sigA sigB) : Prop :=
  ∀ WA WB, Agree ρ WA WB → Agree (y :: ρ) (opA.result WA) (opB.result WB)

/-- Two lines: from agreement on `ρ` before them to agreement on `ρ'` after them. -/
def Sim (ρ : List (Pair sigA sigB)) (lA : List (HloOp τA sigA Val)) (lB : List (HloOp τB sigB Val))
    (ρ' : List (Pair sigA sigB)) : Prop :=
  ∀ WA WB, Agree ρ WA WB → Agree ρ' (after lA WA) (after lB WB)

theorem Sim.nil {ρ ρ' : List (Pair sigA sigB)} (hs : ∀ p ∈ ρ', p ∈ ρ) :
    Sim (τA := τA) (τB := τB) (Val := Val) ρ [] [] ρ' :=
  fun _ _ h => h.mono hs

theorem Sim.cons {ρ ρ' : List (Pair sigA sigB)} {y : Pair sigA sigB} {opA : HloOp τA sigA Val} {opB : HloOp τB sigB Val}
    {lA : List (HloOp τA sigA Val)} {lB : List (HloOp τB sigB Val)}
    (hstep : Step ρ opA opB y) (t : Sim (y :: ρ) lA lB ρ') : Sim ρ (opA :: lA) (opB :: lB) ρ' :=
  fun WA WB h => t _ _ (hstep WA WB h)

/-- The fold over a concatenation is the fold over the second list from the fold over the first. -/
theorem after_append' {τ : Topo} {sig : RefSig} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem Sim.append {ρ ρ₁ ρ₂ : List (Pair sigA sigB)} {lA lA' : List (HloOp τA sigA Val)} {lB lB' : List (HloOp τB sigB Val)}
    (h₁ : Sim ρ lA lB ρ₁) (h₂ : Sim ρ₁ lA' lB' ρ₂) : Sim ρ (lA ++ lA') (lB ++ lB') ρ₂ :=
  fun WA WB h => by
    rw [after_append', after_append']
    exact h₂ _ _ (h₁ WA WB h)

/-- Two operations that each write one buffer, the pair `y`, fresh for `ρ`, and whose results there agree whenever
    the valuations agree on `ρ`. -/
theorem step_of {ρ : List (Pair sigA sigB)} {opA : HloOp τA sigA Val} {opB : HloOp τB sigB Val} {y : Pair sigA sigB}
    (hwA : opA.writes = {Proc.devRef .tc y.a}) (hwB : opB.writes = {Proc.devRef .tc y.b})
    (hfresh : ∀ p ∈ ρ, p.a ≠ y.a ∧ p.b ≠ y.b)
    (hval : ∀ WA WB, Agree ρ WA WB →
      y.cast (opA.result WA (Proc.devRef .tc y.a)) = opB.result WB (Proc.devRef .tc y.b)) : Step ρ opA opB y := by
  intro WA WB h
  refine Agree.cons (hval WA WB h) fun p hp => ?_
  rw [opA.result_of_not_mem WA (by rw [hwA, Finset.mem_singleton]; exact devRef_ne_of_ne (hfresh p hp).1),
    opB.result_of_not_mem WB (by rw [hwB, Finset.mem_singleton]; exact devRef_ne_of_ne (hfresh p hp).2)]
  exact h p hp

theorem step_nullary {ρ : List (Pair sigA sigB)} (y : Pair sigA sigB)
    {vA : y.a.ty.Contents Val} {vB : y.b.ty.Contents Val} {hA hB}
    (hfresh : ∀ p ∈ ρ, p.a ≠ y.a ∧ p.b ≠ y.b) (hv : y.cast vA = vB) :
    Step ρ (nullary y.a vA hA : HloOp τA sigA Val) (nullary y.b vB hB : HloOp τB sigB Val) y :=
  step_of rfl rfl hfresh fun WA WB _ => by rw [nullary_result, nullary_result]; exact hv

theorem step_unary {ρ : List (Pair sigA sigB)} (x y : Pair sigA sigB)
    {fA : x.a.ty.Contents Val → y.a.ty.Contents Val} {fB : x.b.ty.Contents Val → y.b.ty.Contents Val} {hxA hyA hxB hyB}
    (hx : x ∈ ρ) (hfresh : ∀ p ∈ ρ, p.a ≠ y.a ∧ p.b ≠ y.b) (hf : ∀ u, y.cast (fA u) = fB (x.cast u)) :
    Step ρ (unary x.a y.a fA hxA hyA : HloOp τA sigA Val) (unary x.b y.b fB hxB hyB : HloOp τB sigB Val) y :=
  step_of rfl rfl hfresh fun WA WB h => by rw [unary_result, unary_result, hf, h x hx]

theorem step_binary {ρ : List (Pair sigA sigB)} (a b y : Pair sigA sigB)
    {fA : a.a.ty.Contents Val → b.a.ty.Contents Val → y.a.ty.Contents Val}
    {fB : a.b.ty.Contents Val → b.b.ty.Contents Val → y.b.ty.Contents Val} {haA hbA hyA haB hbB hyB}
    (ha : a ∈ ρ) (hb : b ∈ ρ) (hfresh : ∀ p ∈ ρ, p.a ≠ y.a ∧ p.b ≠ y.b)
    (hf : ∀ u v, y.cast (fA u v) = fB (a.cast u) (b.cast v)) :
    Step ρ (binary a.a b.a y.a fA haA hbA hyA : HloOp τA sigA Val) (binary a.b b.b y.b fB haB hbB hyB : HloOp τB sigB Val) y :=
  step_of rfl rfl hfresh fun WA WB h => by rw [binary_result, binary_result, hf, h a ha, h b hb]

theorem step_ternary {ρ : List (Pair sigA sigB)} (c a b y : Pair sigA sigB)
    {fA : c.a.ty.Contents Val → a.a.ty.Contents Val → b.a.ty.Contents Val → y.a.ty.Contents Val}
    {fB : c.b.ty.Contents Val → a.b.ty.Contents Val → b.b.ty.Contents Val → y.b.ty.Contents Val}
    {hcA haA hbA hyA hcB haB hbB hyB}
    (hc : c ∈ ρ) (ha : a ∈ ρ) (hb : b ∈ ρ) (hfresh : ∀ p ∈ ρ, p.a ≠ y.a ∧ p.b ≠ y.b)
    (hf : ∀ w u v, y.cast (fA w u v) = fB (c.cast w) (a.cast u) (b.cast v)) :
    Step ρ (ternary c.a a.a b.a y.a fA hcA haA hbA hyA : HloOp τA sigA Val)
      (ternary c.b a.b b.b y.b fB hcB haB hbB hyB : HloOp τB sigB Val) y :=
  step_of rfl rfl hfresh fun WA WB h => by rw [ternary_result, ternary_result, hf, h c hc, h a ha, h b hb]

end Cert.Lib.LineSimulation

end
-- ==== Proof.LibLineSteps.lean ====
import proofs.«131294_j75445395522211_2_alg».proof.Proof.LibLineSimulation

/-! # More steps for two lines of operations that compute the same values

Beside operations that correspond one to one, two lines may differ by operations that only one of them has: such
an operation writes a buffer that no listed pair mentions, so it keeps every agreement (`Sim.skipLeft`,
`Sim.skipRight`). A reshape of paired buffers writes a pair like any other unary operation (`step_reshape`), and
pairs that are no longer read may be dropped (`Sim.weaken`, the tactic `line_keep`). One line alone keeps a buffer none of its operations
writes (`Keeps`). The tactic `line_step` takes one corresponding pair of
operations off the two lines: the buffers are paired as the two operations name them, the freshness of the pair
written and the membership of the pairs read are decided, and the two functions are compared as they stand. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- Fewer pairs are needed than are known. -/
theorem Sim.weaken {ρ ρ₁ ρ' : List (Pair sigA sigB)} {lA : List (HloOp τA sigA Val)} {lB : List (HloOp τB sigB Val)}
    (hs : ∀ p ∈ ρ₁, p ∈ ρ) (t : Sim ρ₁ lA lB ρ') : Sim ρ lA lB ρ' :=
  fun WA WB h => t WA WB (h.mono hs)

/-- An operation of the first line alone, writing no buffer of a listed pair, keeps the agreement. -/
theorem Sim.skipLeft {ρ ρ' : List (Pair sigA sigB)} {opA : HloOp τA sigA Val}
    {lA : List (HloOp τA sigA Val)} {lB : List (HloOp τB sigB Val)}
    (hw : ∀ p ∈ ρ, (Proc.devRef .tc p.a : DevRef τA sigA) ∉ opA.writes) (t : Sim ρ lA lB ρ') :
    Sim ρ (opA :: lA) lB ρ' :=
  fun WA WB h => t (opA.result WA) WB fun p hp => by
    rw [opA.result_of_not_mem WA (hw p hp)]; exact h p hp

/-- An operation of the second line alone, writing no buffer of a listed pair, keeps the agreement. -/
theorem Sim.skipRight {ρ ρ' : List (Pair sigA sigB)} {opB : HloOp τB sigB Val}
    {lA : List (HloOp τA sigA Val)} {lB : List (HloOp τB sigB Val)}
    (hw : ∀ p ∈ ρ, (Proc.devRef .tc p.b : DevRef τB sigB) ∉ opB.writes) (t : Sim ρ lA lB ρ') :
    Sim ρ lA (opB :: lB) ρ' :=
  fun WA WB h => t WA (opB.result WB) fun p hp => by
    rw [opB.result_of_not_mem WB (hw p hp)]; exact h p hp

/-- Two reshapes of paired buffers write a pair: both results are the operand's elements at the result's shape. -/
theorem step_reshape {ρ : List (Pair sigA sigB)} (x y : Pair sigA sigB) {heA hnA hxA hyA heB hnB hxB hyB}
    (hx : x ∈ ρ) (hfresh : ∀ p ∈ ρ, p.a ≠ y.a ∧ p.b ≠ y.b)
    (hf : ∀ (WA : Valuation τA sigA Val) (WB : Valuation τB sigB Val),
      x.cast (WA (Proc.devRef .tc x.a)) = WB (Proc.devRef .tc x.b) →
      y.cast ((reshape x.a y.a heA hnA hxA hyA : HloOp τA sigA Val).result WA (Proc.devRef .tc y.a))
        = (reshape x.b y.b heB hnB hxB hyB : HloOp τB sigB Val).result WB (Proc.devRef .tc y.b)) :
    Step ρ (reshape x.a y.a heA hnA hxA hyA : HloOp τA sigA Val) (reshape x.b y.b heB hnB hxB hyB : HloOp τB sigB Val) y :=
  step_of rfl rfl hfresh fun WA WB h => hf WA WB (h x hx)

/-- What `step_reshape` asks of two reshapes whose buffers have literally the same types. -/
theorem reshape_agree {x y : Ref sigA .tc} {x' y' : Ref sigB .tc} (hxt : x.ty = x'.ty) (hyt : y.ty = y'.ty)
    {heA : x.ty.elt = y.ty.elt} {hnA : x.ty.shape.ShapeCasts y.ty.shape} {hxA hyA}
    {heB : x'.ty.elt = y'.ty.elt} {hnB : x'.ty.shape.ShapeCasts y'.ty.shape} {hxB hyB}
    (WA : Valuation τA sigA Val) (WB : Valuation τB sigB Val)
    (hcast : ∀ u : x.ty.Contents Val, ∀ v : x'.ty.Contents Val,
      _root_.cast (congrArg (fun T : BufTy => T.Contents Val) hxt) u = v →
      _root_.cast (congrArg (fun T : BufTy => T.Contents Val) hyt) (fun i => heA ▸ shapeCast y.ty.shape u hnA i)
        = fun i => heB ▸ shapeCast y'.ty.shape v hnB i)
    (h : _root_.cast (congrArg (fun T : BufTy => T.Contents Val) hxt) (WA (Proc.devRef .tc x)) = WB (Proc.devRef .tc x')) :
    _root_.cast (congrArg (fun T : BufTy => T.Contents Val) hyt)
        ((reshape x y heA hnA hxA hyA : HloOp τA sigA Val).result WA (Proc.devRef .tc y))
      = (reshape x' y' heB hnB hxB hyB : HloOp τB sigB Val).result WB (Proc.devRef .tc y') := by
  rw [reshape_result, reshape_result]; exact hcast _ _ h

/-! ## One line that leaves some buffers alone -/

/-- The line leaves each listed buffer as it was. -/
def Keeps {τ : Topo} {sig : RefSig} (S : List (Ref sig .tc)) (l : List (HloOp τ sig Val)) : Prop :=
  ∀ W : Valuation τ sig Val, ∀ b ∈ S, after l W (Proc.devRef .tc b) = W (Proc.devRef .tc b)

theorem Keeps.nil {τ : Topo} {sig : RefSig} {S : List (Ref sig .tc)} : Keeps (τ := τ) (Val := Val) S [] :=
  fun _ _ _ => rfl

/-- An operation that writes the one buffer `y`, not listed, in front of a line that keeps the listed buffers. -/
theorem Keeps.cons {τ : Topo} {sig : RefSig} {S : List (Ref sig .tc)} {op : HloOp τ sig Val} {l : List (HloOp τ sig Val)}
    (y : Ref sig .tc) (hw : op.writes = {Proc.devRef .tc y}) (hfresh : ∀ b ∈ S, b ≠ y) (t : Keeps S l) :
    Keeps S (op :: l) :=
  fun W b hb => (t (op.result W) b hb).trans
    (op.result_of_not_mem W (by rw [hw, Finset.mem_singleton]; exact devRef_ne_of_ne (hfresh b hb)))

/-- Two lines that keep the listed buffers, one after the other. -/
theorem Keeps.append {τ : Topo} {sig : RefSig} {S : List (Ref sig .tc)} {l₁ l₂ : List (HloOp τ sig Val)}
    (h₁ : Keeps S l₁) (h₂ : Keeps S l₂) : Keeps S (l₁ ++ l₂) := fun W b hb => by
  rw [after_append']; exact (h₂ _ b hb).trans (h₁ W b hb)

/-- A line each of whose operations writes one buffer, never a listed one, keeps the listed buffers. -/
theorem Keeps.of_mem {τ : Topo} {sig : RefSig} {S : List (Ref sig .tc)} :
    ∀ (l : List (HloOp τ sig Val)),
      (∀ op ∈ l, ∃ y : Ref sig .tc, op.writes = {Proc.devRef .tc y} ∧ ∀ b ∈ S, b ≠ y) → Keeps S l
  | [], _ => Keeps.nil
  | op :: l, h => by
    obtain ⟨y, hw, hf⟩ := h op (List.mem_cons_self ..)
    exact Keeps.cons y hw hf (Keeps.of_mem l fun o ho => h o (List.mem_cons_of_mem _ ho))

/-! ## Steps with the buffers' types stated

Two paired buffers have one tensor type. When that type is stated — `a.ty = T` and `b.ty = T` for a literal `T`, each an
evaluation inside ONE signature — the transport of contents between the two buffers' types factors through `T`, and
that two operations compute the same function becomes an equation at the literal types. The transports below are
proved once, over type variables. -/

theorem typed_nullary {B B' U : Type} (hB : B = U) (hB' : B' = U) (vA : B) (vB : B')
    (h : _root_.cast hB' vB = _root_.cast hB vA) : _root_.cast (hB.trans hB'.symm) vA = vB := by
  cases hB; cases hB'; simpa using h.symm

theorem typed_unary {A A' B B' T U : Type} (hA : A = T) (hA' : A' = T) (hB : B = U) (hB' : B' = U)
    (fA : A → B) (fB : A' → B')
    (h : ∀ v : A', _root_.cast hB' (fB v) = _root_.cast hB (fA (_root_.cast hA.symm (_root_.cast hA' v)))) (u : A) :
    _root_.cast (hB.trans hB'.symm) (fA u) = fB (_root_.cast (hA.trans hA'.symm) u) := by
  cases hA; cases hA'; cases hB; cases hB'; simpa using (h u).symm

theorem typed_binary {A A' B B' C C' T U V : Type} (hA : A = T) (hA' : A' = T) (hB : B = U) (hB' : B' = U)
    (hC : C = V) (hC' : C' = V) (fA : A → B → C) (fB : A' → B' → C')
    (h : ∀ (a : A') (b : B'), _root_.cast hC' (fB a b)
      = _root_.cast hC (fA (_root_.cast hA.symm (_root_.cast hA' a)) (_root_.cast hB.symm (_root_.cast hB' b)))) (a : A) (b : B) :
    _root_.cast (hC.trans hC'.symm) (fA a b) = fB (_root_.cast (hA.trans hA'.symm) a) (_root_.cast (hB.trans hB'.symm) b) := by
  cases hA; cases hA'; cases hB; cases hB'; cases hC; cases hC'; simpa using (h a b).symm

theorem typed_ternary {A A' B B' C C' D D' T U V W : Type} (hA : A = T) (hA' : A' = T) (hB : B = U) (hB' : B' = U)
    (hC : C = V) (hC' : C' = V) (hD : D = W) (hD' : D' = W) (fA : A → B → C → D) (fB : A' → B' → C' → D')
    (h : ∀ (a : A') (b : B') (c : C'), _root_.cast hD' (fB a b c)
      = _root_.cast hD (fA (_root_.cast hA.symm (_root_.cast hA' a)) (_root_.cast hB.symm (_root_.cast hB' b))
          (_root_.cast hC.symm (_root_.cast hC' c)))) (a : A) (b : B) (c : C) :
    _root_.cast (hD.trans hD'.symm) (fA a b c)
      = fB (_root_.cast (hA.trans hA'.symm) a) (_root_.cast (hB.trans hB'.symm) b) (_root_.cast (hC.trans hC'.symm) c) := by
  cases hA; cases hA'; cases hB; cases hB'; cases hC; cases hC'; cases hD; cases hD'; simpa using (h a b c).symm

theorem step_nullary_t {ρ : List (Pair sigA sigB)} {ya : Ref sigA .tc} {yb : Ref sigB .tc} (TY : BufTy)
    (hya : ya.ty = TY) (hyb : yb.ty = TY) {vA : ya.ty.Contents Val} {vB : yb.ty.Contents Val} {hA hB}
    (hfresh : ∀ p ∈ ρ, p.a ≠ ya ∧ p.b ≠ yb)
    (h : _root_.cast (congrArg (fun T : BufTy => T.Contents Val) hyb) vB = _root_.cast (congrArg (fun T : BufTy => T.Contents Val) hya) vA) :
    Step ρ (nullary ya vA hA : HloOp τA sigA Val) (nullary yb vB hB : HloOp τB sigB Val) ⟨ya, yb, hya.trans hyb.symm⟩ :=
  step_nullary ⟨ya, yb, hya.trans hyb.symm⟩ hfresh (typed_nullary (congrArg (fun T : BufTy => T.Contents Val) hya) (congrArg (fun T : BufTy => T.Contents Val) hyb) vA vB h)

theorem step_unary_t {ρ : List (Pair sigA sigB)} {xa ya : Ref sigA .tc} {xb yb : Ref sigB .tc} (TX TY : BufTy)
    (hxa : xa.ty = TX) (hxb : xb.ty = TX) (hya : ya.ty = TY) (hyb : yb.ty = TY)
    {fA : xa.ty.Contents Val → ya.ty.Contents Val} {fB : xb.ty.Contents Val → yb.ty.Contents Val} {hxA hyA hxB hyB}
    (hx : (⟨xa, xb, hxa.trans hxb.symm⟩ : Pair sigA sigB) ∈ ρ) (hfresh : ∀ p ∈ ρ, p.a ≠ ya ∧ p.b ≠ yb)
    (h : ∀ v, _root_.cast (congrArg (fun T : BufTy => T.Contents Val) hyb) (fB v)
      = _root_.cast (congrArg (fun T : BufTy => T.Contents Val) hya) (fA (_root_.cast (congrArg (fun T : BufTy => T.Contents Val) hxa).symm (_root_.cast (congrArg (fun T : BufTy => T.Contents Val) hxb) v)))) :
    Step ρ (unary xa ya fA hxA hyA : HloOp τA sigA Val) (unary xb yb fB hxB hyB : HloOp τB sigB Val)
      ⟨ya, yb, hya.trans hyb.symm⟩ :=
  step_unary ⟨xa, xb, hxa.trans hxb.symm⟩ ⟨ya, yb, hya.trans hyb.symm⟩ hx hfresh
    (typed_unary (congrArg (fun T : BufTy => T.Contents Val) hxa) (congrArg (fun T : BufTy => T.Contents Val) hxb) (congrArg (fun T : BufTy => T.Contents Val) hya) (congrArg (fun T : BufTy => T.Contents Val) hyb) fA fB h)

theorem step_binary_t {ρ : List (Pair sigA sigB)} {aa ba ya : Ref sigA .tc} {ab bb yb : Ref sigB .tc} (TA TB TY : BufTy)
    (haa : aa.ty = TA) (hab : ab.ty = TA) (hba : ba.ty = TB) (hbb : bb.ty = TB) (hya : ya.ty = TY) (hyb : yb.ty = TY)
    {fA : aa.ty.Contents Val → ba.ty.Contents Val → ya.ty.Contents Val}
    {fB : ab.ty.Contents Val → bb.ty.Contents Val → yb.ty.Contents Val} {haA hbA hyA haB hbB hyB}
    (ha : (⟨aa, ab, haa.trans hab.symm⟩ : Pair sigA sigB) ∈ ρ) (hb : (⟨ba, bb, hba.trans hbb.symm⟩ : Pair sigA sigB) ∈ ρ)
    (hfresh : ∀ p ∈ ρ, p.a ≠ ya ∧ p.b ≠ yb)
    (h : ∀ u v, _root_.cast (congrArg (fun T : BufTy => T.Contents Val) hyb) (fB u v)
      = _root_.cast (congrArg (fun T : BufTy => T.Contents Val) hya) (fA (_root_.cast (congrArg (fun T : BufTy => T.Contents Val) haa).symm (_root_.cast (congrArg (fun T : BufTy => T.Contents Val) hab) u))
          (_root_.cast (congrArg (fun T : BufTy => T.Contents Val) hba).symm (_root_.cast (congrArg (fun T : BufTy => T.Contents Val) hbb) v)))) :
    Step ρ (binary aa ba ya fA haA hbA hyA : HloOp τA sigA Val) (binary ab bb yb fB haB hbB hyB : HloOp τB sigB Val)
      ⟨ya, yb, hya.trans hyb.symm⟩ :=
  step_binary ⟨aa, ab, haa.trans hab.symm⟩ ⟨ba, bb, hba.trans hbb.symm⟩ ⟨ya, yb, hya.trans hyb.symm⟩ ha hb hfresh
    (typed_binary (congrArg (fun T : BufTy => T.Contents Val) haa) (congrArg (fun T : BufTy => T.Contents Val) hab) (congrArg (fun T : BufTy => T.Contents Val) hba) (congrArg (fun T : BufTy => T.Contents Val) hbb) (congrArg (fun T : BufTy => T.Contents Val) hya) (congrArg (fun T : BufTy => T.Contents Val) hyb) fA fB h)

theorem step_ternary_t {ρ : List (Pair sigA sigB)} {ca aa ba ya : Ref sigA .tc} {cb ab bb yb : Ref sigB .tc}
    (TC TA TB TY : BufTy) (hca : ca.ty = TC) (hcb : cb.ty = TC) (haa : aa.ty = TA) (hab : ab.ty = TA)
    (hba : ba.ty = TB) (hbb : bb.ty = TB) (hya : ya.ty = TY) (hyb : yb.ty = TY)
    {fA : ca.ty.Contents Val → aa.ty.Contents Val → ba.ty.Contents Val → ya.ty.Contents Val}
    {fB : cb.ty.Contents Val → ab.ty.Contents Val → bb.ty.Contents Val → yb.ty.Contents Val}
    {hcA haA hbA hyA hcB haB hbB hyB}
    (hc : (⟨ca, cb, hca.trans hcb.symm⟩ : Pair sigA sigB) ∈ ρ) (ha : (⟨aa, ab, haa.trans hab.symm⟩ : Pair sigA sigB) ∈ ρ)
    (hb : (⟨ba, bb, hba.trans hbb.symm⟩ : Pair sigA sigB) ∈ ρ) (hfresh : ∀ p ∈ ρ, p.a ≠ ya ∧ p.b ≠ yb)
    (h : ∀ w u v, _root_.cast (congrArg (fun T : BufTy => T.Contents Val) hyb) (fB w u v)
      = _root_.cast (congrArg (fun T : BufTy => T.Contents Val) hya) (fA (_root_.cast (congrArg (fun T : BufTy => T.Contents Val) hca).symm (_root_.cast (congrArg (fun T : BufTy => T.Contents Val) hcb) w))
          (_root_.cast (congrArg (fun T : BufTy => T.Contents Val) haa).symm (_root_.cast (congrArg (fun T : BufTy => T.Contents Val) hab) u))
          (_root_.cast (congrArg (fun T : BufTy => T.Contents Val) hba).symm (_root_.cast (congrArg (fun T : BufTy => T.Contents Val) hbb) v)))) :
    Step ρ (ternary ca aa ba ya fA hcA haA hbA hyA : HloOp τA sigA Val)
      (ternary cb ab bb yb fB hcB haB hbB hyB : HloOp τB sigB Val) ⟨ya, yb, hya.trans hyb.symm⟩ :=
  step_ternary ⟨ca, cb, hca.trans hcb.symm⟩ ⟨aa, ab, haa.trans hab.symm⟩ ⟨ba, bb, hba.trans hbb.symm⟩
    ⟨ya, yb, hya.trans hyb.symm⟩ hc ha hb hfresh
    (typed_ternary (congrArg (fun T : BufTy => T.Contents Val) hca) (congrArg (fun T : BufTy => T.Contents Val) hcb) (congrArg (fun T : BufTy => T.Contents Val) haa) (congrArg (fun T : BufTy => T.Contents Val) hab) (congrArg (fun T : BufTy => T.Contents Val) hba) (congrArg (fun T : BufTy => T.Contents Val) hbb) (congrArg (fun T : BufTy => T.Contents Val) hya) (congrArg (fun T : BufTy => T.Contents Val) hyb) fA fB h)

theorem step_reshape_t {ρ : List (Pair sigA sigB)} {xa ya : Ref sigA .tc} {xb yb : Ref sigB .tc} (TX TY : BufTy)
    (hxa : xa.ty = TX) (hxb : xb.ty = TX) (hya : ya.ty = TY) (hyb : yb.ty = TY)
    {heA : xa.ty.elt = ya.ty.elt} {hnA : xa.ty.shape.ShapeCasts ya.ty.shape} {hxA hyA}
    {heB : xb.ty.elt = yb.ty.elt} {hnB : xb.ty.shape.ShapeCasts yb.ty.shape} {hxB hyB}
    (hx : (⟨xa, xb, hxa.trans hxb.symm⟩ : Pair sigA sigB) ∈ ρ) (hfresh : ∀ p ∈ ρ, p.a ≠ ya ∧ p.b ≠ yb)
    (h : ∀ v : xb.ty.Contents Val,
      _root_.cast (congrArg (fun T : BufTy => T.Contents Val) hyb) ((fun i => heB ▸ shapeCast yb.ty.shape v hnB i : yb.ty.Contents Val))
        = _root_.cast (congrArg (fun T : BufTy => T.Contents Val) hya) ((fun i => heA ▸ shapeCast ya.ty.shape
            (_root_.cast (congrArg (fun T : BufTy => T.Contents Val) hxa).symm (_root_.cast (congrArg (fun T : BufTy => T.Contents Val) hxb) v)) hnA i : ya.ty.Contents Val))) :
    Step ρ (reshape xa ya heA hnA hxA hyA : HloOp τA sigA Val) (reshape xb yb heB hnB hxB hyB : HloOp τB sigB Val)
      ⟨ya, yb, hya.trans hyb.symm⟩ :=
  step_reshape ⟨xa, xb, hxa.trans hxb.symm⟩ ⟨ya, yb, hya.trans hyb.symm⟩ hx hfresh fun WA WB e => by
    rw [reshape_result, reshape_result, ← e]
    exact typed_unary (congrArg (fun T : BufTy => T.Contents Val) hxa) (congrArg (fun T : BufTy => T.Contents Val) hxb) (congrArg (fun T : BufTy => T.Contents Val) hya) (congrArg (fun T : BufTy => T.Contents Val) hyb)
      (fun u => (fun i => heA ▸ shapeCast ya.ty.shape u hnA i : ya.ty.Contents Val))
      (fun v => (fun i => heB ▸ shapeCast yb.ty.shape v hnB i : yb.ty.Contents Val)) h _

open Lean Elab Tactic Meta in
/-- One corresponding pair of operations off the two lines. The kind of the first line's next operation (read off its
    builder) says which step applies; each buffer's type is evaluated once, in the first line's signature, and stated
    as a literal, so that every later comparison stays inside one signature. -/
elab "line_step" : tactic => withMainContext do
  let g ← getMainGoal
  let ty ← instantiateMVars (← g.getType)
  let args := ty.getAppArgs
  unless args.size == 9 do throwError "line_step: the goal is not a simulation of two lines"
  let lA ← whnfD args[6]!
  let some (_, op, _) := lA.app3? ``List.cons | throwError "line_step: the first line is empty"
  let op ← whnfR op
  let some n := op.getAppFn.constName? | throwError "line_step: the operation is not a builder's"
  -- the operation's buffers, in the builder's order, and each one's literal type
  let mut tys : Array Term := #[]
  for a in op.getAppArgs do
    let t ← whnfR (← inferType a)
    if t.isAppOf ``Idealize.ShloMosaic.Ref then
      let lit ← whnf (← mkAppM ``Idealize.ShloMosaic.Ref.ty #[a])
      tys := tys.push (← Term.exprToSyntax lit)
  match n.getString!, tys with
  | "nullary", #[ty] => evalTactic (← `(tactic|
      refine Sim.cons (step_nullary_t $ty (by rfl) (by rfl) (by decide) (by rfl)) ?_))
  | "unary", #[tx, ty] => evalTactic (← `(tactic|
      refine Sim.cons (step_unary_t $tx $ty (by rfl) (by rfl) (by rfl) (by rfl) (by decide) (by decide) (fun _ => by rfl)) ?_))
  | "reshape", #[tx, ty] => evalTactic (← `(tactic|
      refine Sim.cons (step_reshape_t $tx $ty (by rfl) (by rfl) (by rfl) (by rfl) (by decide) (by decide) (fun _ => by rfl)) ?_))
  | "binary", #[ta, tb, ty] => evalTactic (← `(tactic|
      refine Sim.cons (step_binary_t $ta $tb $ty (by rfl) (by rfl) (by rfl) (by rfl) (by rfl) (by rfl)
        (by decide) (by decide) (by decide) (fun _ _ => by rfl)) ?_))
  | "ternary", #[tc, ta, tb, ty] => evalTactic (← `(tactic|
      refine Sim.cons (step_ternary_t $tc $ta $tb $ty (by rfl) (by rfl) (by rfl) (by rfl) (by rfl) (by rfl) (by rfl) (by rfl)
        (by decide) (by decide) (by decide) (by decide) (fun _ _ _ => by rfl)) ?_))
  | s, _ => throwError "line_step: no step for the builder {s} with {tys.size} buffers"

open Lean Elab Tactic Meta in
/-- Drop the pairs that are no longer read: `line_keep i j … last n` keeps, of the current list of pairs (most recently
    written first), the positions `i j …` and the last `n` (`Sim.weaken`, the inclusion decided). -/
elab "line_keep" ks:num* "last" n:num : tactic => withMainContext do
  let g ← getMainGoal
  let ty ← instantiateMVars (← g.getType)
  let args := ty.getAppArgs
  unless args.size == 9 do throwError "line_keep: the goal is not a simulation of two lines"
  let mut elems : Array Expr := #[]
  let mut cur ← whnfD args[5]!
  let mut elemTy : Option Expr := none
  repeat
    match cur.app3? ``List.cons with
    | some (α, a, t) =>
      elemTy := some α
      elems := elems.push a
      cur ← whnfD t
    | none => break
  let some α := elemTy | throwError "line_keep: no pairs"
  let tail := n.getNat
  unless tail ≤ elems.size do throwError "line_keep: fewer than {tail} pairs"
  let mut kept : Array Expr := #[]
  for k in ks do
    let i := k.getNat
    unless i < elems.size - tail do throwError "line_keep: position {i} is in the kept tail or out of range"
    kept := kept.push elems[i]!
  kept := kept ++ elems.extract (elems.size - tail) elems.size
  let lit ← mkListLit α kept.toList
  let stx ← Term.exprToSyntax lit
  evalTactic (← `(tactic| refine Sim.weaken (ρ₁ := $stx) (by decide) ?_))

end Cert.Lib.LineSimulation

end
-- ==== Proof.LibLineNary.lean ====
import proofs.«131294_j75445395522211_2_alg».proof.Proof.LibLineSteps

/-! # A step for two operations of three operands given as a family

A concatenation of three blocks reads its operands as a family indexed by `Fin 3`, each at its own tensor type. Two such
operations on paired operands, applying the same function, write a pair like any other corresponding operations: the
family of the second line's operands is the first line's, member by member, carried across the pairs. -/

noncomputable section

namespace Cert.Lib.LineSimulation

open Idealize.ShloMosaic Idealize.ShloMosaic.TcCoe Idealize.SL.Sem Idealize.ShloMosaic.StableHlo

variable {τA τB : Topo} {sigA sigB : RefSig} {Val : EltTy → Type}

/-- The first line's family of three contents as the second line's, member by member. -/
def fam3 {x0a x1a x2a : Ref sigA .tc} {x0b x1b x2b : Ref sigB .tc}
    (h0 : x0a.ty = x0b.ty) (h1 : x1a.ty = x1b.ty) (h2 : x2a.ty = x2b.ty)
    (u : (k : Fin 3) → (![x0a, x1a, x2a] k).ty.Contents Val) : (k : Fin 3) → (![x0b, x1b, x2b] k).ty.Contents Val
  | ⟨0, _⟩ => _root_.cast (congrArg (fun T : BufTy => T.Contents Val) h0) (u 0)
  | ⟨1, _⟩ => _root_.cast (congrArg (fun T : BufTy => T.Contents Val) h1) (u 1)
  | ⟨2, _⟩ => _root_.cast (congrArg (fun T : BufTy => T.Contents Val) h2) (u 2)

/-- Two operations of three paired operands that apply the same function write a pair. -/
theorem step_nary3 {ρ : List (Pair sigA sigB)} {x0a x1a x2a ya : Ref sigA .tc} {x0b x1b x2b yb : Ref sigB .tc}
    (h0 : x0a.ty = x0b.ty) (h1 : x1a.ty = x1b.ty) (h2 : x2a.ty = x2b.ty) (hy : ya.ty = yb.ty)
    {fA : ((k : Fin 3) → (![x0a, x1a, x2a] k).ty.Contents Val) → ya.ty.Contents Val}
    {fB : ((k : Fin 3) → (![x0b, x1b, x2b] k).ty.Contents Val) → yb.ty.Contents Val} {hxsA hyA hxsB hyB}
    (hx0 : (⟨x0a, x0b, h0⟩ : Pair sigA sigB) ∈ ρ) (hx1 : (⟨x1a, x1b, h1⟩ : Pair sigA sigB) ∈ ρ)
    (hx2 : (⟨x2a, x2b, h2⟩ : Pair sigA sigB) ∈ ρ) (hfresh : ∀ p ∈ ρ, p.a ≠ ya ∧ p.b ≠ yb)
    (hf : ∀ u, _root_.cast (congrArg (fun T : BufTy => T.Contents Val) hy) (fA u) = fB (fam3 h0 h1 h2 u)) :
    Step ρ (nary ![x0a, x1a, x2a] ya fA hxsA hyA : HloOp τA sigA Val) (nary ![x0b, x1b, x2b] yb fB hxsB hyB : HloOp τB sigB Val)
      ⟨ya, yb, hy⟩ :=
  step_of (y := ⟨ya, yb, hy⟩) rfl rfl hfresh fun WA WB h => by
    rw [nary_result, nary_result]
    refine (hf _).trans (congrArg fB (funext fun k => ?_))
    match k with
    | ⟨0, _⟩ => exact h _ hx0
    | ⟨1, _⟩ => exact h _ hx1
    | ⟨2, _⟩ => exact h _ hx2

/-- One corresponding pair of three-operand operations off the two lines. -/
macro "line_nary3" : tactic =>
  `(tactic| refine Sim.cons (step_nary3 (by rfl) (by rfl) (by rfl) (by rfl) (by decide) (by decide) (by decide) (by decide)
      (fun _ => by rfl)) ?_)

end Cert.Lib.LineSimulation

end
-- ==== Proof.SimPairs.lean ====
import proofs.«131294_j75445395522211_2_alg».proof.Proof.Gen.KernelIdeal.Launch
import proofs.«131294_j75445395522211_2_alg».proof.Proof.ReferenceOps
import proofs.«131294_j75445395522211_2_alg».proof.Proof.LibLineNary
import Idealize.ShloMosaic.PureOps.Ideal

set_option maxRecDepth 16384

/-! # The buffers the two programs share

The kernel's program and the reference run the same host operations on the same arguments, except where the kernel
calls its pipelined region: up to the occupancy volume the two texts correspond line by line, then the reference computes
the updated mask by six host operations where the kernel reshapes, launches and tests, and from there on they correspond
line by line again. The lists below name the pairs of buffers (one of each program, of one tensor type) that hold the same
contents at the three seams: the arguments; the values still read after the first stretch; the seven results. -/

noncomputable section

namespace Cert.Hand.Sim

open Idealize.ShloMosaic Idealize.ShloMosaic.TcCoe Idealize.SL.Sem Idealize.ShloMosaic.StableHlo
open Cert.Lib.LineSimulation

abbrev KS := Cert.KernelIdeal.sig
abbrev RS := Cert.ReferenceIdeal.sig

/-- The argument arrays, paired. -/
abbrev ρargs : List (Pair KS RS) :=
  [⟨Cert.KernelIdeal.main_arg0, Cert.ReferenceIdeal.main_arg0, rfl⟩, ⟨Cert.KernelIdeal.main_arg1, Cert.ReferenceIdeal.main_arg1, rfl⟩,
   ⟨Cert.KernelIdeal.main_arg2, Cert.ReferenceIdeal.main_arg2, rfl⟩, ⟨Cert.KernelIdeal.main_arg3, Cert.ReferenceIdeal.main_arg3, rfl⟩,
   ⟨Cert.KernelIdeal.main_arg4, Cert.ReferenceIdeal.main_arg4, rfl⟩, ⟨Cert.KernelIdeal.main_arg5, Cert.ReferenceIdeal.main_arg5, rfl⟩,
   ⟨Cert.KernelIdeal.main_arg6, Cert.ReferenceIdeal.main_arg6, rfl⟩, ⟨Cert.KernelIdeal.main_arg7, Cert.ReferenceIdeal.main_arg7, rfl⟩,
   ⟨Cert.KernelIdeal.main_arg8, Cert.ReferenceIdeal.main_arg8, rfl⟩, ⟨Cert.KernelIdeal.main_arg9, Cert.ReferenceIdeal.main_arg9, rfl⟩,
   ⟨Cert.KernelIdeal.main_arg10, Cert.ReferenceIdeal.main_arg10, rfl⟩]

/-- What is still read once the occupancy volume is built: the occupancy volume, the current and the global feature
    volumes, the visibility bits, the in-bounds bits, and the arguments. -/
abbrev ρseam : List (Pair KS RS) :=
  ⟨Cert.KernelIdeal.main_v152, Cert.ReferenceIdeal.main_v152, rfl⟩ :: ⟨Cert.KernelIdeal.main_v122, Cert.ReferenceIdeal.main_v122, rfl⟩ ::
  ⟨Cert.KernelIdeal.main_v95, Cert.ReferenceIdeal.main_v95, rfl⟩ :: ⟨Cert.KernelIdeal.main_v66, Cert.ReferenceIdeal.main_v66, rfl⟩ ::
  ⟨Cert.KernelIdeal.main_v8, Cert.ReferenceIdeal.main_v8, rfl⟩ :: ρargs

/-- The same with the updated mask: the kernel's buffer `main_v160` beside the reference's `main_v156`. -/
abbrev ρmask : List (Pair KS RS) :=
  ⟨Cert.KernelIdeal.main_v160, Cert.ReferenceIdeal.main_v156, rfl⟩ :: ρseam

/-- The seven results, in the order the two programs return them. -/
abbrev ρres : List (Pair KS RS) :=
  [⟨Cert.KernelIdeal.main_v160, Cert.ReferenceIdeal.main_v156, rfl⟩, ⟨Cert.KernelIdeal.main_v122, Cert.ReferenceIdeal.main_v122, rfl⟩,
   ⟨Cert.KernelIdeal.main_v95, Cert.ReferenceIdeal.main_v95, rfl⟩, ⟨Cert.KernelIdeal.main_v227, Cert.ReferenceIdeal.main_v223, rfl⟩,
   ⟨Cert.KernelIdeal.main_v66, Cert.ReferenceIdeal.main_v66, rfl⟩, ⟨Cert.KernelIdeal.main_v171, Cert.ReferenceIdeal.main_v167, rfl⟩,
   ⟨Cert.KernelIdeal.main_v162, Cert.ReferenceIdeal.main_v158, rfl⟩]

/-- The kernel's host operations before its region, as one line. -/
abbrev kPre : List (HloOp Cert.KernelIdeal.τ KS (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7, Cert.KernelIdeal.Gen.hostOps0_8]

/-- The kernel's host operations after its region, as one line. -/
abbrev kTail : List (HloOp Cert.KernelIdeal.τ KS (Elt Ideal)) :=
  List.flatten [Cert.KernelIdeal.Gen.hostOps1, Cert.KernelIdeal.Gen.hostOps1_1, Cert.KernelIdeal.Gen.hostOps1_2]

/-- The reference's operations. -/
abbrev rOps : List (HloOp Cert.ReferenceIdeal.τ RS (Elt Ideal)) := Cert.ReferenceIdeal.ValueP.ops

end Cert.Hand.Sim

end
-- ==== Proof.KernelValue.lean ====
/- The kernel's result array read off the run, and the whole of @main as one line of host operations.

   The region's grid has 36 points; at point `t` the three windows stage rows `256·t … 256·t + 255` of their arrays
   (all of the other axes). The body's stored value at a voxel of its block is the mask word of the voxel's 24 channels
   and its occupancy word, so what point `t` writes back is block `t` of ONE function of the two operand arrays, the
   mask word voxel by voxel; the 36 blocks tile the result array, which therefore ends holding that function. The two
   operand arrays are inputs and end as the region found them. Hence the region acts on the buffers exactly as a single
   host operation "result := mask of the two operands" would, and @main computes what the line
   (host lines before) ++ that operation :: (host lines after) computes. -/
import proofs.«131294_j75445395522211_2_alg».proof.Proof.KernelIdealFrame
import proofs.«131294_j75445395522211_2_alg».proof.Proof.KernelPayload
import proofs.«131294_j75445395522211_2_alg».proof.Proof.SimPairs
import proofs.«131294_j75445395522211_2_alg».proof.Proof.LibLineSimulation
import Idealize.ShloMosaic.Lib.ValueIdx
import Idealize.ShloMosaic.Lib.Pipeline.Value

set_option maxRecDepth 16384

noncomputable section

namespace Cert.KernelIdeal.HandValue

open Cert.KernelIdeal Cert.KernelIdeal.Gen Idealize.ShloMosaic Idealize.ShloMosaic.TcCoe Idealize.SL.Sem
open Idealize.ShloMosaic.ValueIdx
open Idealize.ShloMosaic.Pipeline (Dat)
open Cert.Hand.Mask (maskArr maskWord)
open Cert.Lib.LineSimulation (after_append')

variable (m : (ℓ : Loc nD τ sig) → Buf (Elt Ideal) ℓ)

/-! ## Where a block sits in its array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three index maps over the grid: at point `t` each window's block index is `t` along the rows and 0 along every
    other axis. -/
theorem block_index : ∀ t : Fin cfg0.N,
    win0_0.index t (0 : Fin 3) = win0_2.index t (0 : Fin 2)
    ∧ win0_0.index t (1 : Fin 3) = 0
    ∧ win0_0.index t (2 : Fin 3) = 0
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- The result array as one function of the two operand arrays as the region finds them. -/
abbrev maskOf (c : Dev nD) : S9216x96.Idx → BitVec 32 :=
  maskArr (A := 9216) (B := 96) (C := 24) (Hand.V m c main_v153) (Hand.V m c main_v155)

/-! ## What a point writes back -/

/-- Over ANY contents `A0`, `A1` of the two operand arrays: the body's value at voxel `(p, q)` of its block at point `t`,
    computed from the operands' blocks at `t`, is the mask word of `A0`, `A1` at the place of the result array where voxel
    `(p, q)` of the result's block at `t` sits. Voxel `(p, q)` of either operand's block at `t` is voxel `(256·t + p, q)`
    of the operand (all 24 channels of it, for the first), and so is the result's. -/
theorem block_value (A0 : S9216x96x24.Idx → EReal) (A1 : S9216x96.Idx → BitVec 32) (t : Fin cfg0.N) (p : Fin 256) (q : Fin 96) :
    k0_pay1 (F := Ideal) (((cfg0.win 0).blk t).view.read (Elt Ideal) A0) (((cfg0.win 1).blk t).view.read (Elt Ideal) A1) (ix2 p q)
      = maskArr (A := 9216) (B := 96) (C := 24) A0 A1 (((cfg0.win 2).blk t).view.emb (ix2 p q)) := by
  obtain ⟨e0, e1, e2, e3, e4, e5, e6⟩ := block_index t
  refine (pay_apply _ _ p q).trans ?_
  show maskWord (fun k : Fin 24 => A0 (((cfg0.win 0).blk t).view.emb (ix3 p q k))) (A1 (((cfg0.win 1).blk t).view.emb (ix2 p q)))
    = maskWord (fun k : Fin 24 => A0 (ix3 ((((cfg0.win 2).blk t).view.emb (ix2 p q)) 0) ((((cfg0.win 2).blk t).view.emb (ix2 p q)) 1) k)) (A1 (((cfg0.win 2).blk t).view.emb (ix2 p q)))
  have h0 : ∀ k : Fin 24, ((cfg0.win 0).blk t).view.emb (ix3 p q k) = ix3 ((((cfg0.win 2).blk t).view.emb (ix2 p q)) 0) ((((cfg0.win 2).blk t).view.emb (ix2 p q)) 1) k := fun k =>
    funext fun a => Fin.ext (by
      match a with
      | ⟨0, _⟩ => show win0_0.index t (0 : Fin 3) * 256 + 1 * p.val = win0_2.index t (0 : Fin 2) * 256 + 1 * p.val; omega
      | ⟨1, _⟩ => show win0_0.index t (1 : Fin 3) * 96 + 1 * q.val = win0_2.index t (1 : Fin 2) * 96 + 1 * q.val; omega
      | ⟨2, _⟩ => show win0_0.index t (2 : Fin 3) * 24 + 1 * k.val = k.val; omega)
  have h1 : ((cfg0.win 1).blk t).view.emb (ix2 p q) = (((cfg0.win 2).blk t).view.emb (ix2 p q)) :=
    funext fun a => Fin.ext (by
      match a with
      | ⟨0, _⟩ => show win0_1.index t (0 : Fin 2) * 256 + 1 * p.val = win0_2.index t (0 : Fin 2) * 256 + 1 * p.val; omega
      | ⟨1, _⟩ => show win0_1.index t (1 : Fin 2) * 96 + 1 * q.val = win0_2.index t (1 : Fin 2) * 96 + 1 * q.val; omega)
  exact congrArg₂ (maskWord (n := 24)) (funext fun k => congrArg A0 (h0 k)) (congrArg A1 h1)

/-- Point `t` writes back block `t` of `maskOf`. -/
theorem written_block (c : Dev nD) (t : Fin cfg0.N) :
    (Hand.dats m 0 c).flushed 2 t = ((cfg0.win 2).blk t).view.read (Elt Ideal) (maskOf m c) := by
  show (cfg0.win 2).cut (grid0.coords t) ((Hand.dats m 0 c).after 2 t) = _
  rw [Hand.after0_2]
  unfold Hand.out0_2
  rw [View.canon_unit_zero zeros2]
  simp only [View.ld_unit_zero (S := S256x96x24) zeros3, View.ld_unit_zero (S := S256x96) zeros2]
  funext y
  obtain ⟨p, q, rfl⟩ : ∃ (p : Fin 256) (q : Fin 96), y = ix2 p q := ⟨y 0, y 1, eq_ix2 y⟩
  show k0_pay1 (F := Ideal) (Hand.iblk m c 0 t) (Hand.iblk m c 1 t) (ix2 p q)
    = maskArr (A := 9216) (B := 96) (C := 24) (Hand.V m c main_v153) (Hand.V m c main_v155) (((cfg0.win 2).blk t).view.emb (ix2 p q))
  unfold Hand.iblk
  exact block_value (Hand.V m c (Pipeline.arrRef spec0 0)) (Hand.V m c (Pipeline.arrRef spec0 1)) t p q

/-! ## The blocks tile the result array -/

/-- A voxel is in point `t`'s block exactly when each coordinate is in the block's range on its axis. -/
theorem mem_block (t : Fin cfg0.N) (i : S9216x96.Idx) :
    i ∈ ((cfg0.win 2).blk t).view.set ↔ ∀ a : Fin 2, win0_2.index t a * S256x96.size a ≤ (i a).val ∧ (i a).val < win0_2.index t a * S256x96.size a + S256x96.size a := by
  show i ∈ ((View.whole main_v156).slice (win0_2.rect t)).set ↔ _
  rw [View.set_slice_whole, Rect.mem_set_unit]
  exact Iff.rfl

/-- Every voxel `(r, q)` of the result array is in the block of point `r / 256`, which is written back. -/
theorem covered (i : S9216x96.Idx) : ∃ t : Fin cfg0.N, (cfg0.win 2).flush t = true ∧ i ∈ ((cfg0.win 2).blk t).view.set := by
  have hi0 : (i 0).val < 9216 := (i 0).isLt
  have hi1 : (i 1).val < 96 := (i 1).isLt
  obtain ⟨t, ht⟩ : ∃ t : Fin cfg0.N, t.val = (i 0).val / 256 :=
    ⟨⟨(i 0).val / 256, lt_of_lt_of_eq (by omega : (i 0).val / 256 < 36) N_0.symm⟩, rfl⟩
  obtain ⟨-, -, -, -, -, e5, e6⟩ := block_index t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 96 ≤ (i 1).val ∧ (i 1).val < win0_2.index t (1 : Fin 2) * 96 + 96; omega

/-! ## The arrays after the region -/

/-- The result array ends holding the mask of the two operands. -/
theorem final2 (c : Dev nD) : (Hand.dats m 0 c).arrAt 2 cfg0.N
    = maskArr (A := 9216) (B := 96) (C := 24) (Hand.V m c main_v153) (Hand.V m c main_v155) :=
  (Hand.dats m 0 c).arrAt_eq_of_cover 2 (maskOf m c) (fun t _ => written_block m c t) covered

/-- An operand array is staged and never written back: it ends as the region found it. -/
theorem arr_in0 (c : Dev nD) : (Hand.dats m 0 c).arrAt 0 cfg0.N = Hand.V m c main_v153 :=
  ((Hand.dats m 0 c).arrAt_in 0 rfl _).trans (Hand.A_eq m c 0)
theorem arr_in1 (c : Dev nD) : (Hand.dats m 0 c).arrAt 1 cfg0.N = Hand.V m c main_v155 :=
  ((Hand.dats m 0 c).arrAt_in 1 rfl _).trans (Hand.A_eq m c 1)

/-! ## The region as one host operation -/

/-- "Result := mask of the two operands", as a host operation on the region's three arrays. -/
def regionOp : HloOp τ sig (Elt Ideal) :=
  StableHlo.binary main_v153 main_v155 main_v156
    ((fun g o => maskArr (A := 9216) (B := 96) (C := 24) g o) :
      (⟨S9216x96x24, .f32⟩ : BufTy).Contents (Elt Ideal) → (⟨S9216x96, .i32⟩ : BufTy).Contents (Elt Ideal) → (⟨S9216x96, .i32⟩ : BufTy).Contents (Elt Ideal))

/-- It writes the result array only. -/
theorem regionOp_writes : regionOp.writes = {Proc.devRef (τ := τ) .tc main_v156} := rfl

/-- And leaves there the mask of what the operand arrays hold. -/
theorem regionOp_result (W : Valuation τ sig (Elt Ideal)) :
    regionOp.result W (Proc.devRef .tc main_v156)
      = maskArr (A := 9216) (B := 96) (C := 24) (W (Proc.devRef .tc main_v153)) (W (Proc.devRef .tc main_v155)) := by
  unfold regionOp
  exact StableHlo.binary_result main_v153 main_v155 main_v156 _ _ _ _ W

/-- The buffers as the region leaves them — its three arrays at what the run computes, every other buffer as it was —
    are the buffers as that one operation leaves them. -/
theorem region_eq (c : Dev nD) :
    Pipeline.withArrays spec0 c (Hand.V0 m c) (fun w => (Hand.dats m 0 c).arrAt w cfg0.N) = regionOp.result (Hand.V0 m c) := by
  funext b
  by_cases h : ∃ w, Proc.devRef .tc (Pipeline.arrRef spec0 w) = b
  · obtain ⟨w, rfl⟩ := h
    rw [Pipeline.withArrays_arr spec0 launch0.win.arr_inj]
    match w with
    | ⟨0, _⟩ =>
      show (Hand.dats m 0 c).arrAt 0 cfg0.N = regionOp.result (Hand.V0 m c) (Proc.devRef .tc main_v153)
      rw [HloOp.result_of_not_mem _ _ (by rw [regionOp_writes, Finset.mem_singleton]; exact StableHlo.devRef_ne_of_ne (by decide))]
      exact arr_in0 m c
    | ⟨1, _⟩ =>
      show (Hand.dats m 0 c).arrAt 1 cfg0.N = regionOp.result (Hand.V0 m c) (Proc.devRef .tc main_v155)
      rw [HloOp.result_of_not_mem _ _ (by rw [regionOp_writes, Finset.mem_singleton]; exact StableHlo.devRef_ne_of_ne (by decide))]
      exact arr_in1 m c
    | ⟨2, _⟩ =>
      show (Hand.dats m 0 c).arrAt 2 cfg0.N = regionOp.result (Hand.V0 m c) (Proc.devRef .tc main_v156)
      rw [regionOp_result]
      exact final2 m c
  · unfold Pipeline.withArrays
    rw [dif_neg h]
    exact (HloOp.result_of_not_mem _ _ (by
      rw [regionOp_writes, Finset.mem_singleton]
      exact fun e => h ⟨2, e.symm⟩)).symm

/-! ## @main as one line -/

/-- Every buffer after @main holds what the line "host lines before the region, the one operation, host lines after"
    leaves there from the launch memory. -/
theorem tail_eq (c : Dev nD) (b : Ref sig .tc) :
    Pipeline.afterTail₀ cfgs (Hand.dats m) 0 (Hand.V0 m) [hostOps1, hostOps1_1, hostOps1_2] c b
      = StableHlo.after (Cert.Hand.Sim.kPre ++ regionOp :: Cert.Hand.Sim.kTail) (fun b => m (c, b)) (Proc.devRef .tc b) := by
  show StableHlo.after Cert.Hand.Sim.kTail (Pipeline.withArrays spec0 c (Hand.V0 m c) fun w => (Hand.dats m 0 c).arrAt w cfg0.N) (Proc.devRef .tc b) = _
  rw [region_eq, after_append', StableHlo.after_cons]

end Cert.KernelIdeal.HandValue

end
-- ==== Proof.ReferenceFrame.lean ====
/- The frame of the reference program, and its run as a fold.

   The reference's @main is one straight line of 304 host operations and no region. Each operation writes one buffer, its
   own result, and allocates nothing; none of the results is an argument array. So every weakly fair execution of @main
   terminates with each buffer at the fold of the operations over the launch memory, and an argument array — written by
   no operation — ends as launched. -/
import proofs.«131294_j75445395522211_2_alg».proof.Proof.ReferenceOps
import proofs.«131294_j75445395522211_2_alg».proof.Proof.LibWritten
import Idealize.ShloMosaic.Lib.StableHlo.Run

set_option maxRecDepth 65536

noncomputable section

namespace Cert.ReferenceIdeal.Hand

open Cert.ReferenceIdeal Cert.ReferenceIdeal.Gen
open Idealize.ShloMosaic Idealize.ShloMosaic.TcCoe Idealize.SL.Sem
open Cert.Lib.Written

variable {F : FTy → Type} [FloatOps F]

/-! ## What the line writes -/

/-- The result buffers of the 304 operations, in the operations' order. -/
abbrev Wops : List (Ref sig .tc) :=
  [
    main_v0, main_v1, main_v2, main_c, main_v3, main_v4, main_c_0, main_v5, main_v6, main_v7,
    main_c_1, main_v8, main_v9, main_c_2, main_call0_v0, main_call0_v1, main_call0_v2, main_v10, main_c_3, main_v11,
    main_v12, main_v13, main_v14, main_v15, main_v16, main_v17, main_c_4, main_v18, main_v19, main_c_5,
    main_v20, main_v21, main_v22, main_c_6, main_v23, main_v24, main_c_7, main_v25, main_v26, main_v27,
    main_c_8, main_v28, main_v29, main_c_9, main_v30, main_v31, main_v32, main_v33, main_v34, main_v35,
    main_v36, main_c_10, main_v37, main_v38, main_c_11, main_c_12, main_call1_v0, main_call1_v1, main_call1_v2, main_call1_v3,
    main_call1_v4, main_v39, main_v40, main_v41, main_v42, main_v43, main_v44, main_v45, main_c_13, main_v46,
    main_v47, main_c_14, main_v48, main_v49, main_v50, main_c_15, main_v51, main_v52, main_c_16, main_v53,
    main_v54, main_v55, main_c_17, main_v56, main_v57, main_c_18, main_v58, main_v59, main_v60, main_v61,
    main_v62, main_v63, main_v64, main_v65, main_v66, main_v67, main_c_19, main_call2_v0, main_call2_v1, main_call2_v2,
    main_v68, main_cst, main_v69, main_v70, main_v71, main_v72, main_v73, main_v74, main_v75, main_c_20,
    main_v76, main_v77, main_c_21, main_v78, main_v79, main_v80, main_c_22, main_v81, main_v82, main_c_23,
    main_v83, main_v84, main_v85, main_c_24, main_v86, main_v87, main_c_25, main_v88, main_v89, main_v90,
    main_v91, main_v92, main_v93, main_v94, main_v95, main_cst_26, main_v96, main_v97, main_v98, main_v99,
    main_v100, main_v101, main_v102, main_c_27, main_v103, main_v104, main_c_28, main_v105, main_v106, main_v107,
    main_c_29, main_v108, main_v109, main_c_30, main_v110, main_v111, main_v112, main_c_31, main_v113, main_v114,
    main_c_32, main_v115, main_v116, main_v117, main_v118, main_v119, main_v120, main_v121, main_v122, main_v123,
    main_c_33, main_call3_v0, main_call3_v1, main_call3_v2, main_v124, main_c_34, main_v125, main_v126, main_v127, main_v128,
    main_v129, main_v130, main_v131, main_c_35, main_v132, main_v133, main_c_36, main_v134, main_v135, main_v136,
    main_c_37, main_v137, main_v138, main_c_38, main_v139, main_v140, main_v141, main_c_39, main_v142, main_v143,
    main_c_40, main_v144, main_v145, main_v146, main_v147, main_v148, main_v149, main_v150, main_c_41, main_v151,
    main_v152, main_cst_42, main_v153, main_v154, main_c_43, main_v155, main_v156, main_v157, main_v158, main_v159,
    main_v160, main_v161, main_c_44, main_v162, main_v163, main_c_45, main_v164, main_v165, main_v166, main_c_46,
    main_v167, main_v168, main_c_47, main_call4_v0, main_call4_v1, main_call4_v2, main_v169, main_cst_48, main_v170, main_v171,
    main_v172, main_v173, main_v174, main_v175, main_v176, main_c_49, main_v177, main_v178, main_c_50, main_v179,
    main_v180, main_v181, main_c_51, main_v182, main_v183, main_c_52, main_v184, main_v185, main_v186, main_c_53,
    main_v187, main_v188, main_c_54, main_v189, main_v190, main_v191, main_v192, main_v193, main_v194, main_v195,
    main_v196, main_v197, main_v198, main_v199, main_v200, main_v201, main_v202, main_v203, main_c_55, main_v204,
    main_v205, main_c_56, main_v206, main_v207, main_v208, main_c_57, main_v209, main_v210, main_c_58, main_v211,
    main_v212, main_v213, main_c_59, main_v214, main_v215, main_c_60, main_v216, main_v217, main_v218, main_v219,
    main_v220, main_v221, main_v222, main_v223 ]

/-- Operation by operation: it writes exactly its result buffer, and allocates nothing. -/
abbrev Line (ops : List (HloOp τ sig (Elt F))) (W : List (Ref sig .tc)) : Prop :=
  List.Forall₂ (fun op y => op.writes = {Proc.devRef (τ := τ) .tc y} ∧ op.fresh = ∅) ops W

set_option maxHeartbeats 40000000 in
theorem ops_line : Line (ValueP.ops : List (HloOp τ sig (Elt F))) Wops :=
  .cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.cons ⟨rfl, rfl⟩ (.nil))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))))

/-- The k-th operation writes exactly the k-th listed buffer. -/
theorem ops_pairs : Pairs (ValueP.ops : List (HloOp τ sig (Elt F))) Wops :=
  ops_line.imp fun _ _ h => h.1

/-- A line of such operations allocates nothing. -/
theorem fresh_of_line {ops : List (HloOp τ sig (Elt F))} {W : List (Ref sig .tc)} (h : Line ops W) :
    ∀ op ∈ ops, op.fresh = ∅ := by
  induction h with
  | nil => intro op hop; exact nomatch hop
  | cons hab _ ih =>
    intro op hop
    rcases List.mem_cons.mp hop with rfl | hop
    · exact hab.2
    · exact ih op hop

theorem ops_fresh : ∀ op ∈ (ValueP.ops : List (HloOp τ sig (Elt F))), op.fresh = ∅ := fresh_of_line ops_line

/-! ## The run, as a fold -/

variable (m : (ℓ : Loc nD τ sig) → Buf (Elt F) ℓ) (ρ : Dev nD → PrngReg)

/-- From any memory with zero counters every weakly fair execution of @main terminates, and every buffer ends at the
    fold of the 304 operations over its core's launch contents. -/
theorem run_fold : θ_run defs (onTc (τ := τ) (main (F := F))) ⟨m, fun _ => 0, ρ⟩ fun r =>
    ∀ (d : Dev nD) (b : Ref sig .tc), r.2.mem ((d.tc : Thread nD τ).loc b) = StableHlo.after ValueP.ops (StableHlo.launchContents m d) (Proc.devRef .tc b) :=
  StableHlo.run_seq ValueP.scopedRefs_eq ValueP.scopedSems_eq defs main (fun _ => ValueP.ops) ValueP.main_eq (fun _ => ValueP.ops_sub) m ρ
    (fun _ => ops_fresh)

/-! ## The arguments are kept -/

/-- A buffer that is no operation's result holds after the line what it held before. -/
theorem kept_of (M : Valuation τ sig (Elt F)) {r : Ref sig .tc} (hr : r ∉ Wops) :
    StableHlo.after ValueP.ops M (Proc.devRef .tc r) = M (Proc.devRef .tc r) :=
  Pairs.keep ops_pairs hr M

theorem kept_main_arg0 (M : Valuation τ sig (Elt F)) : StableHlo.after ValueP.ops M (Proc.devRef .tc main_arg0) = M (Proc.devRef .tc main_arg0) := kept_of M (by decide)
theorem kept_main_arg1 (M : Valuation τ sig (Elt F)) : StableHlo.after ValueP.ops M (Proc.devRef .tc main_arg1) = M (Proc.devRef .tc main_arg1) := kept_of M (by decide)
theorem kept_main_arg2 (M : Valuation τ sig (Elt F)) : StableHlo.after ValueP.ops M (Proc.devRef .tc main_arg2) = M (Proc.devRef .tc main_arg2) := kept_of M (by decide)
theorem kept_main_arg3 (M : Valuation τ sig (Elt F)) : StableHlo.after ValueP.ops M (Proc.devRef .tc main_arg3) = M (Proc.devRef .tc main_arg3) := kept_of M (by decide)
theorem kept_main_arg4 (M : Valuation τ sig (Elt F)) : StableHlo.after ValueP.ops M (Proc.devRef .tc main_arg4) = M (Proc.devRef .tc main_arg4) := kept_of M (by decide)
theorem kept_main_arg5 (M : Valuation τ sig (Elt F)) : StableHlo.after ValueP.ops M (Proc.devRef .tc main_arg5) = M (Proc.devRef .tc main_arg5) := kept_of M (by decide)
theorem kept_main_arg6 (M : Valuation τ sig (Elt F)) : StableHlo.after ValueP.ops M (Proc.devRef .tc main_arg6) = M (Proc.devRef .tc main_arg6) := kept_of M (by decide)
theorem kept_main_arg7 (M : Valuation τ sig (Elt F)) : StableHlo.after ValueP.ops M (Proc.devRef .tc main_arg7) = M (Proc.devRef .tc main_arg7) := kept_of M (by decide)
theorem kept_main_arg8 (M : Valuation τ sig (Elt F)) : StableHlo.after ValueP.ops M (Proc.devRef .tc main_arg8) = M (Proc.devRef .tc main_arg8) := kept_of M (by decide)
theorem kept_main_arg9 (M : Valuation τ sig (Elt F)) : StableHlo.after ValueP.ops M (Proc.devRef .tc main_arg9) = M (Proc.devRef .tc main_arg9) := kept_of M (by decide)
theorem kept_main_arg10 (M : Valuation τ sig (Elt F)) : StableHlo.after ValueP.ops M (Proc.devRef .tc main_arg10) = M (Proc.devRef .tc main_arg10) := kept_of M (by decide)

/-- No argument array is an operation's result: each holds after the line what it held before. -/
theorem kept (M : Valuation τ sig (Elt F)) :
    StableHlo.after ValueP.ops M (Proc.devRef .tc main_arg0) = M (Proc.devRef .tc main_arg0)
    ∧ StableHlo.after ValueP.ops M (Proc.devRef .tc main_arg1) = M (Proc.devRef .tc main_arg1)
    ∧ StableHlo.after ValueP.ops M (Proc.devRef .tc main_arg2) = M (Proc.devRef .tc main_arg2)
    ∧ StableHlo.after ValueP.ops M (Proc.devRef .tc main_arg3) = M (Proc.devRef .tc main_arg3)
    ∧ StableHlo.after ValueP.ops M (Proc.devRef .tc main_arg4) = M (Proc.devRef .tc main_arg4)
    ∧ StableHlo.after ValueP.ops M (Proc.devRef .tc main_arg5) = M (Proc.devRef .tc main_arg5)
    ∧ StableHlo.after ValueP.ops M (Proc.devRef .tc main_arg6) = M (Proc.devRef .tc main_arg6)
    ∧ StableHlo.after ValueP.ops M (Proc.devRef .tc main_arg7) = M (Proc.devRef .tc main_arg7)
    ∧ StableHlo.after ValueP.ops M (Proc.devRef .tc main_arg8) = M (Proc.devRef .tc main_arg8)
    ∧ StableHlo.after ValueP.ops M (Proc.devRef .tc main_arg9) = M (Proc.devRef .tc main_arg9)
    ∧ StableHlo.after ValueP.ops M (Proc.devRef .tc main_arg10) = M (Proc.devRef .tc main_arg10) :=
  ⟨kept_main_arg0 M, kept_main_arg1 M, kept_main_arg2 M, kept_main_arg3 M, kept_main_arg4 M, kept_main_arg5 M, kept_main_arg6 M, kept_main_arg7 M, kept_main_arg8 M, kept_main_arg9 M, kept_main_arg10 M⟩

/-! ## The frame -/

/-- The frame claim at any `F`: @main runs, and each of its eleven argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_arg0).trans (kept_main_arg0 _),
    (h c main_arg1).trans (kept_main_arg1 _),
    (h c main_arg2).trans (kept_main_arg2 _),
    (h c main_arg3).trans (kept_main_arg3 _),
    (h c main_arg4).trans (kept_main_arg4 _),
    (h c main_arg5).trans (kept_main_arg5 _),
    (h c main_arg6).trans (kept_main_arg6 _),
    (h c main_arg7).trans (kept_main_arg7 _),
    (h c main_arg8).trans (kept_main_arg8 _),
    (h c main_arg9).trans (kept_main_arg9 _),
    (h c main_arg10).trans (kept_main_arg10 _)⟩) (run_fold m ρ)

end Cert.ReferenceIdeal.Hand

end
-- ==== Proof.SimPre.lean ====
import proofs.«131294_j75445395522211_2_alg».proof.Proof.SimPairs

set_option maxRecDepth 16384

/-! # Up to the occupancy volume the two programs run the same operations

The first 211 operations of the kernel's program and of the reference — the shift of the global coordinates, the in-bounds
test, the four scatters that build the visibility, global-feature, current-feature and occupancy volumes and the gather
between them — correspond one to one: the same operation on paired buffers into a fresh pair. From arguments that agree,
the buffers still read afterwards agree. -/

noncomputable section

namespace Cert.Hand.Sim

open Idealize.ShloMosaic Idealize.ShloMosaic.TcCoe Idealize.SL.Sem Idealize.ShloMosaic.StableHlo
open Cert.Lib.LineSimulation

set_option maxHeartbeats 400000000 in
theorem simPre : Sim (τA := Cert.KernelIdeal.τ) (τB := Cert.ReferenceIdeal.τ) (Val := Elt Ideal) ρargs
    (kPre.take 211) (rOps.take 211) ρseam := by
  repeat (first | line_step | line_nary3)
  exact Sim.nil (by decide)

end Cert.Hand.Sim

end
-- ==== Proof.MaskVoxel.lean ====
import proofs.«131294_j75445395522211_2_alg».proof.Proof.MaskReads

/-! # The two masks agree on the whole grid

The kernel works on the 96×96×96×24 feature volume viewed as 9216 rows of 96 voxels of 24 channels, and on the occupancy
bits widened to words and viewed as 9216 rows of 96; its result, 9216×96 words, is viewed again as a 96×96×96 grid and
tested against 0. Row r = 96·x + y of the views is the line (x, y) of the grid: all views keep the row-major order. So
at voxel (x, y, z) the kernel's bit is the mask word of the voxel's channels and widened occupancy bit, tested against 0 —
the bit "some channel is non-zero" or-ed with the occupancy bit, which is what the reference's or over the channels gives. -/

noncomputable section

namespace Cert.Hand.Mask

open Idealize.ShloMosaic Idealize.ShloMosaic.ValueIdx

/-- The row of the 9216×96 view that holds the grid's line (x, y). -/
def row (x y : Fin 96) : Fin 9216 := ⟨x.val * 96 + y.val, by have := x.isLt; have := y.isLt; omega⟩

theorem lift_ix4 (h : Shape.Reduces ⟨4, ![96, 96, 96, 24]⟩ [3] ⟨3, ![96, 96, 96]⟩) (x y z : Fin 96) (k : Fin 24) :
    h.lift (ix3 x y z) k = ix4 x y z k := by
  funext d; apply Fin.ext
  match d with
  | ⟨0, _⟩ => rfl
  | ⟨1, _⟩ => rfl
  | ⟨2, _⟩ => rfl
  | ⟨3, _⟩ => rfl

/-- THE TWO MASKS, voxel by voxel: the kernel's (views, mask words, view back, test against 0) and the reference's (the or
    over the channels of "not 0", or-ed with the occupancy bit). -/
theorem voxel_law {u : Shape} (g : (⟨4, ![96, 96, 96, 24]⟩ : Shape).Idx → EReal) (o : (⟨3, ![96, 96, 96]⟩ : Shape).Idx → BitVec 1)
    (hc1 : (⟨4, ![96, 96, 96, 24]⟩ : Shape).ShapeCasts ⟨3, ![9216, 96, 24]⟩)
    (hc2 : (⟨3, ![96, 96, 96]⟩ : Shape).ShapeCasts ⟨2, ![9216, 96]⟩)
    (hc3 : (⟨2, ![9216, 96]⟩ : Shape).ShapeCasts ⟨3, ![96, 96, 96]⟩) (hlt : 1 < 32)
    (z32 : (⟨3, ![96, 96, 96]⟩ : Shape).Idx → BitVec 32) (hz32 : ∀ i, z32 i = 0#32)
    (zf : (⟨4, ![96, 96, 96, 24]⟩ : Shape).Idx → EReal) (hzf : ∀ i, zf i = 0)
    (init : u.Idx → BitVec 1) (hu : 0 < u.numel) (hinit : ∀ i, init i = 0#1)
    (h' : Shape.ReducesTo ⟨4, ![96, 96, 96, 24]⟩ [3] ⟨3, ![96, 96, 96]⟩) :
    cmpi .ne (shapeCast ⟨3, ![96, 96, 96]⟩
        (maskArr (A := 9216) (B := 96) (C := 24) (shapeCast ⟨3, ![9216, 96, 24]⟩ g hc1)
          (shapeCast ⟨2, ![9216, 96]⟩ (extui 32 o hlt) hc2)) hc3) z32
      = ori (Host.reduce IntOp.ori (cmpf (F := Ideal) (φ := .f32) .une g zf) init h' hu) o := by
  have h : Shape.Reduces ⟨4, ![96, 96, 96, 24]⟩ [3] ⟨3, ![96, 96, 96]⟩ := by decide
  funext j
  obtain ⟨x, y, z, rfl⟩ : ∃ (x y z : Fin 96), j = ix3 x y z := ⟨j 0, j 1, j 2, eq_ix3 j⟩
  refine Eq.trans ?_ (hostBit_apply g zf hzf init hu hinit o h' h (lift_ix4 h) x y z).symm
  show IntOp.cmpi .ne (shapeCast ⟨3, ![96, 96, 96]⟩ (maskArr (A := 9216) (B := 96) (C := 24) _ _) hc3 (ix3 x y z)) (z32 (ix3 x y z)) = _
  have e3 := shapeCast_apply
    (maskArr (A := 9216) (B := 96) (C := 24) (shapeCast ⟨3, ![9216, 96, 24]⟩ g hc1) (shapeCast ⟨2, ![9216, 96]⟩ (extui 32 o hlt) hc2))
    hc3 (ix3 x y z) (ix2 (row x y) z) (by
      rw [Shape.rowMajor_val_two, Shape.rowMajor_val_three]
      show (x.val * 96 + y.val) * 96 + z.val = (x.val * 96 + y.val) * 96 + z.val
      rfl)
  rw [e3, hz32]
  have e1 : (fun k : Fin 24 => shapeCast ⟨3, ![9216, 96, 24]⟩ g hc1 (ix3 (row x y) z k)) = fun k => g (ix4 x y z k) :=
    funext fun k => shapeCast_apply g hc1 (ix3 (row x y) z k) (ix4 x y z k) (by
      rw [Shape.rowMajor_val_four, Shape.rowMajor_val_three]
      show ((x.val * 96 + y.val) * 96 + z.val) * 24 + k.val = ((x.val * 96 + y.val) * 96 + z.val) * 24 + k.val
      rfl)
  have e2 : shapeCast ⟨2, ![9216, 96]⟩ (extui 32 o hlt) hc2 (ix2 (row x y) z) = (o (ix3 x y z)).setWidth 32 :=
    shapeCast_apply (extui 32 o hlt) hc2 (ix2 (row x y) z) (ix3 x y z) (by
      rw [Shape.rowMajor_val_three, Shape.rowMajor_val_two]
      show (x.val * 96 + y.val) * 96 + z.val = (x.val * 96 + y.val) * 96 + z.val
      rfl)
  show IntOp.cmpi .ne ((IntOp.ori (anyNZ fun k : Fin 24 => shapeCast ⟨3, ![9216, 96, 24]⟩ g hc1 (ix3 (row x y) z k))
      (IntOp.cmpi .ne (shapeCast ⟨2, ![9216, 96]⟩ (extui 32 o hlt) hc2 (ix2 (row x y) z)) 0#32)).setWidth 32) 0#32 = _
  rw [e1, e2, widen_ne_zero, widen_ne_zero]

end Cert.Hand.Mask

end
-- ==== Proof.SimMid.lean ====
import proofs.«131294_j75445395522211_2_alg».proof.Proof.SimPairs
import proofs.«131294_j75445395522211_2_alg».proof.Proof.MaskVoxel
import proofs.«131294_j75445395522211_2_alg».proof.Proof.LibWritten

set_option maxRecDepth 16384

/-! # Where the two programs differ: the updated mask

Between the occupancy volume and the near set the kernel's program views the global feature volume as 9216×96×24, widens
the occupancy bits to words and views them as 9216×96, runs its region — which, read as a value, is ONE operation: the
mask word voxel by voxel of the two views —, views the result as a 96×96×96 grid again and tests it against 0. The
reference tests every channel against 0, or-s the tests over the channel axis from the bit 0 and or-s the occupancy bits
in. Neither stretch writes a buffer that is read later except its last, and the two last buffers hold the same bits
(`Mask.voxel_law`). -/

noncomputable section

namespace Cert.Hand.Sim

open Idealize.ShloMosaic Idealize.ShloMosaic.TcCoe Idealize.SL.Sem Idealize.ShloMosaic.StableHlo
open Cert.Lib.LineSimulation

/-- The kernel's region as ONE host operation: from the two operand arrays to the result array, the mask words. -/
abbrev regionK : HloOp Cert.KernelIdeal.τ KS (Elt Ideal) :=
  StableHlo.binary Cert.KernelIdeal.main_v153 Cert.KernelIdeal.main_v155 Cert.KernelIdeal.main_v156
    (fun g o => Cert.Hand.Mask.maskArr (A := 9216) (B := 96) (C := 24) g o)

/-- The kernel's stretch: two views and a widening, the region, a view back, a zero splat and a test (nine operations). -/
abbrev kMid : List (HloOp Cert.KernelIdeal.τ KS (Elt Ideal)) := kPre.drop 211 ++ regionK :: kTail.take 5

/-- The reference's stretch: a zero splat, the channels' tests, the or over the channel axis, the or with the occupancy. -/
abbrev rMid : List (HloOp Cert.ReferenceIdeal.τ RS (Elt Ideal)) := (rOps.drop 211).take 6

set_option maxHeartbeats 4000000 in
theorem simMid : Sim (τA := Cert.KernelIdeal.τ) (τB := Cert.ReferenceIdeal.τ) (Val := Elt Ideal) ρseam kMid rMid ρmask := by
  intro WA WB hAg
  have hpK : Cert.Lib.Written.Pairs kMid [Cert.KernelIdeal.main_v153, Cert.KernelIdeal.main_v154, Cert.KernelIdeal.main_v155,
      Cert.KernelIdeal.main_v156, Cert.KernelIdeal.main_v157, Cert.KernelIdeal.main_c_42, Cert.KernelIdeal.main_v158,
      Cert.KernelIdeal.main_v159, Cert.KernelIdeal.main_v160] :=
    .cons rfl (.cons rfl (.cons rfl (.cons rfl (.cons rfl (.cons rfl (.cons rfl (.cons rfl (.cons rfl .nil))))))))
  have hpR : Cert.Lib.Written.Pairs rMid [Cert.ReferenceIdeal.main_cst_42, Cert.ReferenceIdeal.main_v153, Cert.ReferenceIdeal.main_v154,
      Cert.ReferenceIdeal.main_c_43, Cert.ReferenceIdeal.main_v155, Cert.ReferenceIdeal.main_v156] :=
    .cons rfl (.cons rfl (.cons rfl (.cons rfl (.cons rfl (.cons rfl .nil)))))
  refine Agree.cons ?_ fun p hp => ?_
  · have h95 := hAg ⟨Cert.KernelIdeal.main_v95, Cert.ReferenceIdeal.main_v95, rfl⟩ (by decide)
    have h152 := hAg ⟨Cert.KernelIdeal.main_v152, Cert.ReferenceIdeal.main_v152, rfl⟩ (by decide)
    show after [_, _, _, _, _, _, _, _, _] WA (Proc.devRef .tc Cert.KernelIdeal.main_v160)
      = after [_, _, _, _, _, _] WB (Proc.devRef .tc Cert.ReferenceIdeal.main_v156)
    after_results
    rw [← h95, ← h152]
    refine Cert.Hand.Mask.voxel_law (WA (Proc.devRef .tc Cert.KernelIdeal.main_v95)) (WA (Proc.devRef .tc Cert.KernelIdeal.main_v152))
      _ _ _ _ _ ?_ _ ?_ _ _ ?_ _
    · exact fun _ => rfl
    · exact fun _ => Ideal.ofBits_zero_f32
    · exact fun _ => rfl
  · have hk := (by decide : ∀ p ∈ ρseam, p.a ∉ [Cert.KernelIdeal.main_v153, Cert.KernelIdeal.main_v154, Cert.KernelIdeal.main_v155,
      Cert.KernelIdeal.main_v156, Cert.KernelIdeal.main_v157, Cert.KernelIdeal.main_c_42, Cert.KernelIdeal.main_v158,
      Cert.KernelIdeal.main_v159, Cert.KernelIdeal.main_v160]) p hp
    have hr := (by decide : ∀ p ∈ ρseam, p.b ∉ [Cert.ReferenceIdeal.main_cst_42, Cert.ReferenceIdeal.main_v153, Cert.ReferenceIdeal.main_v154,
      Cert.ReferenceIdeal.main_c_43, Cert.ReferenceIdeal.main_v155, Cert.ReferenceIdeal.main_v156]) p hp
    rw [hpK.keep hk WA, hpR.keep hr WB]
    exact hAg p hp

end Cert.Hand.Sim

end
-- ==== Proof.SimTail.lean ====
import proofs.«131294_j75445395522211_2_alg».proof.Proof.SimPairs

set_option maxRecDepth 16384

/-! # After the updated mask the two programs run the same operations again

Once the mask is there the remaining 87 operations of both programs — the near set, the in-bounds test of the target
coordinates and the two scatters into the target volume — correspond one to one again. From agreement on the mask and on
what the first stretch left, the seven results agree. -/

noncomputable section

namespace Cert.Hand.Sim

open Idealize.ShloMosaic Idealize.ShloMosaic.TcCoe Idealize.SL.Sem Idealize.ShloMosaic.StableHlo
open Cert.Lib.LineSimulation

set_option maxHeartbeats 400000000 in
theorem simTail : Sim (τA := Cert.KernelIdeal.τ) (τB := Cert.ReferenceIdeal.τ) (Val := Elt Ideal) ρmask
    (kTail.drop 5) (rOps.drop 217) ρres := by
  repeat (first | line_step | line_nary3)
  exact Sim.nil (by decide)

end Cert.Hand.Sim

end
-- ==== Proof.lean ====
/- The certificate of the updated-mask kernel against its reference.

   Both programs build, from sparse lists of voxel coordinates and values, the dense 96×96×96 volumes of a fusion step —
   visibility, global and current features (24 channels), occupancy, target — and return seven arrays. They differ in one
   place only: the updated mask, "some channel of the global feature volume is not 0 at the voxel, or the voxel is
   occupied". The reference computes it by host operations (a test of every channel, an or over the channel axis, an or
   with the occupancy). The kernel's program views the volumes as 9216 rows, runs a pipelined region over 36 blocks of 256
   rows whose body takes, per voxel, the maximum over the channels of the indicators "channel ≠ 0" from −∞, tests it
   against 0, or-s in the occupancy and stores a 32-bit word; it then views the words as a grid and tests them against 0.

   The frames: the kernel's program runs to the end, faults nowhere and leaves its arguments as they were, at either
   reading of the floats (`Kernel.Hand.frame`, `KernelIdeal.Hand.frame`: the region by the pipeline's launch theorem, the
   host lines around it writing only their own result buffers); the reference is a straight line of 304 host operations
   (`ReferenceIdeal.Hand.frame`).

   The values, floats read as extended reals: the kernel's region leaves in its result array the mask word of every
   voxel (`HandValue.final2`), so the whole program is one line of host operations with the region as one of them
   (`HandValue.tail_eq`). That line and the reference's correspond operation by operation before the mask (`simPre`) and
   after it (`simTail`), and at the mask the two stretches leave the same bits (`simMid`, by `Mask.voxel_law`: a maximum
   of zeros and ones from −∞ is above 0 exactly when an or of the same tests from 0 is 1). So from arguments that agree
   the seven results agree. No finiteness of the inputs is used: a comparison with 0 and a maximum are total on the
   extended reals. The idealization rewrote nothing, so `preserves` has nothing to state. -/
import proofs.«131294_j75445395522211_2_alg».proof.Defs
import proofs.«131294_j75445395522211_2_alg».proof.Proof.Gen.Kernel
import proofs.«131294_j75445395522211_2_alg».proof.Proof.Gen.KernelIdeal
import proofs.«131294_j75445395522211_2_alg».proof.Proof.Gen.ReferenceIdeal
import proofs.«131294_j75445395522211_2_alg».proof.Proof.Gen.Pre_finite_inputs
import proofs.«131294_j75445395522211_2_alg».proof.Proof.KernelFrame
import proofs.«131294_j75445395522211_2_alg».proof.Proof.KernelIdealFrame
import proofs.«131294_j75445395522211_2_alg».proof.Proof.KernelValue
import proofs.«131294_j75445395522211_2_alg».proof.Proof.ReferenceFrame
import proofs.«131294_j75445395522211_2_alg».proof.Proof.SimPre
import proofs.«131294_j75445395522211_2_alg».proof.Proof.SimMid
import proofs.«131294_j75445395522211_2_alg».proof.Proof.SimTail
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo
open Cert.Lib.LineSimulation Cert.Hand.Sim

/-! ## The two lines, whole -/

/-- A list cut before position `n`, an element put in, and a second list cut after position `k`, put together again. -/
theorem take_mid_drop {α : Type} (l t : List α) (r : α) (n k : Nat) :
    l.take n ++ ((l.drop n ++ r :: t.take k) ++ t.drop k) = l ++ r :: t := by
  calc l.take n ++ ((l.drop n ++ r :: t.take k) ++ t.drop k)
      = l.take n ++ (l.drop n ++ r :: t) := by
        simp only [List.append_assoc, List.cons_append, List.take_append_drop]
    _ = l ++ r :: t := by rw [← List.append_assoc, List.take_append_drop]

theorem drop_217 {α : Type} (l : List α) : l.drop 217 = (l.drop 211).drop 6 := by
  simp [List.drop_drop]

/-- THE TWO PROGRAMS AS LINES: the kernel's host operations with its region as one operation among them, and the
    reference's 304 operations, carry arguments that agree to results that agree. -/
theorem simAll : Sim (τA := Cert.KernelIdeal.τ) (τB := Cert.ReferenceIdeal.τ) (Val := Elt Ideal) ρargs
    (kPre ++ regionK :: kTail) rOps ρres := by
  have h : Sim (τA := Cert.KernelIdeal.τ) (τB := Cert.ReferenceIdeal.τ) (Val := Elt Ideal) ρargs
      (kPre.take 211 ++ ((kPre.drop 211 ++ regionK :: kTail.take 5) ++ kTail.drop 5))
      (rOps.take 211 ++ ((rOps.drop 211).take 6 ++ rOps.drop 217)) ρres :=
    Sim.append simPre (Sim.append simMid simTail)
  rw [take_mid_drop, drop_217, List.take_append_drop, List.take_append_drop] at h
  exact h

/-! ## The kernel's program as one line -/

/-- The region read as a value is the operation the simulation runs. -/
theorem region_same : Cert.KernelIdeal.HandValue.regionOp = regionK := rfl

/-- What the kernel's program leaves in a buffer that bypasses the region: the fold of its whole line — the host
    operations before the region, the region as one operation, the host operations after it — over the launch memory. -/
theorem kernel_line (m : (ℓ : Loc Cert.KernelIdeal.nD Cert.KernelIdeal.τ Cert.KernelIdeal.sig) → Buf (Elt Ideal) ℓ)
    (c : Dev Cert.KernelIdeal.nD) (b : Ref Cert.KernelIdeal.sig .tc) :
    Pipeline.afterTail₀ Cert.KernelIdeal.cfgs (Cert.KernelIdeal.Hand.dats m) 0 (Cert.KernelIdeal.Hand.V0 m)
        [Cert.KernelIdeal.Gen.hostOps1, Cert.KernelIdeal.Gen.hostOps1_1, Cert.KernelIdeal.Gen.hostOps1_2] c b
      = after (kPre ++ regionK :: kTail) (fun b => m (c, b)) (Proc.devRef .tc b) := by
  rw [← region_same]
  exact Cert.KernelIdeal.HandValue.tail_eq m c b

/-- A result buffer of the kernel's program after its run, beside the reference's: the run's post gives the buffer as
    the lines after the region leave it, that is as the whole line leaves it, and the lines agree on the pair. -/
theorem kernel_result (m : (ℓ : Loc Cert.KernelIdeal.nD Cert.KernelIdeal.τ Cert.KernelIdeal.sig) → Buf (Elt Ideal) ℓ)
    (r : PUnit × MemSt Cert.KernelIdeal.nD Cert.KernelIdeal.τ Cert.KernelIdeal.sig (Elt Ideal))
    (h : Pipeline.FramePost Cert.KernelIdeal.cfgs (Cert.KernelIdeal.Hand.dats m) 0
      (Pipeline.afterTail₀ Cert.KernelIdeal.cfgs (Cert.KernelIdeal.Hand.dats m) 0 (Cert.KernelIdeal.Hand.V0 m)
        [Cert.KernelIdeal.Gen.hostOps1, Cert.KernelIdeal.Gen.hostOps1_1, Cert.KernelIdeal.Gen.hostOps1_2]) r)
    (c : Dev Cert.KernelIdeal.nD) (p : Pair KS RS) (hp : p ∈ ρres) (hs : p.a.isScoped = false)
    (ha : ∀ w, ((Cert.KernelIdeal.cfgs 0).spec w).arr.view.ref ≠ p.a)
    (WB : Valuation Cert.ReferenceIdeal.τ RS (Elt Ideal))
    (hsim : Agree ρres (after (kPre ++ regionK :: kTail) (fun b => m (c, b))) WB) :
    p.cast (r.2.mem ((c.tc : Thread Cert.KernelIdeal.nD Cert.KernelIdeal.τ).loc p.a)) = WB (Proc.devRef .tc p.b) := by
  rw [(h c).2 p.a (Pipeline.mem_restRefs_of p.a hs ha), kernel_line m c p.a]
  exact hsim p hp

/-! ## The claims -/

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Hand.frame m ρ

/-- From memories that agree on the arguments the two programs end with the same seven results, element by element as
    extended reals and bits: each result is what the reference's line leaves in its buffer, and the kernel's line leaves
    the same (`simAll`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  have hsim : ∀ c : Dev Cert.KernelIdeal.nD, Agree ρres (after (kPre ++ regionK :: kTail) (fun b => m (c, b)))
      (after rOps (launchContents m' c)) := fun c => simAll _ _
      (Agree.cons ((hagree c).1).symm
      (Agree.cons ((hagree c).2.1).symm
      (Agree.cons ((hagree c).2.2.1).symm
      (Agree.cons ((hagree c).2.2.2.1).symm
      (Agree.cons ((hagree c).2.2.2.2.1).symm
      (Agree.cons ((hagree c).2.2.2.2.2.1).symm
      (Agree.cons ((hagree c).2.2.2.2.2.2.1).symm
      (Agree.cons ((hagree c).2.2.2.2.2.2.2.1).symm
      (Agree.cons ((hagree c).2.2.2.2.2.2.2.2.1).symm
      (Agree.cons ((hagree c).2.2.2.2.2.2.2.2.2.1).symm
      (Agree.cons ((hagree c).2.2.2.2.2.2.2.2.2.2).symm
      Agree.nil)))))))))))
  refine ⟨(fun c => after rOps (launchContents m' c) (Proc.devRef .tc Cert.ReferenceIdeal.main_v156)),
    (fun c => after rOps (launchContents m' c) (Proc.devRef .tc Cert.ReferenceIdeal.main_v122)),
    (fun c => after rOps (launchContents m' c) (Proc.devRef .tc Cert.ReferenceIdeal.main_v95)),
    (fun c => after rOps (launchContents m' c) (Proc.devRef .tc Cert.ReferenceIdeal.main_v223)),
    (fun c => after rOps (launchContents m' c) (Proc.devRef .tc Cert.ReferenceIdeal.main_v66)),
    (fun c => after rOps (launchContents m' c) (Proc.devRef .tc Cert.ReferenceIdeal.main_v167)),
    (fun c => after rOps (launchContents m' c) (Proc.devRef .tc Cert.ReferenceIdeal.main_v158)),
    ?_, ?_⟩
  · refine (θ_run Cert.KernelIdeal.defs _ _).mono (fun r h c => ?_) (Cert.KernelIdeal.Hand.run_main (F := Ideal) m ρ)
    exact ⟨kernel_result m r h c ⟨Cert.KernelIdeal.main_v160, Cert.ReferenceIdeal.main_v156, rfl⟩ (by decide) (by decide) (by decide) _ (hsim c),
      kernel_result m r h c ⟨Cert.KernelIdeal.main_v122, Cert.ReferenceIdeal.main_v122, rfl⟩ (by decide) (by decide) (by decide) _ (hsim c),
      kernel_result m r h c ⟨Cert.KernelIdeal.main_v95, Cert.ReferenceIdeal.main_v95, rfl⟩ (by decide) (by decide) (by decide) _ (hsim c),
      kernel_result m r h c ⟨Cert.KernelIdeal.main_v227, Cert.ReferenceIdeal.main_v223, rfl⟩ (by decide) (by decide) (by decide) _ (hsim c),
      kernel_result m r h c ⟨Cert.KernelIdeal.main_v66, Cert.ReferenceIdeal.main_v66, rfl⟩ (by decide) (by decide) (by decide) _ (hsim c),
      kernel_result m r h c ⟨Cert.KernelIdeal.main_v171, Cert.ReferenceIdeal.main_v167, rfl⟩ (by decide) (by decide) (by decide) _ (hsim c),
      kernel_result m r h c ⟨Cert.KernelIdeal.main_v162, Cert.ReferenceIdeal.main_v158, rfl⟩ (by decide) (by decide) (by decide) _ (hsim c),
      ((h c).2 Cert.KernelIdeal.main_arg0 (Pipeline.mem_restRefs_of Cert.KernelIdeal.main_arg0 (by decide) (by decide))).trans
        (Cert.KernelIdeal.Hand.W_main_arg0 m (Cert.KernelIdeal.Hand.dats m) c),
      ((h c).2 Cert.KernelIdeal.main_arg1 (Pipeline.mem_restRefs_of Cert.KernelIdeal.main_arg1 (by decide) (by decide))).trans
        (Cert.KernelIdeal.Hand.W_main_arg1 m (Cert.KernelIdeal.Hand.dats m) c),
      ((h c).2 Cert.KernelIdeal.main_arg2 (Pipeline.mem_restRefs_of Cert.KernelIdeal.main_arg2 (by decide) (by decide))).trans
        (Cert.KernelIdeal.Hand.W_main_arg2 m (Cert.KernelIdeal.Hand.dats m) c),
      ((h c).2 Cert.KernelIdeal.main_arg3 (Pipeline.mem_restRefs_of Cert.KernelIdeal.main_arg3 (by decide) (by decide))).trans
        (Cert.KernelIdeal.Hand.W_main_arg3 m (Cert.KernelIdeal.Hand.dats m) c),
      ((h c).2 Cert.KernelIdeal.main_arg4 (Pipeline.mem_restRefs_of Cert.KernelIdeal.main_arg4 (by decide) (by decide))).trans
        (Cert.KernelIdeal.Hand.W_main_arg4 m (Cert.KernelIdeal.Hand.dats m) c),
      ((h c).2 Cert.KernelIdeal.main_arg5 (Pipeline.mem_restRefs_of Cert.KernelIdeal.main_arg5 (by decide) (by decide))).trans
        (Cert.KernelIdeal.Hand.W_main_arg5 m (Cert.KernelIdeal.Hand.dats m) c),
      ((h c).2 Cert.KernelIdeal.main_arg6 (Pipeline.mem_restRefs_of Cert.KernelIdeal.main_arg6 (by decide) (by decide))).trans
        (Cert.KernelIdeal.Hand.W_main_arg6 m (Cert.KernelIdeal.Hand.dats m) c),
      ((h c).2 Cert.KernelIdeal.main_arg7 (Pipeline.mem_restRefs_of Cert.KernelIdeal.main_arg7 (by decide) (by decide))).trans
        (Cert.KernelIdeal.Hand.W_main_arg7 m (Cert.KernelIdeal.Hand.dats m) c),
      ((h c).2 Cert.KernelIdeal.main_arg8 (Pipeline.mem_restRefs_of Cert.KernelIdeal.main_arg8 (by decide) (by decide))).trans
        (Cert.KernelIdeal.Hand.W_main_arg8 m (Cert.KernelIdeal.Hand.dats m) c),
      ((h c).2 Cert.KernelIdeal.main_arg9 (Pipeline.mem_restRefs_of Cert.KernelIdeal.main_arg9 (by decide) (by decide))).trans
        (Cert.KernelIdeal.Hand.W_main_arg9 m (Cert.KernelIdeal.Hand.dats m) c),
      ((h c).2 Cert.KernelIdeal.main_arg10 (Pipeline.mem_restRefs_of Cert.KernelIdeal.main_arg10 (by decide) (by decide))).trans
        (Cert.KernelIdeal.Hand.W_main_arg10 m (Cert.KernelIdeal.Hand.dats m) c)⟩
  · refine (θ_run Cert.ReferenceIdeal.defs _ _).mono (fun r h c => ?_) (Cert.ReferenceIdeal.Hand.run_fold (F := Ideal) m' ρ')
    exact ⟨h c Cert.ReferenceIdeal.main_v156, h c Cert.ReferenceIdeal.main_v122, h c Cert.ReferenceIdeal.main_v95, h c Cert.ReferenceIdeal.main_v223, h c Cert.ReferenceIdeal.main_v66, h c Cert.ReferenceIdeal.main_v167, h c Cert.ReferenceIdeal.main_v158,
      (h c Cert.ReferenceIdeal.main_arg0).trans (Cert.ReferenceIdeal.Hand.kept_main_arg0 _),
      (h c Cert.ReferenceIdeal.main_arg1).trans (Cert.ReferenceIdeal.Hand.kept_main_arg1 _),
      (h c Cert.ReferenceIdeal.main_arg2).trans (Cert.ReferenceIdeal.Hand.kept_main_arg2 _),
      (h c Cert.ReferenceIdeal.main_arg3).trans (Cert.ReferenceIdeal.Hand.kept_main_arg3 _),
      (h c Cert.ReferenceIdeal.main_arg4).trans (Cert.ReferenceIdeal.Hand.kept_main_arg4 _),
      (h c Cert.ReferenceIdeal.main_arg5).trans (Cert.ReferenceIdeal.Hand.kept_main_arg5 _),
      (h c Cert.ReferenceIdeal.main_arg6).trans (Cert.ReferenceIdeal.Hand.kept_main_arg6 _),
      (h c Cert.ReferenceIdeal.main_arg7).trans (Cert.ReferenceIdeal.Hand.kept_main_arg7 _),
      (h c Cert.ReferenceIdeal.main_arg8).trans (Cert.ReferenceIdeal.Hand.kept_main_arg8 _),
      (h c Cert.ReferenceIdeal.main_arg9).trans (Cert.ReferenceIdeal.Hand.kept_main_arg9 _),
      (h c Cert.ReferenceIdeal.main_arg10).trans (Cert.ReferenceIdeal.Hand.kept_main_arg10 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
